-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x256x512 : Shape := ⟨4, ![8, 32, 256, 512]⟩
abbrev S_ : Shape := ⟨0, ![]⟩

class Facts : Prop where
  bcast_S_S8x32x256x512 : S_.BroadcastsInDim S8x32x256x512 (![] : Fin 0 → Fin S8x32x256x512.rank)
  reducesTo_S8x32x256x512_S_d0_1_2_3 : S8x32x256x512.ReducesTo [0, 1, 2, 3] S_
  h_S_ : 0 < S_.numel

variable [Facts]

def fn {F : FTy → Type} [FloatOps F] (main_arg0 : FVec F S8x32x256x512 .f32) (main_arg1 : FVec F S8x32x256x512 .f32) : IVec S_ 1 :=
  let main_v0 : FVec F S8x32x256x512 .f32 := Host.absf main_arg0
  let main_cst : FVec F S_ .f32 := constant S_ .f32 0x7F800000#32
  let main_v1 : FVec F S8x32x256x512 .f32 := broadcastInDim S8x32x256x512 ![] bcast_S_S8x32x256x512 main_cst
  let main_v2 : IVec S8x32x256x512 1 := cmpf .olt main_v0 main_v1
  let main_c : IVec S_ 1 := constantI S_ 1 1#1
  let main_v3 : IVec S_ 1 := (fun x v => Host.reduce IntOp.andi x v reducesTo_S8x32x256x512_S_d0_1_2_3 h_S_) main_v2 main_c
  let main_v4 : FVec F S8x32x256x512 .f32 := Host.absf main_arg1
  let main_cst_0 : FVec F S_ .f32 := constant S_ .f32 0x7F800000#32
  let main_v5 : FVec F S8x32x256x512 .f32 := broadcastInDim S8x32x256x512 ![] bcast_S_S8x32x256x512 main_cst_0
  let main_v6 : IVec S8x32x256x512 1 := cmpf .olt main_v4 main_v5
  let main_c_1 : IVec S_ 1 := constantI S_ 1 1#1
  let main_v7 : IVec S_ 1 := (fun x v => Host.reduce IntOp.andi x v reducesTo_S8x32x256x512_S_d0_1_2_3 h_S_) main_v6 main_c_1
  let main_v8 : IVec S_ 1 := andi main_v3 main_v7
  main_v8
-- ==== Kernel.lean ====
abbrev S8x32x256x512 : Shape := ⟨4, ![8, 32, 256, 512]⟩
abbrev S8x25x256x512 : Shape := ⟨4, ![8, 25, 256, 512]⟩
abbrev S1x32x64x512 : Shape := ⟨4, ![1, 32, 64, 512]⟩
abbrev S1x25x64x512 : Shape := ⟨4, ![1, 25, 64, 512]⟩
abbrev S32x64x512 : Shape := ⟨3, ![32, 64, 512]⟩
abbrev S64x512 : Shape := ⟨2, ![64, 512]⟩
abbrev S1x1x64x512 : Shape := ⟨4, ![1, 1, 64, 512]⟩

abbrev nBuf : Space → Nat
  | .hbm => 3
  | .vmem => 6
  | .smem => 0
  | _ => 0

abbrev bufTy : (tb : Table) → Fin (tcTables nBuf tb) → BufTy
  | .hbm, ⟨0, _⟩ => ⟨S8x32x256x512, .f32⟩
  | .hbm, ⟨1, _⟩ => ⟨S8x32x256x512, .f32⟩
  | .hbm, ⟨2, _⟩ => ⟨S8x25x256x512, .f32⟩
  | .local _ .vmem, ⟨0, _⟩ => ⟨S1x32x64x512, .f32⟩
  | .local _ .vmem, ⟨1, _⟩ => ⟨S1x32x64x512, .f32⟩
  | .local _ .vmem, ⟨2, _⟩ => ⟨S1x32x64x512, .f32⟩
  | .local _ .vmem, ⟨3, _⟩ => ⟨S1x32x64x512, .f32⟩
  | .local _ .vmem, ⟨4, _⟩ => ⟨S1x25x64x512, .f32⟩
  | .local _ .vmem, ⟨5, _⟩ => ⟨S1x25x64x512, .f32⟩
  | _, _ => ⟨S8x32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x32x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x25x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x32x64x512_S1x32x64x512_0_0_0_0 : ∀ a, (![0, 0, 0, 0] : Fin 4 → Nat) a + S1x32x64x512.size a ≤ S1x32x64x512.size a
  h_S1x32x64x512 : 0 < S1x32x64x512.numel
  shapeCasts_S1x32x64x512_S32x64x512 : S1x32x64x512.ShapeCasts S32x64x512
  iota_S64x512_d1_w32 : S64x512.Iotas .tc 32 [1]
  rotates_S32x64x512_d2 : S32x64x512.Rotates 2 none
  reduces_S32x64x512_S64x512 : S32x64x512.Reduces [0] S64x512
  inb_S1x25x64x512_S1x1x64x512_0_0_0_0 : ∀ a, (![0, 0, 0, 0] : Fin 4 → Nat) a + S1x1x64x512.size a ≤ S1x25x64x512.size a
  h_S1x1x64x512 : 0 < S1x1x64x512.numel
  shapeCasts_S1x1x64x512_S64x512 : S1x1x64x512.ShapeCasts S64x512
  shapeCasts_S64x512_S1x1x64x512 : S64x512.ShapeCasts S1x1x64x512
  inb_S1x25x64x512_S1x1x64x512_0_1_0_0 : ∀ a, (![0, 1, 0, 0] : Fin 4 → Nat) a + S1x1x64x512.size a ≤ S1x25x64x512.size a
  inb_S1x25x64x512_S1x1x64x512_0_2_0_0 : ∀ a, (![0, 2, 0, 0] : Fin 4 → Nat) a + S1x1x64x512.size a ≤ S1x25x64x512.size a
  inb_S1x25x64x512_S1x1x64x512_0_3_0_0 : ∀ a, (![0, 3, 0, 0] : Fin 4 → Nat) a + S1x1x64x512.size a ≤ S1x25x64x512.size a
  inb_S1x25x64x512_S1x1x64x512_0_4_0_0 : ∀ a, (![0, 4, 0, 0] : Fin 4 → Nat) a + S1x1x64x512.size a ≤ S1x25x64x512.size a
  inb_S1x25x64x512_S1x1x64x512_0_5_0_0 : ∀ a, (![0, 5, 0, 0] : Fin 4 → Nat) a + S1x1x64x512.size a ≤ S1x25x64x512.size a
  inb_S1x25x64x512_S1x1x64x512_0_6_0_0 : ∀ a, (![0, 6, 0, 0] : Fin 4 → Nat) a + S1x1x64x512.size a ≤ S1x25x64x512.size a
  inb_S1x25x64x512_S1x1x64x512_0_7_0_0 : ∀ a, (![0, 7, 0, 0] : Fin 4 → Nat) a + S1x1x64x512.size a ≤ S1x25x64x512.size a
  inb_S1x25x64x512_S1x1x64x512_0_8_0_0 : ∀ a, (![0, 8, 0, 0] : Fin 4 → Nat) a + S1x1x64x512.size a ≤ S1x25x64x512.size a
  inb_S1x25x64x512_S1x1x64x512_0_9_0_0 : ∀ a, (![0, 9, 0, 0] : Fin 4 → Nat) a + S1x1x64x512.size a ≤ S1x25x64x512.size a
  inb_S1x25x64x512_S1x1x64x512_0_10_0_0 : ∀ a, (![0, 10, 0, 0] : Fin 4 → Nat) a + S1x1x64x512.size a ≤ S1x25x64x512.size a
  inb_S1x25x64x512_S1x1x64x512_0_11_0_0 : ∀ a, (![0, 11, 0, 0] : Fin 4 → Nat) a + S1x1x64x512.size a ≤ S1x25x64x512.size a
  inb_S1x25x64x512_S1x1x64x512_0_12_0_0 : ∀ a, (![0, 12, 0, 0] : Fin 4 → Nat) a + S1x1x64x512.size a ≤ S1x25x64x512.size a
  inb_S1x25x64x512_S1x1x64x512_0_13_0_0 : ∀ a, (![0, 13, 0, 0] : Fin 4 → Nat) a + S1x1x64x512.size a ≤ S1x25x64x512.size a
  inb_S1x25x64x512_S1x1x64x512_0_14_0_0 : ∀ a, (![0, 14, 0, 0] : Fin 4 → Nat) a + S1x1x64x512.size a ≤ S1x25x64x512.size a
  inb_S1x25x64x512_S1x1x64x512_0_15_0_0 : ∀ a, (![0, 15, 0, 0] : Fin 4 → Nat) a + S1x1x64x512.size a ≤ S1x25x64x512.size a
  inb_S1x25x64x512_S1x1x64x512_0_16_0_0 : ∀ a, (![0, 16, 0, 0] : Fin 4 → Nat) a + S1x1x64x512.size a ≤ S1x25x64x512.size a
  inb_S1x25x64x512_S1x1x64x512_0_17_0_0 : ∀ a, (![0, 17, 0, 0] : Fin 4 → Nat) a + S1x1x64x512.size a ≤ S1x25x64x512.size a
  inb_S1x25x64x512_S1x1x64x512_0_18_0_0 : ∀ a, (![0, 18, 0, 0] : Fin 4 → Nat) a + S1x1x64x512.size a ≤ S1x25x64x512.size a
  inb_S1x25x64x512_S1x1x64x512_0_19_0_0 : ∀ a, (![0, 19, 0, 0] : Fin 4 → Nat) a + S1x1x64x512.size a ≤ S1x25x64x512.size a
  inb_S1x25x64x512_S1x1x64x512_0_20_0_0 : ∀ a, (![0, 20, 0, 0] : Fin 4 → Nat) a + S1x1x64x512.size a ≤ S1x25x64x512.size a
  inb_S1x25x64x512_S1x1x64x512_0_21_0_0 : ∀ a, (![0, 21, 0, 0] : Fin 4 → Nat) a + S1x1x64x512.size a ≤ S1x25x64x512.size a
  inb_S1x25x64x512_S1x1x64x512_0_22_0_0 : ∀ a, (![0, 22, 0, 0] : Fin 4 → Nat) a + S1x1x64x512.size a ≤ S1x25x64x512.size a
  inb_S1x25x64x512_S1x1x64x512_0_23_0_0 : ∀ a, (![0, 23, 0, 0] : Fin 4 → Nat) a + S1x1x64x512.size a ≤ S1x25x64x512.size a
  inb_S1x25x64x512_S1x1x64x512_0_24_0_0 : ∀ a, (![0, 24, 0, 0] : Fin 4 → Nat) a + S1x1x64x512.size a ≤ S1x25x64x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64x512.size a ≤ S8x32x256x512.size a
  hwx0_0 : ∀ i : grid0.Coords, EltTy.bits .f32 = 32 ∨ (Rect.block (s := S8x32x256x512) S1x32x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x64x512.size a ≤ S8x32x256x512.size a
  hwx0_1 : ∀ i : grid0.Coords, EltTy.bits .f32 = 32 ∨ (Rect.block (s := S8x32x256x512) S1x32x64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x25x64x512.size a ≤ S8x25x256x512.size a
  hwx0_2 : ∀ i : grid0.Coords, EltTy.bits .f32 = 32 ∨ (Rect.block (s := S8x25x256x512) S1x25x64x512.size (cc0_transform_2 i) (hinb0_2 i)).WholeWords (EltTy.packing .f32)

variable [Facts₀]

abbrev win0_0 : Pipeline.Window sig grid0 :=
  Pipeline.Window.ofSpec (Memref.whole main_arg0) S1x32x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x25x64x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32x256x512 : Shape := ⟨4, ![8, 32, 256, 512]⟩
abbrev S8x32x256x500 : Shape := ⟨4, ![8, 32, 256, 500]⟩
abbrev S_ : Shape := ⟨0, ![]⟩
abbrev S8x256x500 : Shape := ⟨3, ![8, 256, 500]⟩
abbrev S8x256x512 : Shape := ⟨3, ![8, 256, 512]⟩
abbrev S8x32x256x501 : Shape := ⟨4, ![8, 32, 256, 501]⟩
abbrev S8x256x501 : Shape := ⟨3, ![8, 256, 501]⟩
abbrev S8x32x256x502 : Shape := ⟨4, ![8, 32, 256, 502]⟩
abbrev S8x256x502 : Shape := ⟨3, ![8, 256, 502]⟩
abbrev S8x32x256x503 : Shape := ⟨4, ![8, 32, 256, 503]⟩
abbrev S8x256x503 : Shape := ⟨3, ![8, 256, 503]⟩
abbrev S8x32x256x504 : Shape := ⟨4, ![8, 32, 256, 504]⟩
abbrev S8x256x504 : Shape := ⟨3, ![8, 256, 504]⟩
abbrev S8x32x256x505 : Shape := ⟨4, ![8, 32, 256, 505]⟩
abbrev S8x256x505 : Shape := ⟨3, ![8, 256, 505]⟩
abbrev S8x32x256x506 : Shape := ⟨4, ![8, 32, 256, 506]⟩
abbrev S8x256x506 : Shape := ⟨3, ![8, 256, 506]⟩
abbrev S8x32x256x507 : Shape := ⟨4, ![8, 32, 256, 507]⟩
abbrev S8x256x507 : Shape := ⟨3, ![8, 256, 507]⟩
abbrev S8x32x256x508 : Shape := ⟨4, ![8, 32, 256, 508]⟩
abbrev S8x256x508 : Shape := ⟨3, ![8, 256, 508]⟩
abbrev S8x32x256x509 : Shape := ⟨4, ![8, 32, 256, 509]⟩
abbrev S8x256x509 : Shape := ⟨3, ![8, 256, 509]⟩
abbrev S8x32x256x510 : Shape := ⟨4, ![8, 32, 256, 510]⟩
abbrev S8x256x510 : Shape := ⟨3, ![8, 256, 510]⟩
abbrev S8x32x256x511 : Shape := ⟨4, ![8, 32, 256, 511]⟩
abbrev S8x256x511 : Shape := ⟨3, ![8, 256, 511]⟩
abbrev S8x1x256x512 : Shape := ⟨4, ![8, 1, 256, 512]⟩
abbrev S8x16x256x512 : Shape := ⟨4, ![8, 16, 256, 512]⟩
abbrev S8x9x256x512 : Shape := ⟨4, ![8, 9, 256, 512]⟩
abbrev S8x25x256x512 : Shape := ⟨4, ![8, 25, 256, 512]⟩

abbrev nBuf : Space → Nat
  | .hbm => 250
  | .vmem => 0
  | .smem => 0
  | _ => 0

abbrev hbmTy0_0 (i : Nat) : BufTy := match i % 128 with
  | 0 => ⟨S8x32x256x512, .f32⟩
  | 1 => ⟨S8x32x256x512, .f32⟩
  | 2 => ⟨S8x32x256x500, .f32⟩
  | 3 => ⟨S8x32x256x500, .f32⟩
  | 4 => ⟨S8x32x256x500, .f32⟩
  | 5 => ⟨S8x32x256x500, .f32⟩
  | 6 => ⟨S_, .f32⟩
  | 7 => ⟨S8x256x500, .f32⟩
  | 8 => ⟨S_, .i32⟩
  | 9 => ⟨S_, .f32⟩
  | 10 => ⟨S8x256x512, .f32⟩
  | 11 => ⟨S8x32x256x501, .f32⟩
  | 12 => ⟨S8x32x256x501, .f32⟩
  | 13 => ⟨S8x32x256x501, .f32⟩
  | 14 => ⟨S8x32x256x501, .f32⟩
  | 15 => ⟨S_, .f32⟩
  | 16 => ⟨S8x256x501, .f32⟩
  | 17 => ⟨S_, .i32⟩
  | 18 => ⟨S_, .f32⟩
  | 19 => ⟨S8x256x512, .f32⟩
  | 20 => ⟨S8x32x256x502, .f32⟩
  | 21 => ⟨S8x32x256x502, .f32⟩
  | 22 => ⟨S8x32x256x502, .f32⟩
  | 23 => ⟨S8x32x256x502, .f32⟩
  | 24 => ⟨S_, .f32⟩
  | 25 => ⟨S8x256x502, .f32⟩
  | 26 => ⟨S_, .i32⟩
  | 27 => ⟨S_, .f32⟩
  | 28 => ⟨S8x256x512, .f32⟩
  | 29 => ⟨S8x32x256x503, .f32⟩
  | 30 => ⟨S8x32x256x503, .f32⟩
  | 31 => ⟨S8x32x256x503, .f32⟩
  | 32 => ⟨S8x32x256x503, .f32⟩
  | 33 => ⟨S_, .f32⟩
  | 34 => ⟨S8x256x503, .f32⟩
  | 35 => ⟨S_, .i32⟩
  | 36 => ⟨S_, .f32⟩
  | 37 => ⟨S8x256x512, .f32⟩
  | 38 => ⟨S8x32x256x504, .f32⟩
  | 39 => ⟨S8x32x256x504, .f32⟩
  | 40 => ⟨S8x32x256x504, .f32⟩
  | 41 => ⟨S8x32x256x504, .f32⟩
  | 42 => ⟨S_, .f32⟩
  | 43 => ⟨S8x256x504, .f32⟩
  | 44 => ⟨S_, .i32⟩
  | 45 => ⟨S_, .f32⟩
  | 46 => ⟨S8x256x512, .f32⟩
  | 47 => ⟨S8x32x256x505, .f32⟩
  | 48 => ⟨S8x32x256x505, .f32⟩
  | 49 => ⟨S8x32x256x505, .f32⟩
  | 50 => ⟨S8x32x256x505, .f32⟩
  | 51 => ⟨S_, .f32⟩
  | 52 => ⟨S8x256x505, .f32⟩
  | 53 => ⟨S_, .i32⟩
  | 54 => ⟨S_, .f32⟩
  | 55 => ⟨S8x256x512, .f32⟩
  | 56 => ⟨S8x32x256x506, .f32⟩
  | 57 => ⟨S8x32x256x506, .f32⟩
  | 58 => ⟨S8x32x256x506, .f32⟩
  | 59 => ⟨S8x32x256x506, .f32⟩
  | 60 => ⟨S_, .f32⟩
  | 61 => ⟨S8x256x506, .f32⟩
  | 62 => ⟨S_, .i32⟩
  | 63 => ⟨S_, .f32⟩
  | 64 => ⟨S8x256x512, .f32⟩
  | 65 => ⟨S8x32x256x507, .f32⟩
  | 66 => ⟨S8x32x256x507, .f32⟩
  | 67 => ⟨S8x32x256x507, .f32⟩
  | 68 => ⟨S8x32x256x507, .f32⟩
  | 69 => ⟨S_, .f32⟩
  | 70 => ⟨S8x256x507, .f32⟩
  | 71 => ⟨S_, .i32⟩
  | 72 => ⟨S_, .f32⟩
  | 73 => ⟨S8x256x512, .f32⟩
  | 74 => ⟨S8x32x256x508, .f32⟩
  | 75 => ⟨S8x32x256x508, .f32⟩
  | 76 => ⟨S8x32x256x508, .f32⟩
  | 77 => ⟨S8x32x256x508, .f32⟩
  | 78 => ⟨S_, .f32⟩
  | 79 => ⟨S8x256x508, .f32⟩
  | 80 => ⟨S_, .i32⟩
  | 81 => ⟨S_, .f32⟩
  | 82 => ⟨S8x256x512, .f32⟩
  | 83 => ⟨S8x32x256x509, .f32⟩
  | 84 => ⟨S8x32x256x509, .f32⟩
  | 85 => ⟨S8x32x256x509, .f32⟩
  | 86 => ⟨S8x32x256x509, .f32⟩
  | 87 => ⟨S_, .f32⟩
  | 88 => ⟨S8x256x509, .f32⟩
  | 89 => ⟨S_, .i32⟩
  | 90 => ⟨S_, .f32⟩
  | 91 => ⟨S8x256x512, .f32⟩
  | 92 => ⟨S8x32x256x510, .f32⟩
  | 93 => ⟨S8x32x256x510, .f32⟩
  | 94 => ⟨S8x32x256x510, .f32⟩
  | 95 => ⟨S8x32x256x510, .f32⟩
  | 96 => ⟨S_, .f32⟩
  | 97 => ⟨S8x256x510, .f32⟩
  | 98 => ⟨S_, .i32⟩
  | 99 => ⟨S_, .f32⟩
  | 100 => ⟨S8x256x512, .f32⟩
  | 101 => ⟨S8x32x256x511, .f32⟩
  | 102 => ⟨S8x32x256x511, .f32⟩
  | 103 => ⟨S8x32x256x511, .f32⟩
  | 104 => ⟨S8x32x256x511, .f32⟩
  | 105 => ⟨S_, .f32⟩
  | 106 => ⟨S8x256x511, .f32⟩
  | 107 => ⟨S_, .i32⟩
  | 108 => ⟨S_, .f32⟩
  | 109 => ⟨S8x256x512, .f32⟩
  | 110 => ⟨S8x32x256x512, .f32⟩
  | 111 => ⟨S8x32x256x512, .f32⟩
  | 112 => ⟨S_, .f32⟩
  | 113 => ⟨S8x256x512, .f32⟩
  | 114 => ⟨S8x32x256x511, .f32⟩
  | 115 => ⟨S8x32x256x511, .f32⟩
  | 116 => ⟨S8x32x256x511, .f32⟩
  | 117 => ⟨S8x32x256x511, .f32⟩
  | 118 => ⟨S_, .f32⟩
  | 119 => ⟨S8x256x511, .f32⟩
  | 120 => ⟨S_, .i32⟩
  | 121 => ⟨S_, .f32⟩
  | 122 => ⟨S8x256x512, .f32⟩
  | 123 => ⟨S8x32x256x510, .f32⟩
  | 124 => ⟨S8x32x256x510, .f32⟩
  | 125 => ⟨S8x32x256x510, .f32⟩
  | 126 => ⟨S8x32x256x510, .f32⟩
  | 127 => ⟨S_, .f32⟩
  | _ => ⟨S8x32x256x512, .f32⟩

abbrev hbmTy0_1 (i : Nat) : BufTy := match i % 128 with
  | 0 => ⟨S8x256x510, .f32⟩
  | 1 => ⟨S_, .i32⟩
  | 2 => ⟨S_, .f32⟩
  | 3 => ⟨S8x256x512, .f32⟩
  | 4 => ⟨S8x32x256x509, .f32⟩
  | 5 => ⟨S8x32x256x509, .f32⟩
  | 6 => ⟨S8x32x256x509, .f32⟩
  | 7 => ⟨S8x32x256x509, .f32⟩
  | 8 => ⟨S_, .f32⟩
  | 9 => ⟨S8x256x509, .f32⟩
  | 10 => ⟨S_, .i32⟩
  | 11 => ⟨S_, .f32⟩
  | 12 => ⟨S8x256x512, .f32⟩
  | 13 => ⟨S8x32x256x508, .f32⟩
  | 14 => ⟨S8x32x256x508, .f32⟩
  | 15 => ⟨S8x32x256x508, .f32⟩
  | 16 => ⟨S8x32x256x508, .f32⟩
  | 17 => ⟨S_, .f32⟩
  | 18 => ⟨S8x256x508, .f32⟩
  | 19 => ⟨S_, .i32⟩
  | 20 => ⟨S_, .f32⟩
  | 21 => ⟨S8x256x512, .f32⟩
  | 22 => ⟨S8x32x256x507, .f32⟩
  | 23 => ⟨S8x32x256x507, .f32⟩
  | 24 => ⟨S8x32x256x507, .f32⟩
  | 25 => ⟨S8x32x256x507, .f32⟩
  | 26 => ⟨S_, .f32⟩
  | 27 => ⟨S8x256x507, .f32⟩
  | 28 => ⟨S_, .i32⟩
  | 29 => ⟨S_, .f32⟩
  | 30 => ⟨S8x256x512, .f32⟩
  | 31 => ⟨S8x32x256x506, .f32⟩
  | 32 => ⟨S8x32x256x506, .f32⟩
  | 33 => ⟨S8x32x256x506, .f32⟩
  | 34 => ⟨S8x32x256x506, .f32⟩
  | 35 => ⟨S_, .f32⟩
  | 36 => ⟨S8x256x506, .f32⟩
  | 37 => ⟨S_, .i32⟩
  | 38 => ⟨S_, .f32⟩
  | 39 => ⟨S8x256x512, .f32⟩
  | 40 => ⟨S8x32x256x505, .f32⟩
  | 41 => ⟨S8x32x256x505, .f32⟩
  | 42 => ⟨S8x32x256x505, .f32⟩
  | 43 => ⟨S8x32x256x505, .f32⟩
  | 44 => ⟨S_, .f32⟩
  | 45 => ⟨S8x256x505, .f32⟩
  | 46 => ⟨S_, .i32⟩
  | 47 => ⟨S_, .f32⟩
  | 48 => ⟨S8x256x512, .f32⟩
  | 49 => ⟨S8x32x256x504, .f32⟩
  | 50 => ⟨S8x32x256x504, .f32⟩
  | 51 => ⟨S8x32x256x504, .f32⟩
  | 52 => ⟨S8x32x256x504, .f32⟩
  | 53 => ⟨S_, .f32⟩
  | 54 => ⟨S8x256x504, .f32⟩
  | 55 => ⟨S_, .i32⟩
  | 56 => ⟨S_, .f32⟩
  | 57 => ⟨S8x256x512, .f32⟩
  | 58 => ⟨S8x32x256x503, .f32⟩
  | 59 => ⟨S8x32x256x503, .f32⟩
  | 60 => ⟨S8x32x256x503, .f32⟩
  | 61 => ⟨S8x32x256x503, .f32⟩
  | 62 => ⟨S_, .f32⟩
  | 63 => ⟨S8x256x503, .f32⟩
  | 64 => ⟨S_, .i32⟩
  | 65 => ⟨S_, .f32⟩
  | 66 => ⟨S8x256x512, .f32⟩
  | 67 => ⟨S8x32x256x502, .f32⟩
  | 68 => ⟨S8x32x256x502, .f32⟩
  | 69 => ⟨S8x32x256x502, .f32⟩
  | 70 => ⟨S8x32x256x502, .f32⟩
  | 71 => ⟨S_, .f32⟩
  | 72 => ⟨S8x256x502, .f32⟩
  | 73 => ⟨S_, .i32⟩
  | 74 => ⟨S_, .f32⟩
  | 75 => ⟨S8x256x512, .f32⟩
  | 76 => ⟨S8x32x256x501, .f32⟩
  | 77 => ⟨S8x32x256x501, .f32⟩
  | 78 => ⟨S8x32x256x501, .f32⟩
  | 79 => ⟨S8x32x256x501, .f32⟩
  | 80 => ⟨S_, .f32⟩
  | 81 => ⟨S8x256x501, .f32⟩
  | 82 => ⟨S_, .i32⟩
  | 83 => ⟨S_, .f32⟩
  | 84 => ⟨S8x256x512, .f32⟩
  | 85 => ⟨S8x32x256x500, .f32⟩
  | 86 => ⟨S8x32x256x500, .f32⟩
  | 87 => ⟨S8x32x256x500, .f32⟩
  | 88 => ⟨S8x32x256x500, .f32⟩
  | 89 => ⟨S_, .f32⟩
  | 90 => ⟨S8x256x500, .f32⟩
  | 91 => ⟨S_, .i32⟩
  | 92 => ⟨S_, .f32⟩
  | 93 => ⟨S8x256x512, .f32⟩
  | 94 => ⟨S8x1x256x512, .f32⟩
  | 95 => ⟨S8x1x256x512, .f32⟩
  | 96 => ⟨S8x1x256x512, .f32⟩
  | 97 => ⟨S8x1x256x512, .f32⟩
  | 98 => ⟨S8x1x256x512, .f32⟩
  | 99 => ⟨S8x1x256x512, .f32⟩
  | 100 => ⟨S8x1x256x512, .f32⟩
  | 101 => ⟨S8x1x256x512, .f32⟩
  | 102 => ⟨S8x1x256x512, .f32⟩
  | 103 => ⟨S8x1x256x512, .f32⟩
  | 104 => ⟨S8x1x256x512, .f32⟩
  | 105 => ⟨S8x1x256x512, .f32⟩
  | 106 => ⟨S8x1x256x512, .f32⟩
  | 107 => ⟨S8x1x256x512, .f32⟩
  | 108 => ⟨S8x1x256x512, .f32⟩
  | 109 => ⟨S8x1x256x512, .f32⟩
  | 110 => ⟨S8x1x256x512, .f32⟩
  | 111 => ⟨S8x1x256x512, .f32⟩
  | 112 => ⟨S8x1x256x512, .f32⟩
  | 113 => ⟨S8x1x256x512, .f32⟩
  | 114 => ⟨S8x1x256x512, .f32⟩
  | 115 => ⟨S8x1x256x512, .f32⟩
  | 116 => ⟨S8x1x256x512, .f32⟩
  | 117 => ⟨S8x1x256x512, .f32⟩
  | 118 => ⟨S8x1x256x512, .f32⟩
  | 119 => ⟨S8x16x256x512, .f32⟩
  | 120 => ⟨S8x9x256x512, .f32⟩
  | 121 => ⟨S8x25x256x512, .f32⟩
  | _ => ⟨S8x32x256x512, .f32⟩

abbrev hbmTy (i : Nat) : BufTy := match i / 128 with
  | 0 => hbmTy0_0 i
  | 1 => hbmTy0_1 i
  | _ => ⟨S8x32x256x512, .f32⟩

abbrev bufTy : (tb : Table) → Fin (tcTables nBuf tb) → BufTy
  | .hbm, ⟨i, _⟩ => hbmTy i
  | _, _ => ⟨S8x32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_c_1 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_c_3 : Ref sig .tc := ⟨.hbm, 26, rfl⟩
abbrev main_call2_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_c_5 : Ref sig .tc := ⟨.hbm, 35, rfl⟩
abbrev main_call3_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_c_7 : Ref sig .tc := ⟨.hbm, 44, rfl⟩
abbrev main_call4_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_c_9 : Ref sig .tc := ⟨.hbm, 53, rfl⟩
abbrev main_call5_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_c_11 : Ref sig .tc := ⟨.hbm, 62, rfl⟩
abbrev main_call6_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_12 : Ref sig .tc := ⟨.hbm, 69, rfl⟩
abbrev main_v46 : Ref sig .tc := ⟨.hbm, 70, rfl⟩
abbrev main_c_13 : Ref sig .tc := ⟨.hbm, 71, rfl⟩
abbrev main_call7_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_14 : Ref sig .tc := ⟨.hbm, 78, rfl⟩
abbrev main_v52 : Ref sig .tc := ⟨.hbm, 79, rfl⟩
abbrev main_c_15 : Ref sig .tc := ⟨.hbm, 80, rfl⟩
abbrev main_call8_v0 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_16 : Ref sig .tc := ⟨.hbm, 87, rfl⟩
abbrev main_v58 : Ref sig .tc := ⟨.hbm, 88, rfl⟩
abbrev main_c_17 : Ref sig .tc := ⟨.hbm, 89, rfl⟩
abbrev main_call9_v0 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_18 : Ref sig .tc := ⟨.hbm, 96, rfl⟩
abbrev main_v64 : Ref sig .tc := ⟨.hbm, 97, rfl⟩
abbrev main_c_19 : Ref sig .tc := ⟨.hbm, 98, rfl⟩
abbrev main_call10_v0 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_20 : Ref sig .tc := ⟨.hbm, 105, rfl⟩
abbrev main_v70 : Ref sig .tc := ⟨.hbm, 106, rfl⟩
abbrev main_c_21 : Ref sig .tc := ⟨.hbm, 107, rfl⟩
abbrev main_call11_v0 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_22 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_23 : Ref sig .tc := ⟨.hbm, 118, rfl⟩
abbrev main_v79 : Ref sig .tc := ⟨.hbm, 119, rfl⟩
abbrev main_c_24 : Ref sig .tc := ⟨.hbm, 120, rfl⟩
abbrev main_call12_v0 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_25 : Ref sig .tc := ⟨.hbm, 127, rfl⟩
abbrev main_v85 : Ref sig .tc := ⟨.hbm, 128, rfl⟩
abbrev main_c_26 : Ref sig .tc := ⟨.hbm, 129, rfl⟩
abbrev main_call13_v0 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_27 : Ref sig .tc := ⟨.hbm, 136, rfl⟩
abbrev main_v91 : Ref sig .tc := ⟨.hbm, 137, rfl⟩
abbrev main_c_28 : Ref sig .tc := ⟨.hbm, 138, rfl⟩
abbrev main_call14_v0 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_29 : Ref sig .tc := ⟨.hbm, 145, rfl⟩
abbrev main_v97 : Ref sig .tc := ⟨.hbm, 146, rfl⟩
abbrev main_c_30 : Ref sig .tc := ⟨.hbm, 147, rfl⟩
abbrev main_call15_v0 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_cst_31 : Ref sig .tc := ⟨.hbm, 154, rfl⟩
abbrev main_v103 : Ref sig .tc := ⟨.hbm, 155, rfl⟩
abbrev main_c_32 : Ref sig .tc := ⟨.hbm, 156, rfl⟩
abbrev main_call16_v0 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_33 : Ref sig .tc := ⟨.hbm, 163, rfl⟩
abbrev main_v109 : Ref sig .tc := ⟨.hbm, 164, rfl⟩
abbrev main_c_34 : Ref sig .tc := ⟨.hbm, 165, rfl⟩
abbrev main_call17_v0 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_cst_35 : Ref sig .tc := ⟨.hbm, 172, rfl⟩
abbrev main_v115 : Ref sig .tc := ⟨.hbm, 173, rfl⟩
abbrev main_c_36 : Ref sig .tc := ⟨.hbm, 174, rfl⟩
abbrev main_call18_v0 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_cst_37 : Ref sig .tc := ⟨.hbm, 181, rfl⟩
abbrev main_v121 : Ref sig .tc := ⟨.hbm, 182, rfl⟩
abbrev main_c_38 : Ref sig .tc := ⟨.hbm, 183, rfl⟩
abbrev main_call19_v0 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_cst_39 : Ref sig .tc := ⟨.hbm, 190, rfl⟩
abbrev main_v127 : Ref sig .tc := ⟨.hbm, 191, rfl⟩
abbrev main_c_40 : Ref sig .tc := ⟨.hbm, 192, rfl⟩
abbrev main_call20_v0 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_cst_41 : Ref sig .tc := ⟨.hbm, 199, rfl⟩
abbrev main_v133 : Ref sig .tc := ⟨.hbm, 200, rfl⟩
abbrev main_c_42 : Ref sig .tc := ⟨.hbm, 201, rfl⟩
abbrev main_call21_v0 : Ref sig .tc := ⟨.hbm, 202, rfl⟩
abbrev main_v134 : Ref sig .tc := ⟨.hbm, 203, rfl⟩
abbrev main_v135 : Ref sig .tc := ⟨.hbm, 204, rfl⟩
abbrev main_v136 : Ref sig .tc := ⟨.hbm, 205, rfl⟩
abbrev main_v137 : Ref sig .tc := ⟨.hbm, 206, rfl⟩
abbrev main_v138 : Ref sig .tc := ⟨.hbm, 207, rfl⟩
abbrev main_cst_43 : Ref sig .tc := ⟨.hbm, 208, rfl⟩
abbrev main_v139 : Ref sig .tc := ⟨.hbm, 209, rfl⟩
abbrev main_c_44 : Ref sig .tc := ⟨.hbm, 210, rfl⟩
abbrev main_call22_v0 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_cst_45 : Ref sig .tc := ⟨.hbm, 217, rfl⟩
abbrev main_v145 : Ref sig .tc := ⟨.hbm, 218, rfl⟩
abbrev main_c_46 : Ref sig .tc := ⟨.hbm, 219, rfl⟩
abbrev main_call23_v0 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩

abbrev nD : Nat := 1
abbrev τ : Topo := Topo.v7x

variable {F : FTy → Type} [FloatOps F]

class Facts₀ : Prop where
  slices_S8x32x256x512_S8x32x256x500_0_0_0_0 : S8x32x256x512.Slices ![0, 0, 0, 0] S8x32x256x500
  slices_S8x32x256x512_S8x32x256x500_0_0_0_12 : S8x32x256x512.Slices ![0, 0, 0, 12] S8x32x256x500
  reducesTo_S8x32x256x500_S8x256x500_d1 : S8x32x256x500.ReducesTo [1] S8x256x500
  h_S_ : 0 < S_.numel
  pads_S8x256x500_S8x256x512_000_000_0120 : S8x256x500.Pads (![0, 0, 0] : Fin 3 → Nat) ![0, 0, 12] ![0, 0, 0] S8x256x512
  slices_S8x32x256x512_S8x32x256x501_0_0_0_0 : S8x32x256x512.Slices ![0, 0, 0, 0] S8x32x256x501
  slices_S8x32x256x512_S8x32x256x501_0_0_0_11 : S8x32x256x512.Slices ![0, 0, 0, 11] S8x32x256x501
  reducesTo_S8x32x256x501_S8x256x501_d1 : S8x32x256x501.ReducesTo [1] S8x256x501
  pads_S8x256x501_S8x256x512_000_000_0110 : S8x256x501.Pads (![0, 0, 0] : Fin 3 → Nat) ![0, 0, 11] ![0, 0, 0] S8x256x512
  slices_S8x32x256x512_S8x32x256x502_0_0_0_0 : S8x32x256x512.Slices ![0, 0, 0, 0] S8x32x256x502
  slices_S8x32x256x512_S8x32x256x502_0_0_0_10 : S8x32x256x512.Slices ![0, 0, 0, 10] S8x32x256x502
  reducesTo_S8x32x256x502_S8x256x502_d1 : S8x32x256x502.ReducesTo [1] S8x256x502
  pads_S8x256x502_S8x256x512_000_000_0100 : S8x256x502.Pads (![0, 0, 0] : Fin 3 → Nat) ![0, 0, 10] ![0, 0, 0] S8x256x512
  slices_S8x32x256x512_S8x32x256x503_0_0_0_0 : S8x32x256x512.Slices ![0, 0, 0, 0] S8x32x256x503
  slices_S8x32x256x512_S8x32x256x503_0_0_0_9 : S8x32x256x512.Slices ![0, 0, 0, 9] S8x32x256x503
  reducesTo_S8x32x256x503_S8x256x503_d1 : S8x32x256x503.ReducesTo [1] S8x256x503
  pads_S8x256x503_S8x256x512_000_000_090 : S8x256x503.Pads (![0, 0, 0] : Fin 3 → Nat) ![0, 0, 9] ![0, 0, 0] S8x256x512
  slices_S8x32x256x512_S8x32x256x504_0_0_0_0 : S8x32x256x512.Slices ![0, 0, 0, 0] S8x32x256x504
  slices_S8x32x256x512_S8x32x256x504_0_0_0_8 : S8x32x256x512.Slices ![0, 0, 0, 8] S8x32x256x504
  reducesTo_S8x32x256x504_S8x256x504_d1 : S8x32x256x504.ReducesTo [1] S8x256x504
  pads_S8x256x504_S8x256x512_000_000_080 : S8x256x504.Pads (![0, 0, 0] : Fin 3 → Nat) ![0, 0, 8] ![0, 0, 0] S8x256x512
  slices_S8x32x256x512_S8x32x256x505_0_0_0_0 : S8x32x256x512.Slices ![0, 0, 0, 0] S8x32x256x505
  slices_S8x32x256x512_S8x32x256x505_0_0_0_7 : S8x32x256x512.Slices ![0, 0, 0, 7] S8x32x256x505
  reducesTo_S8x32x256x505_S8x256x505_d1 : S8x32x256x505.ReducesTo [1] S8x256x505
  pads_S8x256x505_S8x256x512_000_000_070 : S8x256x505.Pads (![0, 0, 0] : Fin 3 → Nat) ![0, 0, 7] ![0, 0, 0] S8x256x512
  slices_S8x32x256x512_S8x32x256x506_0_0_0_0 : S8x32x256x512.Slices ![0, 0, 0, 0] S8x32x256x506
  slices_S8x32x256x512_S8x32x256x506_0_0_0_6 : S8x32x256x512.Slices ![0, 0, 0, 6] S8x32x256x506
  reducesTo_S8x32x256x506_S8x256x506_d1 : S8x32x256x506.ReducesTo [1] S8x256x506
  pads_S8x256x506_S8x256x512_000_000_060 : S8x256x506.Pads (![0, 0, 0] : Fin 3 → Nat) ![0, 0, 6] ![0, 0, 0] S8x256x512
  slices_S8x32x256x512_S8x32x256x507_0_0_0_0 : S8x32x256x512.Slices ![0, 0, 0, 0] S8x32x256x507
  slices_S8x32x256x512_S8x32x256x507_0_0_0_5 : S8x32x256x512.Slices ![0, 0, 0, 5] S8x32x256x507
  reducesTo_S8x32x256x507_S8x256x507_d1 : S8x32x256x507.ReducesTo [1] S8x256x507
  pads_S8x256x507_S8x256x512_000_000_050 : S8x256x507.Pads (![0, 0, 0] : Fin 3 → Nat) ![0, 0, 5] ![0, 0, 0] S8x256x512
  slices_S8x32x256x512_S8x32x256x508_0_0_0_0 : S8x32x256x512.Slices ![0, 0, 0, 0] S8x32x256x508
  slices_S8x32x256x512_S8x32x256x508_0_0_0_4 : S8x32x256x512.Slices ![0, 0, 0, 4] S8x32x256x508
  reducesTo_S8x32x256x508_S8x256x508_d1 : S8x32x256x508.ReducesTo [1] S8x256x508
  pads_S8x256x508_S8x256x512_000_000_040 : S8x256x508.Pads (![0, 0, 0] : Fin 3 → Nat) ![0, 0, 4] ![0, 0, 0] S8x256x512
  slices_S8x32x256x512_S8x32x256x509_0_0_0_0 : S8x32x256x512.Slices ![0, 0, 0, 0] S8x32x256x509
  slices_S8x32x256x512_S8x32x256x509_0_0_0_3 : S8x32x256x512.Slices ![0, 0, 0, 3] S8x32x256x509
  reducesTo_S8x32x256x509_S8x256x509_d1 : S8x32x256x509.ReducesTo [1] S8x256x509
  pads_S8x256x509_S8x256x512_000_000_030 : S8x256x509.Pads (![0, 0, 0] : Fin 3 → Nat) ![0, 0, 3] ![0, 0, 0] S8x256x512
  slices_S8x32x256x512_S8x32x256x510_0_0_0_0 : S8x32x256x512.Slices ![0, 0, 0, 0] S8x32x256x510
  slices_S8x32x256x512_S8x32x256x510_0_0_0_2 : S8x32x256x512.Slices ![0, 0, 0, 2] S8x32x256x510
  reducesTo_S8x32x256x510_S8x256x510_d1 : S8x32x256x510.ReducesTo [1] S8x256x510
  pads_S8x256x510_S8x256x512_000_000_020 : S8x256x510.Pads (![0, 0, 0] : Fin 3 → Nat) ![0, 0, 2] ![0, 0, 0] S8x256x512
  slices_S8x32x256x512_S8x32x256x511_0_0_0_0 : S8x32x256x512.Slices ![0, 0, 0, 0] S8x32x256x511
  slices_S8x32x256x512_S8x32x256x511_0_0_0_1 : S8x32x256x512.Slices ![0, 0, 0, 1] S8x32x256x511
  reducesTo_S8x32x256x511_S8x256x511_d1 : S8x32x256x511.ReducesTo [1] S8x256x511
  pads_S8x256x511_S8x256x512_000_000_010 : S8x256x511.Pads (![0, 0, 0] : Fin 3 → Nat) ![0, 0, 1] ![0, 0, 0] S8x256x512
  reducesTo_S8x32x256x512_S8x256x512_d1 : S8x32x256x512.ReducesTo [1] S8x256x512
  pads_S8x256x511_S8x256x512_000_000_100 : S8x256x511.Pads (![0, 0, 1] : Fin 3 → Nat) ![0, 0, 0] ![0, 0, 0] S8x256x512
  pads_S8x256x510_S8x256x512_000_000_200 : S8x256x510.Pads (![0, 0, 2] : Fin 3 → Nat) ![0, 0, 0] ![0, 0, 0] S8x256x512
  pads_S8x256x509_S8x256x512_000_000_300 : S8x256x509.Pads (![0, 0, 3] : Fin 3 → Nat) ![0, 0, 0] ![0, 0, 0] S8x256x512
  pads_S8x256x508_S8x256x512_000_000_400 : S8x256x508.Pads (![0, 0, 4] : Fin 3 → Nat) ![0, 0, 0] ![0, 0, 0] S8x256x512
  pads_S8x256x507_S8x256x512_000_000_500 : S8x256x507.Pads (![0, 0, 5] : Fin 3 → Nat) ![0, 0, 0] ![0, 0, 0] S8x256x512
  pads_S8x256x506_S8x256x512_000_000_600 : S8x256x506.Pads (![0, 0, 6] : Fin 3 → Nat) ![0, 0, 0] ![0, 0, 0] S8x256x512
  pads_S8x256x505_S8x256x512_000_000_700 : S8x256x505.Pads (![0, 0, 7] : Fin 3 → Nat) ![0, 0, 0] ![0, 0, 0] S8x256x512
  pads_S8x256x504_S8x256x512_000_000_800 : S8x256x504.Pads (![0, 0, 8] : Fin 3 → Nat) ![0, 0, 0] ![0, 0, 0] S8x256x512
  pads_S8x256x503_S8x256x512_000_000_900 : S8x256x503.Pads (![0, 0, 9] : Fin 3 → Nat) ![0, 0, 0] ![0, 0, 0] S8x256x512
  pads_S8x256x502_S8x256x512_000_000_1000 : S8x256x502.Pads (![0, 0, 10] : Fin 3 → Nat) ![0, 0, 0] ![0, 0, 0] S8x256x512
  pads_S8x256x501_S8x256x512_000_000_1100 : S8x256x501.Pads (![0, 0, 11] : Fin 3 → Nat) ![0, 0, 0] ![0, 0, 0] S8x256x512
  pads_S8x256x500_S8x256x512_000_000_1200 : S8x256x500.Pads (![0, 0, 12] : Fin 3 → Nat) ![0, 0, 0] ![0, 0, 0] S8x256x512
  bcast_S8x256x512_S8x1x256x512_0_2_3 : S8x256x512.BroadcastsInDim S8x1x256x512 (![0, 2, 3] : Fin 3 → Fin S8x1x256x512.rank)
  concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1 : Shape.Concatenates [S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512] S8x16x256x512 1
  concatenates_S8x1x256x512_S8x1x256x512_S8x1x256x512_S8x1x256x512_S8x1x256x512_S8x1x256x512_S8x1x256x512_S8x1x256x512_S8x1x256x512_S8x9x256x512_d1 : Shape.Concatenates [S8x1x256x512, S8x1x256x512, S8x1x256x512, S8x1x256x512, S8x1x256x512, S8x1x256x512, S8x1x256x512, S8x1x256x512, S8x1x256x512] S8x9x256x512 1
  concatenates_S8x16x256x512_S8x9x256x512_S8x25x256x512_d1 : Shape.Concatenates [S8x16x256x512, S8x9x256x512] S8x25x256x512 1

variable [Facts₀]

class Facts : Prop extends Facts₀ where

variable [Facts]
-- ==== Proof.CostVolume.lean ====
/-
  The residual cost volume, as one function of the two feature arrays.

  For feature arrays `x y : [8, 32, 256, 512]` (batch, channel, row, column) and each of the 25 centred
  disparities `d = i - 12`, `i = 0 … 24`, slice `i` of the volume is the channel-wise L1 distance between `x`
  and `y` shifted by `d` along the columns,

      C (n, i, h, w) = ∑ c, |x (n, c, h, w) - y (n, c, h, w - d)|      where column `w - d` exists,
      C (n, i, h, w) = 0                                                elsewhere.

  Column `w - d = w + 12 - i` exists exactly when `i ≤ w + 12 < 512 + i` (`inOverlap`). The absolute value of an
  extended real `a` is `max a (-a)`, and the sum runs over the 32 channels in the commutative monoid of the
  extended reals, so no order or grouping of the terms matters and no finiteness is needed anywhere.
-/
import Idealize.ShloMosaic.PureOps.Ideal
import Idealize.ShloMosaic.Lib.ValueIdx

noncomputable section

open scoped BigOperators

namespace CostVolume

open Idealize.ShloMosaic Idealize.ShloMosaic.ValueIdx

/-- `|a - b|` on the extended reals. -/
def absDiff (a b : EReal) : EReal := max (a - b) (-(a - b))

/-- Column `w` of disparity slice `i` lies in the overlap of `x` and the shifted `y`: column `w + 12 - i` of `y`
    exists. -/
def inOverlap (i w : Nat) : Prop := i ≤ w + 12 ∧ w + 12 < 512 + i

instance (i w : Nat) : Decidable (inOverlap i w) := by unfold inOverlap; infer_instance

/-- The column of `y` that column `w` of slice `i` is compared with, `w + 12 - i`; taken modulo the width so that it
    is a column for every `w` (inside the overlap nothing wraps). -/
def shiftedCol (i w : Nat) : Fin 512 := ⟨(w + 12 - i) % 512, Nat.mod_lt _ (by decide)⟩

theorem shiftedCol_val {i w : Nat} (h : inOverlap i w) : (shiftedCol i w).val = w + 12 - i := by
  unfold inOverlap at h
  show (w + 12 - i) % 512 = w + 12 - i
  exact Nat.mod_eq_of_lt (by omega)

/-- One entry of the cost volume from the rows of channel values it depends on: `xs c` is `x` at the entry's own
    column, `ys c` is `y` at the shifted column. -/
def l1 (xs ys : Fin 32 → EReal) : EReal := ∑ c : Fin 32, absDiff (xs c) (ys c)

/-- The cost volume `[8, 25, 256, 512]` of `x` and `y`. -/
def volume (x y : (⟨4, ![8, 32, 256, 512]⟩ : Shape).Idx → EReal) : (⟨4, ![8, 25, 256, 512]⟩ : Shape).Idx → EReal :=
  fun j => if inOverlap (j 1).val (j 3).val then
      l1 (fun c => x (ix4 (j 0) c (j 2) (j 3))) (fun c => y (ix4 (j 0) c (j 2) (shiftedCol (j 1).val (j 3).val)))
    else 0

/-- The same function on one block of 64 rows of one batch entry: what a grid point of the kernel computes from
    its two input blocks `[1, 32, 64, 512]`. -/
def block (x y : (⟨4, ![1, 32, 64, 512]⟩ : Shape).Idx → EReal) : (⟨4, ![1, 25, 64, 512]⟩ : Shape).Idx → EReal :=
  fun j => if inOverlap (j 1).val (j 3).val then
      l1 (fun c => x (ix4 (j 0) c (j 2) (j 3))) (fun c => y (ix4 (j 0) c (j 2) (shiftedCol (j 1).val (j 3).val)))
    else 0

end CostVolume

end
-- ==== Proof.SliceValue.lean ====
/-
  One disparity slice as the kernel's body computes it on a block, read at an entry.

  The body holds the two input blocks as `[32, 64, 512]` arrays `X`, `Y` (channel, row, column). For one disparity
  it rotates `Y` along the columns by a shift `s` (entry `w` of the rotated array is entry `(w - s) mod 512` of
  `Y`), takes `|X - rotated Y|`, sums over the channel axis, and keeps the sum where the column index lies in
  `[lo, up)`, writing 0 elsewhere; the result is viewed as `[1, 1, 64, 512]`. Read at `(0, 0, h, w)` at the ideal
  values this is the L1 distance over the channels between `X (·, h, w)` and `Y (·, h, (w + 512 - s) mod 512)` when
  `lo ≤ w < up`, and 0 otherwise.
-/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.Affine
import proofs.«124119_j13718125543602_2_alg».proof.Proof.CostVolume

noncomputable section

open scoped BigOperators

namespace CostVolume

open Idealize.ShloMosaic Idealize.ShloMosaic.ValueIdx

/-- channels × rows × columns of one block -/
abbrev SChw : Shape := ⟨3, ![32, 64, 512]⟩
/-- rows × columns of one block -/
abbrev Shw : Shape := ⟨2, ![64, 512]⟩
/-- one slice of an output block -/
abbrev S11hw : Shape := ⟨4, ![1, 1, 64, 512]⟩

/-- A word built from a natural number no larger than the width reads the same signed. -/
theorem toInt_ofNat_le (n : Nat) (h : n ≤ 512) : (BitVec.ofNat 32 n).toInt = (n : Int) := by
  have e : (BitVec.ofNat 32 n).toNat = n := by rw [BitVec.toNat_ofNat]; exact Nat.mod_eq_of_lt (by omega)
  rw [BitVec.toInt_eq_toNat_of_lt (by rw [e]; omega), e]

section
variable {F : FTy → Type} [FloatOps F]

/-- The body's term for one slice: shift `s`, column bounds `lo`, `up`. -/
def sliceTerm (hio : Shw.Iotas .tc 32 [1]) (hr : SChw.Rotates 2 none) (hd : SChw.Reduces [0] Shw)
    (hc : Shw.ShapeCasts S11hw) (s lo up : BitVec 32) (X Y : FVec F SChw .f32) : FVec F S11hw .f32 :=
  shapeCast S11hw
    (select (andi (cmpi .sge (iota .tc Shw 32 [1] hio) (broadcast Shw lo)) (cmpi .slt (iota .tc Shw 32 [1] hio) (broadcast Shw up)))
      (multiReduction .add [0] Shw (absf (subf X (dynamicRotate 2 s none Y hr))) 0x00000000#32 hd (.inl rfl) rfl)
      (broadcast Shw (Scalar.ofBits .f32 0x00000000#32)))
    hc

end

/-- The column mask of a slice at `(h, w)` is set exactly when `lo ≤ w < up`. -/
theorem mask_iff (hio : Shw.Iotas .tc 32 [1]) (lo up : Nat) (hlo : lo ≤ 512) (hup : up ≤ 512) (h : Fin 64) (w : Fin 512) :
    andi (cmpi .sge (iota .tc Shw 32 [1] hio) (broadcast Shw (BitVec.ofNat 32 lo)))
        (cmpi .slt (iota .tc Shw 32 [1] hio) (broadcast Shw (BitVec.ofNat 32 up))) (ix2 h w) = 1#1
      ↔ lo ≤ w.val ∧ w.val < up := by
  show IntOp.andi (IntOp.cmpi .sge (iota .tc Shw 32 [1] hio (ix2 h w)) (BitVec.ofNat 32 lo))
      (IntOp.cmpi .slt (iota .tc Shw 32 [1] hio (ix2 h w)) (BitVec.ofNat 32 up)) = 1#1 ↔ _
  rw [iota_single_apply, IntOp.andi_eq_one, IntOp.cmpi_sge, IntOp.cmpi_slt]
  show (BitVec.ofNat 32 lo).toInt ≤ (BitVec.ofNat 32 w.val).toInt ∧ (BitVec.ofNat 32 w.val).toInt < (BitVec.ofNat 32 up).toInt ↔ _
  rw [toInt_ofNat_le lo hlo, toInt_ofNat_le up hup, toInt_ofNat_le w.val (by have := w.isLt; omega)]
  omega

/-- The slice read at `(0, 0, h, w)` at the ideal values. -/
theorem sliceTerm_apply (hio : Shw.Iotas .tc 32 [1]) (hr : SChw.Rotates 2 none) (hd : SChw.Reduces [0] Shw)
    (hc : Shw.ShapeCasts S11hw) (s lo up : Nat) (hs : s < 512) (hlo : lo ≤ 512) (hup : up ≤ 512)
    (X Y : FVec Ideal SChw .f32) (h : Fin 64) (w : Fin 512) :
    sliceTerm (F := Ideal) hio hr hd hc (BitVec.ofNat 32 s) (BitVec.ofNat 32 lo) (BitVec.ofNat 32 up) X Y
        (ix4 (0 : Fin 1) (0 : Fin 1) h w)
      = if lo ≤ w.val ∧ w.val < up then
          l1 (fun c => X (ix3 c h w)) (fun c => Y (ix3 c h ⟨(w.val + 512 - s) % 512, Nat.mod_lt _ (by decide)⟩))
        else 0 := by
  unfold sliceTerm
  rw [shapeCast_apply _ hc (ix4 (0 : Fin 1) (0 : Fin 1) h w) (ix2 h w) (by
    rw [Shape.rowMajor_val_two, Shape.rowMajor_val_four]
    show h.val * 512 + w.val = ((0 * 1 + 0) * 64 + h.val) * 512 + w.val
    omega)]
  rw [select_apply]
  by_cases hv : lo ≤ w.val ∧ w.val < up
  · rw [if_pos hv, (mask_iff hio lo up hlo hup h w).mpr hv, select_one]
    refine (Ideal.multiReduction_add_single _ _ hd (.inl rfl) rfl (ix2 h w)).trans ?_
    unfold l1
    refine Finset.sum_congr rfl ?_
    intro (c : Fin 32) _
    have hl : hd.lift (ix2 h w) c = ix3 c h w :=
      funext fun a => Fin.ext (by match a with | ⟨0, _⟩ => rfl | ⟨1, _⟩ => rfl | ⟨2, _⟩ => rfl)
    rw [hl]
    show FloatOps.absf (X (ix3 c h w) - dynamicRotate 2 (BitVec.ofNat 32 s) none Y hr (ix3 c h w)) = _
    have hsN : (BitVec.ofNat 32 s).toNat = s := by rw [BitVec.toNat_ofNat]; exact Nat.mod_eq_of_lt (by omega)
    rw [dynamicRotate_apply 2 (BitVec.ofNat 32 s) Y hr (ix3 c h w)
      (ix3 c h ⟨(w.val + 512 - s) % 512, Nat.mod_lt _ (by decide)⟩) (fun b => by
        fin_cases b
        · exact (if_neg (by decide)).symm
        · exact (if_neg (by decide)).symm
        · refine Eq.trans ?_ (if_pos (by decide)).symm
          show (w.val + 512 - s) % 512 = (w.val + 512 - (BitVec.ofNat 32 s).toNat % 512) % 512
          rw [hsN, Nat.mod_eq_of_lt hs])]
    rfl
  · rw [if_neg hv, eq_zero_of_ne_one (mt (mask_iff hio lo up hlo hup h w).mp hv), select_zero]
    exact Ideal.ofBits_zero_f32

end CostVolume

end
-- ==== Proof.BlockValue.lean ====
/-
  What one grid point of the kernel leaves in its output block.

  The body stores 25 pieces into its `[1, 25, 64, 512]` output block, piece `i` into rows `(0, i, ·, ·)`; each piece
  is the slice term of `SliceValue.lean` of the two input blocks, with shift `(i - 12) mod 512` and column bounds
  `[max 0 (i - 12), min 512 (500 + i))`. For every `i` those bounds say exactly that the column lies in the overlap
  of disparity `i - 12`, and inside the overlap the rotated column `(w + 512 - shift) mod 512` is `w + 12 - i`. So
  every piece is the restriction of ONE function of the block index, `CostVolume.block` of the two input blocks, and
  since the pieces cover the block, the block after the body is that function.
-/
import proofs.«124119_j13718125543602_2_alg».proof.Proof.Gen.KernelIdeal.Frame
import proofs.«124119_j13718125543602_2_alg».proof.Proof.SliceValue
import Idealize.ShloMosaic.Lib.ValueLayout

set_option maxRecDepth 16384

noncomputable section

namespace Cert.KernelIdeal.BlockValue

open Cert.KernelIdeal Cert.KernelIdeal.Gen Idealize.ShloMosaic Idealize.ShloMosaic.TcCoe Idealize.ShloMosaic.ValueIdx
open CostVolume

theorem zero_offsets : (![0, 0, 0, 0] : Fin 4 → Nat) = fun _ => 0 := funext fun a => by fin_cases a <;> rfl

/-- An input block, loaded whole and viewed `[32, 64, 512]`, at channel `c`, row `h`, column `w`. -/
theorem lhs_chan (x0 : Vec Ideal S1x32x64x512 .f32) (c : Fin 32) (h : Fin 64) (w : Fin 512) :
    k0_pay2 (View.ld x0 r0_0) (ix3 c h w) = x0 (ix4 (0 : Fin 1) c h w) := by
  unfold k0_pay2
  rw [View.ld_unit_zero (S := S1x32x64x512) zero_offsets]
  exact shapeCast_1abc_abc_apply x0 _ c h w

theorem rhs_chan (x1 : Vec Ideal S1x32x64x512 .f32) (c : Fin 32) (h : Fin 64) (w : Fin 512) :
    k0_pay3 (View.ld x1 r0_0) (ix3 c h w) = x1 (ix4 (0 : Fin 1) c h w) := by
  unfold k0_pay3
  rw [View.ld_unit_zero (S := S1x32x64x512) zero_offsets]
  exact shapeCast_1abc_abc_apply x1 _ c h w

/-- Piece `i`: the slice term with shift `s` and bounds `[lo, up)`, stored at rows `(0, i, ·, ·)` of the block, is
    `CostVolume.block` of the input blocks there — given that the bounds are the overlap of disparity `i - 12` and that
    inside it the rotation reads column `w + 12 - i`. -/
theorem slice_eq (i : Nat) (hi : i < 25)
    (inb : ∀ a, (![0, i, 0, 0] : Fin 4 → Nat) a + S1x1x64x512.size a ≤ S1x25x64x512.size a)
    (s lo up : Nat) (hs : s < 512) (hlo : lo ≤ 512) (hup : up ≤ 512)
    (hrel : ∀ w : Nat, w < 512 → ((lo ≤ w ∧ w < up) ↔ inOverlap i w) ∧ (inOverlap i w → (w + 512 - s) % 512 = w + 12 - i))
    (x0 x1 : Vec Ideal S1x32x64x512 .f32) (x : S11hw.Idx) :
    sliceTerm (F := Ideal) iota_S64x512_d1_w32 rotates_S32x64x512_d2 reduces_S32x64x512_S64x512 shapeCasts_S64x512_S1x1x64x512
        (BitVec.ofNat 32 s) (BitVec.ofNat 32 lo) (BitVec.ofNat 32 up) (k0_pay2 (View.ld x0 r0_0)) (k0_pay3 (View.ld x1 r0_0)) x
      = CostVolume.block x0 x1 ((Rect.unit (s := S1x25x64x512) ![0, i, 0, 0] S1x1x64x512.size inb).emb x) := by
  obtain ⟨a, b, h, w, rfl⟩ : ∃ (a b : Fin 1) (h : Fin 64) (w : Fin 512), x = ix4 a b h w := ⟨x 0, x 1, x 2, x 3, eq_ix4 x⟩
  obtain rfl : a = 0 := Subsingleton.elim _ _
  obtain rfl : b = 0 := Subsingleton.elim _ _
  have hj : (Rect.unit (s := S1x25x64x512) ![0, i, 0, 0] S1x1x64x512.size inb).emb (ix4 (0 : Fin 1) (0 : Fin 1) h w)
      = ix4 (0 : Fin 1) (⟨i, hi⟩ : Fin 25) h w := by
    funext d; apply Fin.ext
    match d with
    | ⟨0, _⟩ => show 0 + 1 * 0 = 0; rfl
    | ⟨1, _⟩ => show i + 1 * 0 = i; omega
    | ⟨2, _⟩ => show 0 + 1 * h.val = h.val; omega
    | ⟨3, _⟩ => show 0 + 1 * w.val = w.val; omega
  rw [hj, sliceTerm_apply _ _ _ _ s lo up hs hlo hup]
  unfold CostVolume.block
  show _ = if inOverlap i w.val then
      l1 (fun c => x0 (ix4 (0 : Fin 1) c h w)) (fun c => x1 (ix4 (0 : Fin 1) c h (shiftedCol i w.val))) else 0
  obtain ⟨hiff, hcol⟩ := hrel w.val w.isLt
  by_cases hv : inOverlap i w.val
  · rw [if_pos hv, if_pos (hiff.mpr hv)]
    have hc : (⟨(w.val + 512 - s) % 512, Nat.mod_lt _ (by decide)⟩ : Fin 512) = shiftedCol i w.val :=
      Fin.ext (by rw [shiftedCol_val hv]; exact hcol hv)
    rw [hc]
    exact congrArg₂ l1 (funext fun c => lhs_chan x0 c h w) (funext fun c => rhs_chan x1 c h (shiftedCol i w.val))
  · rw [if_neg hv, if_neg (mt hiff.mp hv)]

/-- THE BLOCK after the body, at the ideal values: `CostVolume.block` of the two input blocks. -/
theorem out_eq (x0 x1 : Vec Ideal S1x32x64x512 .f32) : out0_2 (F := Ideal) x0 x1 = CostVolume.block x0 x1 := by
  funext y
  unfold out0_2
  refine View.canon_apply_of_pieces (Val := Elt Ideal) (S := S1x25x64x512) (e := .f32) (CostVolume.block x0 x1) _ ?_ y (cover0_2 _ _ _ _ _ _ _ _ _ _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl
  · exact slice_eq 24 (by decide) inb_S1x25x64x512_S1x1x64x512_0_24_0_0 12 12 512 (by decide) (by decide) (by decide) (by intro w hw; unfold CostVolume.inOverlap; omega) x0 x1 x
  · exact slice_eq 23 (by decide) inb_S1x25x64x512_S1x1x64x512_0_23_0_0 11 11 512 (by decide) (by decide) (by decide) (by intro w hw; unfold CostVolume.inOverlap; omega) x0 x1 x
  · exact slice_eq 22 (by decide) inb_S1x25x64x512_S1x1x64x512_0_22_0_0 10 10 512 (by decide) (by decide) (by decide) (by intro w hw; unfold CostVolume.inOverlap; omega) x0 x1 x
  · exact slice_eq 21 (by decide) inb_S1x25x64x512_S1x1x64x512_0_21_0_0 9 9 512 (by decide) (by decide) (by decide) (by intro w hw; unfold CostVolume.inOverlap; omega) x0 x1 x
  · exact slice_eq 20 (by decide) inb_S1x25x64x512_S1x1x64x512_0_20_0_0 8 8 512 (by decide) (by decide) (by decide) (by intro w hw; unfold CostVolume.inOverlap; omega) x0 x1 x
  · exact slice_eq 19 (by decide) inb_S1x25x64x512_S1x1x64x512_0_19_0_0 7 7 512 (by decide) (by decide) (by decide) (by intro w hw; unfold CostVolume.inOverlap; omega) x0 x1 x
  · exact slice_eq 18 (by decide) inb_S1x25x64x512_S1x1x64x512_0_18_0_0 6 6 512 (by decide) (by decide) (by decide) (by intro w hw; unfold CostVolume.inOverlap; omega) x0 x1 x
  · exact slice_eq 17 (by decide) inb_S1x25x64x512_S1x1x64x512_0_17_0_0 5 5 512 (by decide) (by decide) (by decide) (by intro w hw; unfold CostVolume.inOverlap; omega) x0 x1 x
  · exact slice_eq 16 (by decide) inb_S1x25x64x512_S1x1x64x512_0_16_0_0 4 4 512 (by decide) (by decide) (by decide) (by intro w hw; unfold CostVolume.inOverlap; omega) x0 x1 x
  · exact slice_eq 15 (by decide) inb_S1x25x64x512_S1x1x64x512_0_15_0_0 3 3 512 (by decide) (by decide) (by decide) (by intro w hw; unfold CostVolume.inOverlap; omega) x0 x1 x
  · exact slice_eq 14 (by decide) inb_S1x25x64x512_S1x1x64x512_0_14_0_0 2 2 512 (by decide) (by decide) (by decide) (by intro w hw; unfold CostVolume.inOverlap; omega) x0 x1 x
  · exact slice_eq 13 (by decide) inb_S1x25x64x512_S1x1x64x512_0_13_0_0 1 1 512 (by decide) (by decide) (by decide) (by intro w hw; unfold CostVolume.inOverlap; omega) x0 x1 x
  · exact slice_eq 12 (by decide) inb_S1x25x64x512_S1x1x64x512_0_12_0_0 0 0 512 (by decide) (by decide) (by decide) (by intro w hw; unfold CostVolume.inOverlap; omega) x0 x1 x
  · exact slice_eq 11 (by decide) inb_S1x25x64x512_S1x1x64x512_0_11_0_0 511 0 511 (by decide) (by decide) (by decide) (by intro w hw; unfold CostVolume.inOverlap; omega) x0 x1 x
  · exact slice_eq 10 (by decide) inb_S1x25x64x512_S1x1x64x512_0_10_0_0 510 0 510 (by decide) (by decide) (by decide) (by intro w hw; unfold CostVolume.inOverlap; omega) x0 x1 x
  · exact slice_eq 9 (by decide) inb_S1x25x64x512_S1x1x64x512_0_9_0_0 509 0 509 (by decide) (by decide) (by decide) (by intro w hw; unfold CostVolume.inOverlap; omega) x0 x1 x
  · exact slice_eq 8 (by decide) inb_S1x25x64x512_S1x1x64x512_0_8_0_0 508 0 508 (by decide) (by decide) (by decide) (by intro w hw; unfold CostVolume.inOverlap; omega) x0 x1 x
  · exact slice_eq 7 (by decide) inb_S1x25x64x512_S1x1x64x512_0_7_0_0 507 0 507 (by decide) (by decide) (by decide) (by intro w hw; unfold CostVolume.inOverlap; omega) x0 x1 x
  · exact slice_eq 6 (by decide) inb_S1x25x64x512_S1x1x64x512_0_6_0_0 506 0 506 (by decide) (by decide) (by decide) (by intro w hw; unfold CostVolume.inOverlap; omega) x0 x1 x
  · exact slice_eq 5 (by decide) inb_S1x25x64x512_S1x1x64x512_0_5_0_0 505 0 505 (by decide) (by decide) (by decide) (by intro w hw; unfold CostVolume.inOverlap; omega) x0 x1 x
  · exact slice_eq 4 (by decide) inb_S1x25x64x512_S1x1x64x512_0_4_0_0 504 0 504 (by decide) (by decide) (by decide) (by intro w hw; unfold CostVolume.inOverlap; omega) x0 x1 x
  · exact slice_eq 3 (by decide) inb_S1x25x64x512_S1x1x64x512_0_3_0_0 503 0 503 (by decide) (by decide) (by decide) (by intro w hw; unfold CostVolume.inOverlap; omega) x0 x1 x
  · exact slice_eq 2 (by decide) inb_S1x25x64x512_S1x1x64x512_0_2_0_0 502 0 502 (by decide) (by decide) (by decide) (by intro w hw; unfold CostVolume.inOverlap; omega) x0 x1 x
  · exact slice_eq 1 (by decide) inb_S1x25x64x512_S1x1x64x512_0_1_0_0 501 0 501 (by decide) (by decide) (by decide) (by intro w hw; unfold CostVolume.inOverlap; omega) x0 x1 x
  · exact slice_eq 0 (by decide) inb_S1x25x64x512_S1x1x64x512_0_0_0_0 500 0 500 (by decide) (by decide) (by decide) (by intro w hw; unfold CostVolume.inOverlap; omega) x0 x1 x

end Cert.KernelIdeal.BlockValue

end
-- ==== Proof.BlockOfVolume.lean ====
/-
  The cost volume, block by block.

  The volume at `(n, i, r, w)` reads only batch entry `n` and row `r` of the two arrays, so its restriction to the
  64 rows `64·q … 64·q + 63` of batch entry `n` is the block function `CostVolume.block` of the arrays' own blocks
  `(n, ·, 64·q + ·, ·)`: the same overlap test, the same shifted column, the same 32 channel terms.
-/
import proofs.«124119_j13718125543602_2_alg».proof.Proof.CostVolume

noncomputable section

namespace CostVolume

open Idealize.ShloMosaic Idealize.ShloMosaic.ValueIdx

/-- Entry `j` of the block function of the blocks `bx`, `by'` of `x`, `y` at batch entry `n` and row block `q` is the
    volume's entry at the index `i` with batch `n`, the same slice and column, and row `64·q` plus the block's row. -/
theorem block_eq_volume (x y : (⟨4, ![8, 32, 256, 512]⟩ : Shape).Idx → EReal)
    (bx by' : (⟨4, ![1, 32, 64, 512]⟩ : Shape).Idx → EReal) (n q : Nat) (hn : n < 8) (hq : q < 4)
    (hx : ∀ (c : Fin 32) (h : Fin 64) (w : Fin 512),
      bx (ix4 (0 : Fin 1) c h w) = x (ix4 (⟨n, hn⟩ : Fin 8) c (⟨q * 64 + h.val, by have := h.isLt; omega⟩ : Fin 256) w))
    (hy : ∀ (c : Fin 32) (h : Fin 64) (w : Fin 512),
      by' (ix4 (0 : Fin 1) c h w) = y (ix4 (⟨n, hn⟩ : Fin 8) c (⟨q * 64 + h.val, by have := h.isLt; omega⟩ : Fin 256) w))
    (j : (⟨4, ![1, 25, 64, 512]⟩ : Shape).Idx) (i : (⟨4, ![8, 25, 256, 512]⟩ : Shape).Idx)
    (h0 : (i 0).val = n) (h1 : (i 1).val = (j 1).val) (h2 : (i 2).val = q * 64 + (j 2).val) (h3 : (i 3).val = (j 3).val) :
    block bx by' j = volume x y i := by
  obtain ⟨a, s, h, w, rfl⟩ : ∃ (a : Fin 1) (s : Fin 25) (h : Fin 64) (w : Fin 512), j = ix4 a s h w :=
    ⟨j 0, j 1, j 2, j 3, eq_ix4 j⟩
  obtain rfl : a = 0 := Subsingleton.elim _ _
  have hr : q * 64 + h.val < 256 := by have := h.isLt; omega
  obtain ⟨n', s', r, w', rfl⟩ : ∃ (n' : Fin 8) (s' : Fin 25) (r : Fin 256) (w' : Fin 512), i = ix4 n' s' r w' :=
    ⟨i 0, i 1, i 2, i 3, eq_ix4 i⟩
  obtain rfl : n' = ⟨n, hn⟩ := Fin.ext h0
  obtain rfl : s' = s := Fin.ext h1
  obtain rfl : r = ⟨q * 64 + h.val, hr⟩ := Fin.ext h2
  obtain rfl : w' = w := Fin.ext h3
  unfold block volume
  show (if inOverlap s'.val w'.val then
      l1 (fun c => bx (ix4 (0 : Fin 1) c h w')) (fun c => by' (ix4 (0 : Fin 1) c h (shiftedCol s'.val w'.val))) else 0)
    = if inOverlap s'.val w'.val then
      l1 (fun c => x (ix4 (⟨n, hn⟩ : Fin 8) c (⟨q * 64 + h.val, by have := h.isLt; omega⟩ : Fin 256) w'))
        (fun c => y (ix4 (⟨n, hn⟩ : Fin 8) c (⟨q * 64 + h.val, by have := h.isLt; omega⟩ : Fin 256) (shiftedCol s'.val w'.val))) else 0
  simp only [hx, hy]

end CostVolume

end
-- ==== Proof.KernelValue.lean ====
/-
  The kernel's result array after the run, at the ideal values: the cost volume of the two arguments.

  Grid point `t = (n, q)` stages block `(n, 0, q, 0)` of each array: all 32 channels and all 512 columns of rows
  `64·q … 64·q + 63` of batch entry `n` for the inputs, all 25 slices of the same rows for the output. What the point
  writes back is `CostVolume.block` of its two input blocks (`BlockValue.out_eq`), which is the volume of the whole
  arrays restricted to the output block (`CostVolume.block_eq_volume`). The 8 × 4 output blocks tile the result
  array, so after the run the array is the volume everywhere.
-/
import proofs.«124119_j13718125543602_2_alg».proof.Proof.Gen.KernelIdeal.Value
import proofs.«124119_j13718125543602_2_alg».proof.Proof.BlockValue
import proofs.«124119_j13718125543602_2_alg».proof.Proof.BlockOfVolume

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps over the grid: the three windows move together, block `(n, 0, q, 0)` with `n < 8`, `q < 4`. -/
theorem idx_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 4) = win0_2.index t (0 : Fin 4) ∧ win0_1.index t (1 : Fin 4) = 0
    ∧ win0_1.index t (2 : Fin 4) = win0_2.index t (2 : Fin 4) ∧ win0_1.index t (3 : Fin 4) = 0
    ∧ win0_2.index t (1 : Fin 4) = 0 ∧ win0_2.index t (3 : Fin 4) = 0
    ∧ win0_2.index t (0 : Fin 4) < 8 ∧ win0_2.index t (2 : Fin 4) < 4 :=
  (by decide +kernel : ∀ t : Fin grid0.N, _)

/-- Every block `(n, 0, q, 0)` of the result array is some grid point's. -/
theorem idx_onto : ∀ (n : Fin 8) (q : Fin 4), ∃ t : Fin cfg0.N, win0_2.index t = ![n.val, 0, q.val, 0] :=
  (by decide +kernel : ∀ (n : Fin 8) (q : Fin 4), ∃ t : Fin grid0.N, win0_2.index t = ![n.val, 0, q.val, 0])

/-- Input window 0's block at point `t`, at channel `c`, row `h`, column `w`: the array at the point's batch entry and
    row block. -/
theorem iblk0_apply (c : Dev nD) (t : Fin cfg0.N) (hn : win0_2.index t (0 : Fin 4) < 8) (hq : win0_2.index t (2 : Fin 4) < 4)
    (k : Fin 32) (h : Fin 64) (w : Fin 512) :
    iblk m c 0 t (ix4 (0 : Fin 1) k h w)
      = (V m c main_arg0 : S8x32x256x512.Idx → EReal) (ix4 (⟨win0_2.index t (0 : Fin 4), hn⟩ : Fin 8) k
          (⟨win0_2.index t (2 : Fin 4) * 64 + h.val, by have := h.isLt; omega⟩ : Fin 256) w) := by
  obtain ⟨e0, e1, e2, e3, -⟩ := idx_facts t
  show V m c main_arg0 (((cfg0.win 0).blk t).view.emb (ix4 (0 : Fin 1) k h w)) = _
  refine congrArg (V m c main_arg0) (funext fun a => Fin.ext ?_)
  match a with
  | ⟨0, _⟩ => show win0_0.index t (0 : Fin 4) * 1 + 1 * 0 = win0_2.index t (0 : Fin 4); omega
  | ⟨1, _⟩ => show win0_0.index t (1 : Fin 4) * 32 + 1 * k.val = k.val; omega
  | ⟨2, _⟩ => show win0_0.index t (2 : Fin 4) * 64 + 1 * h.val = win0_2.index t (2 : Fin 4) * 64 + h.val; omega
  | ⟨3, _⟩ => show win0_0.index t (3 : Fin 4) * 512 + 1 * w.val = w.val; omega

theorem iblk1_apply (c : Dev nD) (t : Fin cfg0.N) (hn : win0_2.index t (0 : Fin 4) < 8) (hq : win0_2.index t (2 : Fin 4) < 4)
    (k : Fin 32) (h : Fin 64) (w : Fin 512) :
    iblk m c 1 t (ix4 (0 : Fin 1) k h w)
      = (V m c main_arg1 : S8x32x256x512.Idx → EReal) (ix4 (⟨win0_2.index t (0 : Fin 4), hn⟩ : Fin 8) k
          (⟨win0_2.index t (2 : Fin 4) * 64 + h.val, by have := h.isLt; omega⟩ : Fin 256) w) := by
  obtain ⟨-, -, -, -, e0, e1, e2, e3, -⟩ := idx_facts t
  show V m c main_arg1 (((cfg0.win 1).blk t).view.emb (ix4 (0 : Fin 1) k h w)) = _
  refine congrArg (V m c main_arg1) (funext fun a => Fin.ext ?_)
  match a with
  | ⟨0, _⟩ => show win0_1.index t (0 : Fin 4) * 1 + 1 * 0 = win0_2.index t (0 : Fin 4); omega
  | ⟨1, _⟩ => show win0_1.index t (1 : Fin 4) * 32 + 1 * k.val = k.val; omega
  | ⟨2, _⟩ => show win0_1.index t (2 : Fin 4) * 64 + 1 * h.val = win0_2.index t (2 : Fin 4) * 64 + h.val; omega
  | ⟨3, _⟩ => show win0_1.index t (3 : Fin 4) * 512 + 1 * w.val = w.val; omega

/-- WHAT POINT `t` WRITES BACK is block `t` of the cost volume of the argument arrays. -/
theorem flushed_eq (c : Dev nD) (t : Fin cfg0.N) :
    (dats m 0 c).flushed 2 t = ((cfg0.win 2).blk t).view.read (Elt Ideal)
      (CostVolume.volume (V m c main_arg0 : S8x32x256x512.Idx → EReal) (V m c main_arg1 : S8x32x256x512.Idx → EReal)) := by
  rw [Cert.KernelIdeal.Value.flushed2, BlockValue.out_eq]
  obtain ⟨-, -, -, -, -, -, -, -, e1, e3, hn, hq⟩ := idx_facts t
  funext j
  show CostVolume.block (iblk m c 0 t) (iblk m c 1 t) j
    = CostVolume.volume (V m c main_arg0 : S8x32x256x512.Idx → EReal) (V m c main_arg1 : S8x32x256x512.Idx → EReal)
        (((cfg0.win 2).blk t).view.emb j)
  refine CostVolume.block_eq_volume (V m c main_arg0 : S8x32x256x512.Idx → EReal) (V m c main_arg1 : S8x32x256x512.Idx → EReal)
    (iblk m c 0 t) (iblk m c 1 t) (win0_2.index t (0 : Fin 4)) (win0_2.index t (2 : Fin 4)) hn hq
    (iblk0_apply m c t hn hq) (iblk1_apply m c t hn hq) j (((cfg0.win 2).blk t).view.emb j) ?_ ?_ ?_ ?_
  · show win0_2.index t (0 : Fin 4) * 1 + 1 * (j 0).val = win0_2.index t (0 : Fin 4)
    have : (j 0).val < 1 := (j 0).isLt
    omega
  · show win0_2.index t (1 : Fin 4) * 25 + 1 * (j 1).val = (j 1).val; omega
  · show win0_2.index t (2 : Fin 4) * 64 + 1 * (j 2).val = win0_2.index t (2 : Fin 4) * 64 + (j 2).val; omega
  · show win0_2.index t (3 : Fin 4) * 512 + 1 * (j 3).val = (j 3).val; omega

/-- An index of the result array is in point `t`'s block iff each coordinate is in the block's range on its axis. -/
theorem mem_blk (t : Fin cfg0.N) (i : S8x25x256x512.Idx) :
    i ∈ ((cfg0.win 2).blk t).view.set ↔ ∀ a : Fin 4, win0_2.index t a * S1x25x64x512.size a ≤ (i a).val
      ∧ (i a).val < win0_2.index t a * S1x25x64x512.size a + S1x25x64x512.size a := by
  show i ∈ ((View.whole main_v0).slice (win0_2.rect t)).set ↔ _
  rw [View.set_slice_whole, Rect.mem_set_unit]
  exact Iff.rfl

/-- The output blocks tile the result array: index `(n, i, r, w)` is in the block of the point `(n, r / 64)`. -/
theorem covered (i : S8x25x256x512.Idx) :
    ∃ t : Fin cfg0.N, (cfg0.win 2).flush t = true ∧ i ∈ ((cfg0.win 2).blk t).view.set := by
  have hi0 : (i 0).val < 8 := (i 0).isLt
  have hi1 : (i 1).val < 25 := (i 1).isLt
  have hi2 : (i 2).val < 256 := (i 2).isLt
  have hi3 : (i 3).val < 512 := (i 3).isLt
  obtain ⟨t, ht⟩ := idx_onto ⟨(i 0).val, hi0⟩ ⟨(i 2).val / 64, by omega⟩
  have q0 : win0_2.index t (0 : Fin 4) = (i 0).val := congrFun ht 0
  have q1 : win0_2.index t (1 : Fin 4) = 0 := congrFun ht 1
  have q2 : win0_2.index t (2 : Fin 4) = (i 2).val / 64 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 25 ≤ (i 1).val ∧ (i 1).val < win0_2.index t (1 : Fin 4) * 25 + 25; omega
  | ⟨2, _⟩ => show win0_2.index t (2 : Fin 4) * 64 ≤ (i 2).val ∧ (i 2).val < win0_2.index t (2 : Fin 4) * 64 + 64; omega
  | ⟨3, _⟩ => show win0_2.index t (3 : Fin 4) * 512 ≤ (i 3).val ∧ (i 3).val < win0_2.index t (3 : Fin 4) * 512 + 512; omega

/-- THE RESULT ARRAY after the run: the cost volume of the two argument arrays. -/
theorem final (c : Dev nD) : (dats m 0 c).arrAt 2 cfg0.N
    = CostVolume.volume (m ((c : Thread nD τ).loc main_arg0) : S8x32x256x512.Idx → EReal)
        (m ((c : Thread nD τ).loc main_arg1) : S8x32x256x512.Idx → EReal) :=
  (dats m 0 c).arrAt_eq_of_cover 2
    (CostVolume.volume (V m c main_arg0 : S8x32x256x512.Idx → EReal) (V m c main_arg1 : S8x32x256x512.Idx → EReal))
    (fun t _ => flushed_eq m c t) covered

/-- The kernel's run at the ideal values: the result array ends at the cost volume of the arguments, the arguments
    unchanged. -/
theorem run : θ_run defs (onTc (τ := τ) (main (F := Ideal))) ⟨m, fun _ => 0, ρ⟩ fun r => ∀ c : Dev nD,
      r.2.mem ((c : Thread nD τ).loc main_v0)
        = CostVolume.volume (m ((c : Thread nD τ).loc main_arg0) : S8x32x256x512.Idx → EReal)
            (m ((c : Thread nD τ).loc main_arg1) : S8x32x256x512.Idx → EReal)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.ArrayValue

end
-- ==== Proof.RefSlice.lean ====
/-
  One disparity slice as the reference computes it, read at an entry.

  For a disparity `d = i - 12 ≠ 0` the reference cuts a window of `W = 512 - |d|` columns out of each array (`x` from
  column `xo`, `y` from column `yo`), takes `|x - y|` on the windows, sums over the channel axis from 0, and pads the
  `[8, 256, W]` result with zeros back to 512 columns (`lo` columns on the left, `hi` on the right). Read at
  `(n, r, w)`: inside the padded-in window, `lo ≤ w < lo + W`, it is the L1 distance over the channels between
  `x (n, ·, r, xo + (w - lo))` and `y (n, ·, r, yo + (w - lo))`; outside it is the padding value, the integer 0 read as
  a real. For each `i` the window is exactly the overlap of disparity `i - 12`, `xo + (w - lo) = w` and
  `yo + (w - lo) = w + 12 - i` (`hrel` below; plain arithmetic at each literal `i`), which gives the entry of the cost
  volume. For `d = 0` there is no window and no padding, and every column is in the overlap.
-/
import Idealize.ShloMosaic.PureOps.Ideal.Laws
import Idealize.ShloMosaic.Lib.ValueIdx
import Idealize.ShloMosaic.Lib.Pipeline.Value
import Idealize.ShloMosaic.Lib.KernelVsHost
import proofs.«124119_j13718125543602_2_alg».proof.Proof.CostVolume

noncomputable section

open scoped BigOperators

namespace CostVolume

open Idealize.ShloMosaic Idealize.ShloMosaic.ValueIdx

/-- an argument array -/
abbrev SArr : Shape := ⟨4, ![8, 32, 256, 512]⟩
/-- a window of `W` columns of an argument array -/
abbrev SCut (W : Nat) : Shape := ⟨4, ![8, 32, 256, W]⟩
/-- the window with the channel axis summed away -/
abbrev SRed (W : Nat) : Shape := ⟨3, ![8, 256, W]⟩
/-- one slice of the volume -/
abbrev SPad : Shape := ⟨3, ![8, 256, 512]⟩
/-- a scalar -/
abbrev S0 : Shape := ⟨0, ![]⟩

section
variable {F : FTy → Type} [FloatOps F]

/-- The reference's term for a slice with a window: `W` columns, `x` from column `xo`, `y` from column `yo`, padded
    with `lo` columns before and `hi` after. -/
def refSlice (W xo yo lo hi : Nat) (hsx : SArr.Slices ![0, 0, 0, xo] (SCut W)) (hsy : SArr.Slices ![0, 0, 0, yo] (SCut W))
    (hrt : (SCut W).ReducesTo [1] (SRed W)) (hu : 0 < S0.numel)
    (hp : (SRed W).Pads ![0, 0, lo] ![0, 0, hi] ![0, 0, 0] SPad) (x y : FVec F SArr .f32) : FVec F SPad .f32 :=
  pad SPad ![0, 0, lo] ![0, 0, hi] ![0, 0, 0]
    (Host.reduceAdd (Host.absf (subf (extractStridedSlice (SCut W) ![0, 0, 0, xo] x hsx)
        (extractStridedSlice (SCut W) ![0, 0, 0, yo] y hsy))) (constant S0 .f32 0x00000000#32) hrt hu)
    (sitofp .f32 (constantI S0 32 0#32)) hp hu

/-- The reference's term for disparity 0: no window, no padding. -/
def refWhole (hrt : SArr.ReducesTo [1] SPad) (hu : 0 < S0.numel) (x y : FVec F SArr .f32) : FVec F SPad .f32 :=
  Host.reduceAdd (Host.absf (subf x y)) (constant S0 .f32 0x00000000#32) hrt hu

end

/-- A windowed slice read at `(n, r, w)` at the ideal values is the cost volume's entry `(n, i, r, w)`. -/
theorem refSlice_apply (i W xo yo lo hi : Nat) (hsx : SArr.Slices ![0, 0, 0, xo] (SCut W))
    (hsy : SArr.Slices ![0, 0, 0, yo] (SCut W)) (hrt : (SCut W).ReducesTo [1] (SRed W)) (hu : 0 < S0.numel)
    (hp : (SRed W).Pads ![0, 0, lo] ![0, 0, hi] ![0, 0, 0] SPad) (hred : (SCut W).Reduces [1] (SRed W))
    (hrel : ∀ w : Nat, w < 512 → ((lo ≤ w ∧ w - lo < W) ↔ inOverlap i w)
      ∧ (inOverlap i w → xo + (w - lo) = w ∧ yo + (w - lo) = w + 12 - i))
    (x y : FVec Ideal SArr .f32) (n : Fin 8) (r : Fin 256) (w : Fin 512) :
    refSlice (F := Ideal) W xo yo lo hi hsx hsy hrt hu hp x y (ix3 n r w)
      = if inOverlap i w.val then
          l1 (fun c => x (ix4 n c r w)) (fun c => y (ix4 n c r (shiftedCol i w.val)))
        else 0 := by
  unfold refSlice
  obtain ⟨hiff, hcol⟩ := hrel w.val w.isLt
  by_cases hv : inOverlap i w.val
  · rw [if_pos hv]
    obtain ⟨hlo, hW⟩ := hiff.mpr hv
    obtain ⟨hxc, hyc⟩ := hcol hv
    rw [pad_apply_of_inside _ _ _ _ _ hp hu (ix3 n r w) (ix3 n r (⟨w.val - lo, hW⟩ : Fin W)) (by
      intro a
      fin_cases a
      · show n.val = 0 + n.val * (0 + 1); omega
      · show r.val = 0 + r.val * (0 + 1); omega
      · show w.val = lo + (w.val - lo) * (0 + 1); omega)]
    simp only [Host.reduceAdd, Ideal.hostReduceAdd_def]
    rw [Ideal.hostReduceAdd_single hrt hred]
    show Ideal.ofBits .f32 0x00000000#32 + _ = _
    rw [Ideal.ofBits_zero_f32, zero_add]
    unfold l1
    refine Finset.sum_congr rfl ?_
    intro (c : Fin 32) _
    have hl : hred.lift (ix3 n r (⟨w.val - lo, hW⟩ : Fin W)) c = ix4 n c r (⟨w.val - lo, hW⟩ : Fin W) :=
      funext fun a => Fin.ext (by match a with | ⟨0, _⟩ => rfl | ⟨1, _⟩ => rfl | ⟨2, _⟩ => rfl | ⟨3, _⟩ => rfl)
    rw [hl]
    show FloatOps.hostAbsf (extractStridedSlice (SCut W) ![0, 0, 0, xo] x hsx (ix4 n c r (⟨w.val - lo, hW⟩ : Fin W))
        - extractStridedSlice (SCut W) ![0, 0, 0, yo] y hsy (ix4 n c r (⟨w.val - lo, hW⟩ : Fin W))) = _
    rw [extractStridedSlice_apply _ x hsx _ (ix4 n c r w) (by
        intro a
        fin_cases a
        · show n.val = 0 + n.val; omega
        · show c.val = 0 + c.val; omega
        · show r.val = 0 + r.val; omega
        · show w.val = xo + (w.val - lo); omega),
      extractStridedSlice_apply _ y hsy _ (ix4 n c r (shiftedCol i w.val)) (by
        intro a
        fin_cases a
        · show n.val = 0 + n.val; omega
        · show c.val = 0 + c.val; omega
        · show r.val = 0 + r.val; omega
        · show (shiftedCol i w.val).val = yo + (w.val - lo); rw [shiftedCol_val hv]; omega)]
    rfl
  · rw [if_neg hv]
    rw [pad_apply_of_not_inside _ _ _ _ _ hp hu (ix3 n r w) (2 : Fin 3) (by
      show ¬(lo ≤ w.val ∧ (w.val - lo) % (0 + 1) = 0 ∧ (w.val - lo) / (0 + 1) < W)
      rintro ⟨h1, -, h3⟩
      exact hv (hiff.mp ⟨h1, by simpa using h3⟩))]
    show (((0#32 : BitVec 32).toInt : ℝ) : EReal) = 0
    simp

/-- The slice of disparity 0 read at `(n, r, w)` at the ideal values is the cost volume's entry `(n, 12, r, w)`. -/
theorem refWhole_apply (hrt : SArr.ReducesTo [1] SPad) (hu : 0 < S0.numel) (hred : SArr.Reduces [1] SPad)
    (x y : FVec Ideal SArr .f32) (n : Fin 8) (r : Fin 256) (w : Fin 512) :
    refWhole (F := Ideal) hrt hu x y (ix3 n r w)
      = if inOverlap 12 w.val then
          l1 (fun c => x (ix4 n c r w)) (fun c => y (ix4 n c r (shiftedCol 12 w.val)))
        else 0 := by
  have hv : inOverlap 12 w.val := by unfold inOverlap; have := w.isLt; omega
  have hc : shiftedCol 12 w.val = w := Fin.ext (by rw [shiftedCol_val hv]; omega)
  rw [if_pos hv, hc]
  unfold refWhole
  simp only [Host.reduceAdd, Ideal.hostReduceAdd_def]
  rw [Ideal.hostReduceAdd_single hrt hred]
  show Ideal.ofBits .f32 0x00000000#32 + _ = _
  rw [Ideal.ofBits_zero_f32, zero_add]
  unfold l1
  refine Finset.sum_congr rfl ?_
  intro (c : Fin 32) _
  have hl : hred.lift (ix3 n r w) c = ix4 n c r w :=
    funext fun a => Fin.ext (by match a with | ⟨0, _⟩ => rfl | ⟨1, _⟩ => rfl | ⟨2, _⟩ => rfl | ⟨3, _⟩ => rfl)
  rw [hl]
  rfl

end CostVolume

end
-- ==== Proof.RefValue.lean ====
/-
  The reference's result, at the ideal values: the cost volume of the two arguments.

  The reference builds 25 slices `[8, 256, 512]`, one per disparity (`RefSlice.lean` reads each at an entry: it is
  the cost volume's entry of that disparity), gives each a unit axis after the batch axis, and joins them along that
  axis: the first 16 and the last 9 first, then the two stacks. An entry `(n, i, r, w)` of the joined array is therefore
  entry `(n, r, w)` of slice `i`: in the first stack for `i < 16`, at position `i - 16` of the second otherwise.
-/
import proofs.«124119_j13718125543602_2_alg».proof.Proof.RefRead
import proofs.«124119_j13718125543602_2_alg».proof.Proof.RefSlice

set_option maxRecDepth 16384

noncomputable section

namespace Cert.ReferenceIdeal.RefValue

open Cert.ReferenceIdeal Cert.ReferenceIdeal.Gen Cert.ReferenceIdeal.ReadP Idealize.ShloMosaic Idealize.ShloMosaic.ValueIdx
open CostVolume

/-- Entry `(n, i, r, w)` of the cost volume, written out. -/
abbrev entry (i : Nat) (x y : FVec Ideal S8x32x256x512 .f32) (n : Fin 8) (r : Fin 256) (w : Fin 512) : EReal :=
  if inOverlap i w.val then l1 (fun c => x (ix4 n c r w)) (fun c => y (ix4 n c r (shiftedCol i w.val))) else 0

/-! ## The 25 slices -/

theorem slab_0 (x y : FVec Ideal S8x32x256x512 .f32) (n : Fin 8) (r : Fin 256) (w : Fin 512) :
    val_main_v5 (F := Ideal) x y (ix3 n r w) = entry 0 x y n r w :=
  refSlice_apply 0 500 0 12 0 12 (by decide) (by decide) (by decide) (by decide) (by decide) (by decide)
    (by intro w hw; unfold inOverlap; omega) x y n r w

theorem slab_1 (x y : FVec Ideal S8x32x256x512 .f32) (n : Fin 8) (r : Fin 256) (w : Fin 512) :
    val_main_v11 (F := Ideal) x y (ix3 n r w) = entry 1 x y n r w :=
  refSlice_apply 1 501 0 11 0 11 (by decide) (by decide) (by decide) (by decide) (by decide) (by decide)
    (by intro w hw; unfold inOverlap; omega) x y n r w

theorem slab_2 (x y : FVec Ideal S8x32x256x512 .f32) (n : Fin 8) (r : Fin 256) (w : Fin 512) :
    val_main_v17 (F := Ideal) x y (ix3 n r w) = entry 2 x y n r w :=
  refSlice_apply 2 502 0 10 0 10 (by decide) (by decide) (by decide) (by decide) (by decide) (by decide)
    (by intro w hw; unfold inOverlap; omega) x y n r w

theorem slab_3 (x y : FVec Ideal S8x32x256x512 .f32) (n : Fin 8) (r : Fin 256) (w : Fin 512) :
    val_main_v23 (F := Ideal) x y (ix3 n r w) = entry 3 x y n r w :=
  refSlice_apply 3 503 0 9 0 9 (by decide) (by decide) (by decide) (by decide) (by decide) (by decide)
    (by intro w hw; unfold inOverlap; omega) x y n r w

theorem slab_4 (x y : FVec Ideal S8x32x256x512 .f32) (n : Fin 8) (r : Fin 256) (w : Fin 512) :
    val_main_v29 (F := Ideal) x y (ix3 n r w) = entry 4 x y n r w :=
  refSlice_apply 4 504 0 8 0 8 (by decide) (by decide) (by decide) (by decide) (by decide) (by decide)
    (by intro w hw; unfold inOverlap; omega) x y n r w

theorem slab_5 (x y : FVec Ideal S8x32x256x512 .f32) (n : Fin 8) (r : Fin 256) (w : Fin 512) :
    val_main_v35 (F := Ideal) x y (ix3 n r w) = entry 5 x y n r w :=
  refSlice_apply 5 505 0 7 0 7 (by decide) (by decide) (by decide) (by decide) (by decide) (by decide)
    (by intro w hw; unfold inOverlap; omega) x y n r w

theorem slab_6 (x y : FVec Ideal S8x32x256x512 .f32) (n : Fin 8) (r : Fin 256) (w : Fin 512) :
    val_main_v41 (F := Ideal) x y (ix3 n r w) = entry 6 x y n r w :=
  refSlice_apply 6 506 0 6 0 6 (by decide) (by decide) (by decide) (by decide) (by decide) (by decide)
    (by intro w hw; unfold inOverlap; omega) x y n r w

theorem slab_7 (x y : FVec Ideal S8x32x256x512 .f32) (n : Fin 8) (r : Fin 256) (w : Fin 512) :
    val_main_v47 (F := Ideal) x y (ix3 n r w) = entry 7 x y n r w :=
  refSlice_apply 7 507 0 5 0 5 (by decide) (by decide) (by decide) (by decide) (by decide) (by decide)
    (by intro w hw; unfold inOverlap; omega) x y n r w

theorem slab_8 (x y : FVec Ideal S8x32x256x512 .f32) (n : Fin 8) (r : Fin 256) (w : Fin 512) :
    val_main_v53 (F := Ideal) x y (ix3 n r w) = entry 8 x y n r w :=
  refSlice_apply 8 508 0 4 0 4 (by decide) (by decide) (by decide) (by decide) (by decide) (by decide)
    (by intro w hw; unfold inOverlap; omega) x y n r w

theorem slab_9 (x y : FVec Ideal S8x32x256x512 .f32) (n : Fin 8) (r : Fin 256) (w : Fin 512) :
    val_main_v59 (F := Ideal) x y (ix3 n r w) = entry 9 x y n r w :=
  refSlice_apply 9 509 0 3 0 3 (by decide) (by decide) (by decide) (by decide) (by decide) (by decide)
    (by intro w hw; unfold inOverlap; omega) x y n r w

theorem slab_10 (x y : FVec Ideal S8x32x256x512 .f32) (n : Fin 8) (r : Fin 256) (w : Fin 512) :
    val_main_v65 (F := Ideal) x y (ix3 n r w) = entry 10 x y n r w :=
  refSlice_apply 10 510 0 2 0 2 (by decide) (by decide) (by decide) (by decide) (by decide) (by decide)
    (by intro w hw; unfold inOverlap; omega) x y n r w

theorem slab_11 (x y : FVec Ideal S8x32x256x512 .f32) (n : Fin 8) (r : Fin 256) (w : Fin 512) :
    val_main_v71 (F := Ideal) x y (ix3 n r w) = entry 11 x y n r w :=
  refSlice_apply 11 511 0 1 0 1 (by decide) (by decide) (by decide) (by decide) (by decide) (by decide)
    (by intro w hw; unfold inOverlap; omega) x y n r w

theorem slab_12 (x y : FVec Ideal S8x32x256x512 .f32) (n : Fin 8) (r : Fin 256) (w : Fin 512) :
    val_main_v74 (F := Ideal) x y (ix3 n r w) = entry 12 x y n r w :=
  refWhole_apply (by decide) (by decide) (by decide) x y n r w

theorem slab_13 (x y : FVec Ideal S8x32x256x512 .f32) (n : Fin 8) (r : Fin 256) (w : Fin 512) :
    val_main_v80 (F := Ideal) x y (ix3 n r w) = entry 13 x y n r w :=
  refSlice_apply 13 511 1 0 1 0 (by decide) (by decide) (by decide) (by decide) (by decide) (by decide)
    (by intro w hw; unfold inOverlap; omega) x y n r w

theorem slab_14 (x y : FVec Ideal S8x32x256x512 .f32) (n : Fin 8) (r : Fin 256) (w : Fin 512) :
    val_main_v86 (F := Ideal) x y (ix3 n r w) = entry 14 x y n r w :=
  refSlice_apply 14 510 2 0 2 0 (by decide) (by decide) (by decide) (by decide) (by decide) (by decide)
    (by intro w hw; unfold inOverlap; omega) x y n r w

theorem slab_15 (x y : FVec Ideal S8x32x256x512 .f32) (n : Fin 8) (r : Fin 256) (w : Fin 512) :
    val_main_v92 (F := Ideal) x y (ix3 n r w) = entry 15 x y n r w :=
  refSlice_apply 15 509 3 0 3 0 (by decide) (by decide) (by decide) (by decide) (by decide) (by decide)
    (by intro w hw; unfold inOverlap; omega) x y n r w

theorem slab_16 (x y : FVec Ideal S8x32x256x512 .f32) (n : Fin 8) (r : Fin 256) (w : Fin 512) :
    val_main_v98 (F := Ideal) x y (ix3 n r w) = entry 16 x y n r w :=
  refSlice_apply 16 508 4 0 4 0 (by decide) (by decide) (by decide) (by decide) (by decide) (by decide)
    (by intro w hw; unfold inOverlap; omega) x y n r w

theorem slab_17 (x y : FVec Ideal S8x32x256x512 .f32) (n : Fin 8) (r : Fin 256) (w : Fin 512) :
    val_main_v104 (F := Ideal) x y (ix3 n r w) = entry 17 x y n r w :=
  refSlice_apply 17 507 5 0 5 0 (by decide) (by decide) (by decide) (by decide) (by decide) (by decide)
    (by intro w hw; unfold inOverlap; omega) x y n r w

theorem slab_18 (x y : FVec Ideal S8x32x256x512 .f32) (n : Fin 8) (r : Fin 256) (w : Fin 512) :
    val_main_v110 (F := Ideal) x y (ix3 n r w) = entry 18 x y n r w :=
  refSlice_apply 18 506 6 0 6 0 (by decide) (by decide) (by decide) (by decide) (by decide) (by decide)
    (by intro w hw; unfold inOverlap; omega) x y n r w

theorem slab_19 (x y : FVec Ideal S8x32x256x512 .f32) (n : Fin 8) (r : Fin 256) (w : Fin 512) :
    val_main_v116 (F := Ideal) x y (ix3 n r w) = entry 19 x y n r w :=
  refSlice_apply 19 505 7 0 7 0 (by decide) (by decide) (by decide) (by decide) (by decide) (by decide)
    (by intro w hw; unfold inOverlap; omega) x y n r w

theorem slab_20 (x y : FVec Ideal S8x32x256x512 .f32) (n : Fin 8) (r : Fin 256) (w : Fin 512) :
    val_main_v122 (F := Ideal) x y (ix3 n r w) = entry 20 x y n r w :=
  refSlice_apply 20 504 8 0 8 0 (by decide) (by decide) (by decide) (by decide) (by decide) (by decide)
    (by intro w hw; unfold inOverlap; omega) x y n r w

theorem slab_21 (x y : FVec Ideal S8x32x256x512 .f32) (n : Fin 8) (r : Fin 256) (w : Fin 512) :
    val_main_v128 (F := Ideal) x y (ix3 n r w) = entry 21 x y n r w :=
  refSlice_apply 21 503 9 0 9 0 (by decide) (by decide) (by decide) (by decide) (by decide) (by decide)
    (by intro w hw; unfold inOverlap; omega) x y n r w

theorem slab_22 (x y : FVec Ideal S8x32x256x512 .f32) (n : Fin 8) (r : Fin 256) (w : Fin 512) :
    val_main_v134 (F := Ideal) x y (ix3 n r w) = entry 22 x y n r w :=
  refSlice_apply 22 502 10 0 10 0 (by decide) (by decide) (by decide) (by decide) (by decide) (by decide)
    (by intro w hw; unfold inOverlap; omega) x y n r w

theorem slab_23 (x y : FVec Ideal S8x32x256x512 .f32) (n : Fin 8) (r : Fin 256) (w : Fin 512) :
    val_main_v140 (F := Ideal) x y (ix3 n r w) = entry 23 x y n r w :=
  refSlice_apply 23 501 11 0 11 0 (by decide) (by decide) (by decide) (by decide) (by decide) (by decide)
    (by intro w hw; unfold inOverlap; omega) x y n r w

theorem slab_24 (x y : FVec Ideal S8x32x256x512 .f32) (n : Fin 8) (r : Fin 256) (w : Fin 512) :
    val_main_v146 (F := Ideal) x y (ix3 n r w) = entry 24 x y n r w :=
  refSlice_apply 24 500 12 0 12 0 (by decide) (by decide) (by decide) (by decide) (by decide) (by decide)
    (by intro w hw; unfold inOverlap; omega) x y n r w

/-! ## The stack -/

/-- Two rank-4 indices with the same batch, row and column agree off the joined axis. -/
theorem off_axis {a b : Nat} {n : Fin 8} {r : Fin 256} {w : Fin 512} (p : Fin a) (q : Fin b) :
    ∀ d : Fin 4, d.cast (rfl : (4 : Nat) = 4) ≠ (1 : Fin 4) → ((ix4 n p r w) d).val = ((ix4 n q r w) (d.cast (rfl : (4 : Nat) = 4))).val := by
  intro d hd
  match d with
  | ⟨0, _⟩ => rfl
  | ⟨1, _⟩ => exact absurd rfl hd
  | ⟨2, _⟩ => rfl
  | ⟨3, _⟩ => rfl

/-- The slice index behind an index of a slice with its unit axis. -/
theorem unstack (n : Fin 8) (r : Fin 256) (w : Fin 512) :
    (fun a : Fin 3 => match a with
      | ⟨0, _⟩ => (⟨((ix4 n (0 : Fin 1) r w) 0).val, ((ix4 n (0 : Fin 1) r w) 0).isLt⟩ : Fin 8)
      | ⟨1, _⟩ => (⟨((ix4 n (0 : Fin 1) r w) 2).val, ((ix4 n (0 : Fin 1) r w) 2).isLt⟩ : Fin 256)
      | ⟨2, _⟩ => (⟨((ix4 n (0 : Fin 1) r w) 3).val, ((ix4 n (0 : Fin 1) r w) 3).isLt⟩ : Fin 512)) = ix3 n r w := by
  funext a
  match a with
  | ⟨0, _⟩ => rfl
  | ⟨1, _⟩ => rfl
  | ⟨2, _⟩ => rfl

theorem stack_0 (x y : FVec Ideal S8x32x256x512 .f32) (n : Fin 8) (r : Fin 256) (w : Fin 512) :
    val_main_v174 (F := Ideal) x y (ix4 n (⟨0, by decide⟩ : Fin 25) r w) = val_main_v5 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨0, by decide⟩ : Fin 25) r w)
    0 (by show 0 < 2; decide) S8x16x256x512 (val_main_v172 (F := Ideal) x y) rfl rfl
    0 rfl (ix4 n (⟨0, by decide⟩ : Fin 16) r w) (off_axis _ _) rfl).trans ?_
  unfold val_main_v172
  refine (concatenate_apply_piece (t := S8x16x256x512) (1 : Fin 4) [⟨S8x1x256x512, val_main_v147 (F := Ideal) x y⟩, ⟨S8x1x256x512, val_main_v148 (F := Ideal) x y⟩, ⟨S8x1x256x512, val_main_v149 (F := Ideal) x y⟩, ⟨S8x1x256x512, val_main_v150 (F := Ideal) x y⟩, ⟨S8x1x256x512, val_main_v151 (F := Ideal) x y⟩, ⟨S8x1x256x512, val_main_v152 (F := Ideal) x y⟩, ⟨S8x1x256x512, val_main_v153 (F := Ideal) x y⟩, ⟨S8x1x256x512, val_main_v154 (F := Ideal) x y⟩, ⟨S8x1x256x512, val_main_v155 (F := Ideal) x y⟩, ⟨S8x1x256x512, val_main_v156 (F := Ideal) x y⟩, ⟨S8x1x256x512, val_main_v157 (F := Ideal) x y⟩, ⟨S8x1x256x512, val_main_v158 (F := Ideal) x y⟩, ⟨S8x1x256x512, val_main_v159 (F := Ideal) x y⟩, ⟨S8x1x256x512, val_main_v160 (F := Ideal) x y⟩, ⟨S8x1x256x512, val_main_v161 (F := Ideal) x y⟩, ⟨S8x1x256x512, val_main_v162 (F := Ideal) x y⟩]
    concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1 (ix4 n (⟨0, by decide⟩ : Fin 16) r w)
    0 (by show 0 < 16; decide) S8x1x256x512 (val_main_v147 (F := Ideal) x y) rfl rfl
    0 (by rw [List.map_take]; show (List.map _ (List.take 0 [S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512])).sum = 0; decide)
    (ix4 n (0 : Fin 1) r w) (off_axis _ _) rfl).trans ?_
  rw [val_main_v147_apply]
  exact congrArg _ (unstack n r w)

theorem stack_1 (x y : FVec Ideal S8x32x256x512 .f32) (n : Fin 8) (r : Fin 256) (w : Fin 512) :
    val_main_v174 (F := Ideal) x y (ix4 n (⟨1, by decide⟩ : Fin 25) r w) = val_main_v11 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨1, by decide⟩ : Fin 25) r w)
    0 (by show 0 < 2; decide) S8x16x256x512 (val_main_v172 (F := Ideal) x y) rfl rfl
    0 rfl (ix4 n (⟨1, by decide⟩ : Fin 16) r w) (off_axis _ _) rfl).trans ?_
  unfold val_main_v172
  refine (concatenate_apply_piece (t := S8x16x256x512) (1 : Fin 4) [⟨S8x1x256x512, val_main_v147 (F := Ideal) x y⟩, ⟨S8x1x256x512, val_main_v148 (F := Ideal) x y⟩, ⟨S8x1x256x512, val_main_v149 (F := Ideal) x y⟩, ⟨S8x1x256x512, val_main_v150 (F := Ideal) x y⟩, ⟨S8x1x256x512, val_main_v151 (F := Ideal) x y⟩, ⟨S8x1x256x512, val_main_v152 (F := Ideal) x y⟩, ⟨S8x1x256x512, val_main_v153 (F := Ideal) x y⟩, ⟨S8x1x256x512, val_main_v154 (F := Ideal) x y⟩, ⟨S8x1x256x512, val_main_v155 (F := Ideal) x y⟩, ⟨S8x1x256x512, val_main_v156 (F := Ideal) x y⟩, ⟨S8x1x256x512, val_main_v157 (F := Ideal) x y⟩, ⟨S8x1x256x512, val_main_v158 (F := Ideal) x y⟩, ⟨S8x1x256x512, val_main_v159 (F := Ideal) x y⟩, ⟨S8x1x256x512, val_main_v160 (F := Ideal) x y⟩, ⟨S8x1x256x512, val_main_v161 (F := Ideal) x y⟩, ⟨S8x1x256x512, val_main_v162 (F := Ideal) x y⟩]
    concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1 (ix4 n (⟨1, by decide⟩ : Fin 16) r w)
    1 (by show 1 < 16; decide) S8x1x256x512 (val_main_v148 (F := Ideal) x y) rfl rfl
    1 (by rw [List.map_take]; show (List.map _ (List.take 1 [S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512])).sum = 1; decide)
    (ix4 n (0 : Fin 1) r w) (off_axis _ _) rfl).trans ?_
  rw [val_main_v148_apply]
  exact congrArg _ (unstack n r w)

theorem stack_2 (x y : FVec Ideal S8x32x256x512 .f32) (n : Fin 8) (r : Fin 256) (w : Fin 512) :
    val_main_v174 (F := Ideal) x y (ix4 n (⟨2, by decide⟩ : Fin 25) r w) = val_main_v17 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨2, by decide⟩ : Fin 25) r w)
    0 (by show 0 < 2; decide) S8x16x256x512 (val_main_v172 (F := Ideal) x y) rfl rfl
    0 rfl (ix4 n (⟨2, by decide⟩ : Fin 16) r w) (off_axis _ _) rfl).trans ?_
  unfold val_main_v172
  refine (concatenate_apply_piece (t := S8x16x256x512) (1 : Fin 4) [⟨S8x1x256x512, val_main_v147 (F := Ideal) x y⟩, ⟨S8x1x256x512, val_main_v148 (F := Ideal) x y⟩, ⟨S8x1x256x512, val_main_v149 (F := Ideal) x y⟩, ⟨S8x1x256x512, val_main_v150 (F := Ideal) x y⟩, ⟨S8x1x256x512, val_main_v151 (F := Ideal) x y⟩, ⟨S8x1x256x512, val_main_v152 (F := Ideal) x y⟩, ⟨S8x1x256x512, val_main_v153 (F := Ideal) x y⟩, ⟨S8x1x256x512, val_main_v154 (F := Ideal) x y⟩, ⟨S8x1x256x512, val_main_v155 (F := Ideal) x y⟩, ⟨S8x1x256x512, val_main_v156 (F := Ideal) x y⟩, ⟨S8x1x256x512, val_main_v157 (F := Ideal) x y⟩, ⟨S8x1x256x512, val_main_v158 (F := Ideal) x y⟩, ⟨S8x1x256x512, val_main_v159 (F := Ideal) x y⟩, ⟨S8x1x256x512, val_main_v160 (F := Ideal) x y⟩, ⟨S8x1x256x512, val_main_v161 (F := Ideal) x y⟩, ⟨S8x1x256x512, val_main_v162 (F := Ideal) x y⟩]
    concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1 (ix4 n (⟨2, by decide⟩ : Fin 16) r w)
    2 (by show 2 < 16; decide) S8x1x256x512 (val_main_v149 (F := Ideal) x y) rfl rfl
    2 (by rw [List.map_take]; show (List.map _ (List.take 2 [S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512])).sum = 2; decide)
    (ix4 n (0 : Fin 1) r w) (off_axis _ _) rfl).trans ?_
  rw [val_main_v149_apply]
  exact congrArg _ (unstack n r w)

theorem stack_3 (x y : FVec Ideal S8x32x256x512 .f32) (n : Fin 8) (r : Fin 256) (w : Fin 512) :
    val_main_v174 (F := Ideal) x y (ix4 n (⟨3, by decide⟩ : Fin 25) r w) = val_main_v23 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨3, by decide⟩ : Fin 25) r w)
    0 (by show 0 < 2; decide) S8x16x256x512 (val_main_v172 (F := Ideal) x y) rfl rfl
    0 rfl (ix4 n (⟨3, by decide⟩ : Fin 16) r w) (off_axis _ _) rfl).trans ?_
  unfold val_main_v172
  refine (concatenate_apply_piece (t := S8x16x256x512) (1 : Fin 4) [⟨S8x1x256x512, val_main_v147 (F := Ideal) x y⟩, ⟨S8x1x256x512, val_main_v148 (F := Ideal) x y⟩, ⟨S8x1x256x512, val_main_v149 (F := Ideal) x y⟩, ⟨S8x1x256x512, val_main_v150 (F := Ideal) x y⟩, ⟨S8x1x256x512, val_main_v151 (F := Ideal) x y⟩, ⟨S8x1x256x512, val_main_v152 (F := Ideal) x y⟩, ⟨S8x1x256x512, val_main_v153 (F := Ideal) x y⟩, ⟨S8x1x256x512, val_main_v154 (F := Ideal) x y⟩, ⟨S8x1x256x512, val_main_v155 (F := Ideal) x y⟩, ⟨S8x1x256x512, val_main_v156 (F := Ideal) x y⟩, ⟨S8x1x256x512, val_main_v157 (F := Ideal) x y⟩, ⟨S8x1x256x512, val_main_v158 (F := Ideal) x y⟩, ⟨S8x1x256x512, val_main_v159 (F := Ideal) x y⟩, ⟨S8x1x256x512, val_main_v160 (F := Ideal) x y⟩, ⟨S8x1x256x512, val_main_v161 (F := Ideal) x y⟩, ⟨S8x1x256x512, val_main_v162 (F := Ideal) x y⟩]
    concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1 (ix4 n (⟨3, by decide⟩ : Fin 16) r w)
    3 (by show 3 < 16; decide) S8x1x256x512 (val_main_v150 (F := Ideal) x y) rfl rfl
    3 (by rw [List.map_take]; show (List.map _ (List.take 3 [S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512])).sum = 3; decide)
    (ix4 n (0 : Fin 1) r w) (off_axis _ _) rfl).trans ?_
  rw [val_main_v150_apply]
  exact congrArg _ (unstack n r w)

theorem stack_4 (x y : FVec Ideal S8x32x256x512 .f32) (n : Fin 8) (r : Fin 256) (w : Fin 512) :
    val_main_v174 (F := Ideal) x y (ix4 n (⟨4, by decide⟩ : Fin 25) r w) = val_main_v29 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨4, by decide⟩ : Fin 25) r w)
    0 (by show 0 < 2; decide) S8x16x256x512 (val_main_v172 (F := Ideal) x y) rfl rfl
    0 rfl (ix4 n (⟨4, by decide⟩ : Fin 16) r w) (off_axis _ _) rfl).trans ?_
  unfold val_main_v172
  refine (concatenate_apply_piece (t := S8x16x256x512) (1 : Fin 4) [⟨S8x1x256x512, val_main_v147 (F := Ideal) x y⟩, ⟨S8x1x256x512, val_main_v148 (F := Ideal) x y⟩, ⟨S8x1x256x512, val_main_v149 (F := Ideal) x y⟩, ⟨S8x1x256x512, val_main_v150 (F := Ideal) x y⟩, ⟨S8x1x256x512, val_main_v151 (F := Ideal) x y⟩, ⟨S8x1x256x512, val_main_v152 (F := Ideal) x y⟩, ⟨S8x1x256x512, val_main_v153 (F := Ideal) x y⟩, ⟨S8x1x256x512, val_main_v154 (F := Ideal) x y⟩, ⟨S8x1x256x512, val_main_v155 (F := Ideal) x y⟩, ⟨S8x1x256x512, val_main_v156 (F := Ideal) x y⟩, ⟨S8x1x256x512, val_main_v157 (F := Ideal) x y⟩, ⟨S8x1x256x512, val_main_v158 (F := Ideal) x y⟩, ⟨S8x1x256x512, val_main_v159 (F := Ideal) x y⟩, ⟨S8x1x256x512, val_main_v160 (F := Ideal) x y⟩, ⟨S8x1x256x512, val_main_v161 (F := Ideal) x y⟩, ⟨S8x1x256x512, val_main_v162 (F := Ideal) x y⟩]
    concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1 (ix4 n (⟨4, by decide⟩ : Fin 16) r w)
    4 (by show 4 < 16; decide) S8x1x256x512 (val_main_v151 (F := Ideal) x y) rfl rfl
    4 (by rw [List.map_take]; show (List.map _ (List.take 4 [S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512])).sum = 4; decide)
    (ix4 n (0 : Fin 1) r w) (off_axis _ _) rfl).trans ?_
  rw [val_main_v151_apply]
  exact congrArg _ (unstack n r w)

theorem stack_5 (x y : FVec Ideal S8x32x256x512 .f32) (n : Fin 8) (r : Fin 256) (w : Fin 512) :
    val_main_v174 (F := Ideal) x y (ix4 n (⟨5, by decide⟩ : Fin 25) r w) = val_main_v35 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨5, by decide⟩ : Fin 25) r w)
    0 (by show 0 < 2; decide) S8x16x256x512 (val_main_v172 (F := Ideal) x y) rfl rfl
    0 rfl (ix4 n (⟨5, by decide⟩ : Fin 16) r w) (off_axis _ _) rfl).trans ?_
  unfold val_main_v172
  refine (concatenate_apply_piece (t := S8x16x256x512) (1 : Fin 4) [⟨S8x1x256x512, val_main_v147 (F := Ideal) x y⟩, ⟨S8x1x256x512, val_main_v148 (F := Ideal) x y⟩, ⟨S8x1x256x512, val_main_v149 (F := Ideal) x y⟩, ⟨S8x1x256x512, val_main_v150 (F := Ideal) x y⟩, ⟨S8x1x256x512, val_main_v151 (F := Ideal) x y⟩, ⟨S8x1x256x512, val_main_v152 (F := Ideal) x y⟩, ⟨S8x1x256x512, val_main_v153 (F := Ideal) x y⟩, ⟨S8x1x256x512, val_main_v154 (F := Ideal) x y⟩, ⟨S8x1x256x512, val_main_v155 (F := Ideal) x y⟩, ⟨S8x1x256x512, val_main_v156 (F := Ideal) x y⟩, ⟨S8x1x256x512, val_main_v157 (F := Ideal) x y⟩, ⟨S8x1x256x512, val_main_v158 (F := Ideal) x y⟩, ⟨S8x1x256x512, val_main_v159 (F := Ideal) x y⟩, ⟨S8x1x256x512, val_main_v160 (F := Ideal) x y⟩, ⟨S8x1x256x512, val_main_v161 (F := Ideal) x y⟩, ⟨S8x1x256x512, val_main_v162 (F := Ideal) x y⟩]
    concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1 (ix4 n (⟨5, by decide⟩ : Fin 16) r w)
    5 (by show 5 < 16; decide) S8x1x256x512 (val_main_v152 (F := Ideal) x y) rfl rfl
    5 (by rw [List.map_take]; show (List.map _ (List.take 5 [S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512])).sum = 5; decide)
    (ix4 n (0 : Fin 1) r w) (off_axis _ _) rfl).trans ?_
  rw [val_main_v152_apply]
  exact congrArg _ (unstack n r w)

theorem stack_6 (x y : FVec Ideal S8x32x256x512 .f32) (n : Fin 8) (r : Fin 256) (w : Fin 512) :
    val_main_v174 (F := Ideal) x y (ix4 n (⟨6, by decide⟩ : Fin 25) r w) = val_main_v41 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨6, by decide⟩ : Fin 25) r w)
    0 (by show 0 < 2; decide) S8x16x256x512 (val_main_v172 (F := Ideal) x y) rfl rfl
    0 rfl (ix4 n (⟨6, by decide⟩ : Fin 16) r w) (off_axis _ _) rfl).trans ?_
  unfold val_main_v172
  refine (concatenate_apply_piece (t := S8x16x256x512) (1 : Fin 4) [⟨S8x1x256x512, val_main_v147 (F := Ideal) x y⟩, ⟨S8x1x256x512, val_main_v148 (F := Ideal) x y⟩, ⟨S8x1x256x512, val_main_v149 (F := Ideal) x y⟩, ⟨S8x1x256x512, val_main_v150 (F := Ideal) x y⟩, ⟨S8x1x256x512, val_main_v151 (F := Ideal) x y⟩, ⟨S8x1x256x512, val_main_v152 (F := Ideal) x y⟩, ⟨S8x1x256x512, val_main_v153 (F := Ideal) x y⟩, ⟨S8x1x256x512, val_main_v154 (F := Ideal) x y⟩, ⟨S8x1x256x512, val_main_v155 (F := Ideal) x y⟩, ⟨S8x1x256x512, val_main_v156 (F := Ideal) x y⟩, ⟨S8x1x256x512, val_main_v157 (F := Ideal) x y⟩, ⟨S8x1x256x512, val_main_v158 (F := Ideal) x y⟩, ⟨S8x1x256x512, val_main_v159 (F := Ideal) x y⟩, ⟨S8x1x256x512, val_main_v160 (F := Ideal) x y⟩, ⟨S8x1x256x512, val_main_v161 (F := Ideal) x y⟩, ⟨S8x1x256x512, val_main_v162 (F := Ideal) x y⟩]
    concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1 (ix4 n (⟨6, by decide⟩ : Fin 16) r w)
    6 (by show 6 < 16; decide) S8x1x256x512 (val_main_v153 (F := Ideal) x y) rfl rfl
    6 (by rw [List.map_take]; show (List.map _ (List.take 6 [S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512])).sum = 6; decide)
    (ix4 n (0 : Fin 1) r w) (off_axis _ _) rfl).trans ?_
  rw [val_main_v153_apply]
  exact congrArg _ (unstack n r w)

theorem stack_7 (x y : FVec Ideal S8x32x256x512 .f32) (n : Fin 8) (r : Fin 256) (w : Fin 512) :
    val_main_v174 (F := Ideal) x y (ix4 n (⟨7, by decide⟩ : Fin 25) r w) = val_main_v47 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨7, by decide⟩ : Fin 25) r w)
    0 (by show 0 < 2; decide) S8x16x256x512 (val_main_v172 (F := Ideal) x y) rfl rfl
    0 rfl (ix4 n (⟨7, by decide⟩ : Fin 16) r w) (off_axis _ _) rfl).trans ?_
  unfold val_main_v172
  refine (concatenate_apply_piece (t := S8x16x256x512) (1 : Fin 4) [⟨S8x1x256x512, val_main_v147 (F := Ideal) x y⟩, ⟨S8x1x256x512, val_main_v148 (F := Ideal) x y⟩, ⟨S8x1x256x512, val_main_v149 (F := Ideal) x y⟩, ⟨S8x1x256x512, val_main_v150 (F := Ideal) x y⟩, ⟨S8x1x256x512, val_main_v151 (F := Ideal) x y⟩, ⟨S8x1x256x512, val_main_v152 (F := Ideal) x y⟩, ⟨S8x1x256x512, val_main_v153 (F := Ideal) x y⟩, ⟨S8x1x256x512, val_main_v154 (F := Ideal) x y⟩, ⟨S8x1x256x512, val_main_v155 (F := Ideal) x y⟩, ⟨S8x1x256x512, val_main_v156 (F := Ideal) x y⟩, ⟨S8x1x256x512, val_main_v157 (F := Ideal) x y⟩, ⟨S8x1x256x512, val_main_v158 (F := Ideal) x y⟩, ⟨S8x1x256x512, val_main_v159 (F := Ideal) x y⟩, ⟨S8x1x256x512, val_main_v160 (F := Ideal) x y⟩, ⟨S8x1x256x512, val_main_v161 (F := Ideal) x y⟩, ⟨S8x1x256x512, val_main_v162 (F := Ideal) x y⟩]
    concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1 (ix4 n (⟨7, by decide⟩ : Fin 16) r w)
    7 (by show 7 < 16; decide) S8x1x256x512 (val_main_v154 (F := Ideal) x y) rfl rfl
    7 (by rw [List.map_take]; show (List.map _ (List.take 7 [S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512])).sum = 7; decide)
    (ix4 n (0 : Fin 1) r w) (off_axis _ _) rfl).trans ?_
  rw [val_main_v154_apply]
  exact congrArg _ (unstack n r w)

theorem stack_8 (x y : FVec Ideal S8x32x256x512 .f32) (n : Fin 8) (r : Fin 256) (w : Fin 512) :
    val_main_v174 (F := Ideal) x y (ix4 n (⟨8, by decide⟩ : Fin 25) r w) = val_main_v53 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨8, by decide⟩ : Fin 25) r w)
    0 (by show 0 < 2; decide) S8x16x256x512 (val_main_v172 (F := Ideal) x y) rfl rfl
    0 rfl (ix4 n (⟨8, by decide⟩ : Fin 16) r w) (off_axis _ _) rfl).trans ?_
  unfold val_main_v172
  refine (concatenate_apply_piece (t := S8x16x256x512) (1 : Fin 4) [⟨S8x1x256x512, val_main_v147 (F := Ideal) x y⟩, ⟨S8x1x256x512, val_main_v148 (F := Ideal) x y⟩, ⟨S8x1x256x512, val_main_v149 (F := Ideal) x y⟩, ⟨S8x1x256x512, val_main_v150 (F := Ideal) x y⟩, ⟨S8x1x256x512, val_main_v151 (F := Ideal) x y⟩, ⟨S8x1x256x512, val_main_v152 (F := Ideal) x y⟩, ⟨S8x1x256x512, val_main_v153 (F := Ideal) x y⟩, ⟨S8x1x256x512, val_main_v154 (F := Ideal) x y⟩, ⟨S8x1x256x512, val_main_v155 (F := Ideal) x y⟩, ⟨S8x1x256x512, val_main_v156 (F := Ideal) x y⟩, ⟨S8x1x256x512, val_main_v157 (F := Ideal) x y⟩, ⟨S8x1x256x512, val_main_v158 (F := Ideal) x y⟩, ⟨S8x1x256x512, val_main_v159 (F := Ideal) x y⟩, ⟨S8x1x256x512, val_main_v160 (F := Ideal) x y⟩, ⟨S8x1x256x512, val_main_v161 (F := Ideal) x y⟩, ⟨S8x1x256x512, val_main_v162 (F := Ideal) x y⟩]
    concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1 (ix4 n (⟨8, by decide⟩ : Fin 16) r w)
    8 (by show 8 < 16; decide) S8x1x256x512 (val_main_v155 (F := Ideal) x y) rfl rfl
    8 (by rw [List.map_take]; show (List.map _ (List.take 8 [S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512])).sum = 8; decide)
    (ix4 n (0 : Fin 1) r w) (off_axis _ _) rfl).trans ?_
  rw [val_main_v155_apply]
  exact congrArg _ (unstack n r w)

theorem stack_9 (x y : FVec Ideal S8x32x256x512 .f32) (n : Fin 8) (r : Fin 256) (w : Fin 512) :
    val_main_v174 (F := Ideal) x y (ix4 n (⟨9, by decide⟩ : Fin 25) r w) = val_main_v59 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨9, by decide⟩ : Fin 25) r w)
    0 (by show 0 < 2; decide) S8x16x256x512 (val_main_v172 (F := Ideal) x y) rfl rfl
    0 rfl (ix4 n (⟨9, by decide⟩ : Fin 16) r w) (off_axis _ _) rfl).trans ?_
  unfold val_main_v172
  refine (concatenate_apply_piece (t := S8x16x256x512) (1 : Fin 4) [⟨S8x1x256x512, val_main_v147 (F := Ideal) x y⟩, ⟨S8x1x256x512, val_main_v148 (F := Ideal) x y⟩, ⟨S8x1x256x512, val_main_v149 (F := Ideal) x y⟩, ⟨S8x1x256x512, val_main_v150 (F := Ideal) x y⟩, ⟨S8x1x256x512, val_main_v151 (F := Ideal) x y⟩, ⟨S8x1x256x512, val_main_v152 (F := Ideal) x y⟩, ⟨S8x1x256x512, val_main_v153 (F := Ideal) x y⟩, ⟨S8x1x256x512, val_main_v154 (F := Ideal) x y⟩, ⟨S8x1x256x512, val_main_v155 (F := Ideal) x y⟩, ⟨S8x1x256x512, val_main_v156 (F := Ideal) x y⟩, ⟨S8x1x256x512, val_main_v157 (F := Ideal) x y⟩, ⟨S8x1x256x512, val_main_v158 (F := Ideal) x y⟩, ⟨S8x1x256x512, val_main_v159 (F := Ideal) x y⟩, ⟨S8x1x256x512, val_main_v160 (F := Ideal) x y⟩, ⟨S8x1x256x512, val_main_v161 (F := Ideal) x y⟩, ⟨S8x1x256x512, val_main_v162 (F := Ideal) x y⟩]
    concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1 (ix4 n (⟨9, by decide⟩ : Fin 16) r w)
    9 (by show 9 < 16; decide) S8x1x256x512 (val_main_v156 (F := Ideal) x y) rfl rfl
    9 (by rw [List.map_take]; show (List.map _ (List.take 9 [S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512])).sum = 9; decide)
    (ix4 n (0 : Fin 1) r w) (off_axis _ _) rfl).trans ?_
  rw [val_main_v156_apply]
  exact congrArg _ (unstack n r w)

theorem stack_10 (x y : FVec Ideal S8x32x256x512 .f32) (n : Fin 8) (r : Fin 256) (w : Fin 512) :
    val_main_v174 (F := Ideal) x y (ix4 n (⟨10, by decide⟩ : Fin 25) r w) = val_main_v65 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨10, by decide⟩ : Fin 25) r w)
    0 (by show 0 < 2; decide) S8x16x256x512 (val_main_v172 (F := Ideal) x y) rfl rfl
    0 rfl (ix4 n (⟨10, by decide⟩ : Fin 16) r w) (off_axis _ _) rfl).trans ?_
  unfold val_main_v172
  refine (concatenate_apply_piece (t := S8x16x256x512) (1 : Fin 4) [⟨S8x1x256x512, val_main_v147 (F := Ideal) x y⟩, ⟨S8x1x256x512, val_main_v148 (F := Ideal) x y⟩, ⟨S8x1x256x512, val_main_v149 (F := Ideal) x y⟩, ⟨S8x1x256x512, val_main_v150 (F := Ideal) x y⟩, ⟨S8x1x256x512, val_main_v151 (F := Ideal) x y⟩, ⟨S8x1x256x512, val_main_v152 (F := Ideal) x y⟩, ⟨S8x1x256x512, val_main_v153 (F := Ideal) x y⟩, ⟨S8x1x256x512, val_main_v154 (F := Ideal) x y⟩, ⟨S8x1x256x512, val_main_v155 (F := Ideal) x y⟩, ⟨S8x1x256x512, val_main_v156 (F := Ideal) x y⟩, ⟨S8x1x256x512, val_main_v157 (F := Ideal) x y⟩, ⟨S8x1x256x512, val_main_v158 (F := Ideal) x y⟩, ⟨S8x1x256x512, val_main_v159 (F := Ideal) x y⟩, ⟨S8x1x256x512, val_main_v160 (F := Ideal) x y⟩, ⟨S8x1x256x512, val_main_v161 (F := Ideal) x y⟩, ⟨S8x1x256x512, val_main_v162 (F := Ideal) x y⟩]
    concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1 (ix4 n (⟨10, by decide⟩ : Fin 16) r w)
    10 (by show 10 < 16; decide) S8x1x256x512 (val_main_v157 (F := Ideal) x y) rfl rfl
    10 (by rw [List.map_take]; show (List.map _ (List.take 10 [S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512])).sum = 10; decide)
    (ix4 n (0 : Fin 1) r w) (off_axis _ _) rfl).trans ?_
  rw [val_main_v157_apply]
  exact congrArg _ (unstack n r w)

theorem stack_11 (x y : FVec Ideal S8x32x256x512 .f32) (n : Fin 8) (r : Fin 256) (w : Fin 512) :
    val_main_v174 (F := Ideal) x y (ix4 n (⟨11, by decide⟩ : Fin 25) r w) = val_main_v71 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨11, by decide⟩ : Fin 25) r w)
    0 (by show 0 < 2; decide) S8x16x256x512 (val_main_v172 (F := Ideal) x y) rfl rfl
    0 rfl (ix4 n (⟨11, by decide⟩ : Fin 16) r w) (off_axis _ _) rfl).trans ?_
  unfold val_main_v172
  refine (concatenate_apply_piece (t := S8x16x256x512) (1 : Fin 4) [⟨S8x1x256x512, val_main_v147 (F := Ideal) x y⟩, ⟨S8x1x256x512, val_main_v148 (F := Ideal) x y⟩, ⟨S8x1x256x512, val_main_v149 (F := Ideal) x y⟩, ⟨S8x1x256x512, val_main_v150 (F := Ideal) x y⟩, ⟨S8x1x256x512, val_main_v151 (F := Ideal) x y⟩, ⟨S8x1x256x512, val_main_v152 (F := Ideal) x y⟩, ⟨S8x1x256x512, val_main_v153 (F := Ideal) x y⟩, ⟨S8x1x256x512, val_main_v154 (F := Ideal) x y⟩, ⟨S8x1x256x512, val_main_v155 (F := Ideal) x y⟩, ⟨S8x1x256x512, val_main_v156 (F := Ideal) x y⟩, ⟨S8x1x256x512, val_main_v157 (F := Ideal) x y⟩, ⟨S8x1x256x512, val_main_v158 (F := Ideal) x y⟩, ⟨S8x1x256x512, val_main_v159 (F := Ideal) x y⟩, ⟨S8x1x256x512, val_main_v160 (F := Ideal) x y⟩, ⟨S8x1x256x512, val_main_v161 (F := Ideal) x y⟩, ⟨S8x1x256x512, val_main_v162 (F := Ideal) x y⟩]
    concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1 (ix4 n (⟨11, by decide⟩ : Fin 16) r w)
    11 (by show 11 < 16; decide) S8x1x256x512 (val_main_v158 (F := Ideal) x y) rfl rfl
    11 (by rw [List.map_take]; show (List.map _ (List.take 11 [S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512])).sum = 11; decide)
    (ix4 n (0 : Fin 1) r w) (off_axis _ _) rfl).trans ?_
  rw [val_main_v158_apply]
  exact congrArg _ (unstack n r w)

theorem stack_12 (x y : FVec Ideal S8x32x256x512 .f32) (n : Fin 8) (r : Fin 256) (w : Fin 512) :
    val_main_v174 (F := Ideal) x y (ix4 n (⟨12, by decide⟩ : Fin 25) r w) = val_main_v74 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨12, by decide⟩ : Fin 25) r w)
    0 (by show 0 < 2; decide) S8x16x256x512 (val_main_v172 (F := Ideal) x y) rfl rfl
    0 rfl (ix4 n (⟨12, by decide⟩ : Fin 16) r w) (off_axis _ _) rfl).trans ?_
  unfold val_main_v172
  refine (concatenate_apply_piece (t := S8x16x256x512) (1 : Fin 4) [⟨S8x1x256x512, val_main_v147 (F := Ideal) x y⟩, ⟨S8x1x256x512, val_main_v148 (F := Ideal) x y⟩, ⟨S8x1x256x512, val_main_v149 (F := Ideal) x y⟩, ⟨S8x1x256x512, val_main_v150 (F := Ideal) x y⟩, ⟨S8x1x256x512, val_main_v151 (F := Ideal) x y⟩, ⟨S8x1x256x512, val_main_v152 (F := Ideal) x y⟩, ⟨S8x1x256x512, val_main_v153 (F := Ideal) x y⟩, ⟨S8x1x256x512, val_main_v154 (F := Ideal) x y⟩, ⟨S8x1x256x512, val_main_v155 (F := Ideal) x y⟩, ⟨S8x1x256x512, val_main_v156 (F := Ideal) x y⟩, ⟨S8x1x256x512, val_main_v157 (F := Ideal) x y⟩, ⟨S8x1x256x512, val_main_v158 (F := Ideal) x y⟩, ⟨S8x1x256x512, val_main_v159 (F := Ideal) x y⟩, ⟨S8x1x256x512, val_main_v160 (F := Ideal) x y⟩, ⟨S8x1x256x512, val_main_v161 (F := Ideal) x y⟩, ⟨S8x1x256x512, val_main_v162 (F := Ideal) x y⟩]
    concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1 (ix4 n (⟨12, by decide⟩ : Fin 16) r w)
    12 (by show 12 < 16; decide) S8x1x256x512 (val_main_v159 (F := Ideal) x y) rfl rfl
    12 (by rw [List.map_take]; show (List.map _ (List.take 12 [S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512])).sum = 12; decide)
    (ix4 n (0 : Fin 1) r w) (off_axis _ _) rfl).trans ?_
  rw [val_main_v159_apply]
  exact congrArg _ (unstack n r w)

theorem stack_13 (x y : FVec Ideal S8x32x256x512 .f32) (n : Fin 8) (r : Fin 256) (w : Fin 512) :
    val_main_v174 (F := Ideal) x y (ix4 n (⟨13, by decide⟩ : Fin 25) r w) = val_main_v80 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨13, by decide⟩ : Fin 25) r w)
    0 (by show 0 < 2; decide) S8x16x256x512 (val_main_v172 (F := Ideal) x y) rfl rfl
    0 rfl (ix4 n (⟨13, by decide⟩ : Fin 16) r w) (off_axis _ _) rfl).trans ?_
  unfold val_main_v172
  refine (concatenate_apply_piece (t := S8x16x256x512) (1 : Fin 4) [⟨S8x1x256x512, val_main_v147 (F := Ideal) x y⟩, ⟨S8x1x256x512, val_main_v148 (F := Ideal) x y⟩, ⟨S8x1x256x512, val_main_v149 (F := Ideal) x y⟩, ⟨S8x1x256x512, val_main_v150 (F := Ideal) x y⟩, ⟨S8x1x256x512, val_main_v151 (F := Ideal) x y⟩, ⟨S8x1x256x512, val_main_v152 (F := Ideal) x y⟩, ⟨S8x1x256x512, val_main_v153 (F := Ideal) x y⟩, ⟨S8x1x256x512, val_main_v154 (F := Ideal) x y⟩, ⟨S8x1x256x512, val_main_v155 (F := Ideal) x y⟩, ⟨S8x1x256x512, val_main_v156 (F := Ideal) x y⟩, ⟨S8x1x256x512, val_main_v157 (F := Ideal) x y⟩, ⟨S8x1x256x512, val_main_v158 (F := Ideal) x y⟩, ⟨S8x1x256x512, val_main_v159 (F := Ideal) x y⟩, ⟨S8x1x256x512, val_main_v160 (F := Ideal) x y⟩, ⟨S8x1x256x512, val_main_v161 (F := Ideal) x y⟩, ⟨S8x1x256x512, val_main_v162 (F := Ideal) x y⟩]
    concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1 (ix4 n (⟨13, by decide⟩ : Fin 16) r w)
    13 (by show 13 < 16; decide) S8x1x256x512 (val_main_v160 (F := Ideal) x y) rfl rfl
    13 (by rw [List.map_take]; show (List.map _ (List.take 13 [S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512])).sum = 13; decide)
    (ix4 n (0 : Fin 1) r w) (off_axis _ _) rfl).trans ?_
  rw [val_main_v160_apply]
  exact congrArg _ (unstack n r w)

theorem stack_14 (x y : FVec Ideal S8x32x256x512 .f32) (n : Fin 8) (r : Fin 256) (w : Fin 512) :
    val_main_v174 (F := Ideal) x y (ix4 n (⟨14, by decide⟩ : Fin 25) r w) = val_main_v86 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨14, by decide⟩ : Fin 25) r w)
    0 (by show 0 < 2; decide) S8x16x256x512 (val_main_v172 (F := Ideal) x y) rfl rfl
    0 rfl (ix4 n (⟨14, by decide⟩ : Fin 16) r w) (off_axis _ _) rfl).trans ?_
  unfold val_main_v172
  refine (concatenate_apply_piece (t := S8x16x256x512) (1 : Fin 4) [⟨S8x1x256x512, val_main_v147 (F := Ideal) x y⟩, ⟨S8x1x256x512, val_main_v148 (F := Ideal) x y⟩, ⟨S8x1x256x512, val_main_v149 (F := Ideal) x y⟩, ⟨S8x1x256x512, val_main_v150 (F := Ideal) x y⟩, ⟨S8x1x256x512, val_main_v151 (F := Ideal) x y⟩, ⟨S8x1x256x512, val_main_v152 (F := Ideal) x y⟩, ⟨S8x1x256x512, val_main_v153 (F := Ideal) x y⟩, ⟨S8x1x256x512, val_main_v154 (F := Ideal) x y⟩, ⟨S8x1x256x512, val_main_v155 (F := Ideal) x y⟩, ⟨S8x1x256x512, val_main_v156 (F := Ideal) x y⟩, ⟨S8x1x256x512, val_main_v157 (F := Ideal) x y⟩, ⟨S8x1x256x512, val_main_v158 (F := Ideal) x y⟩, ⟨S8x1x256x512, val_main_v159 (F := Ideal) x y⟩, ⟨S8x1x256x512, val_main_v160 (F := Ideal) x y⟩, ⟨S8x1x256x512, val_main_v161 (F := Ideal) x y⟩, ⟨S8x1x256x512, val_main_v162 (F := Ideal) x y⟩]
    concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1 (ix4 n (⟨14, by decide⟩ : Fin 16) r w)
    14 (by show 14 < 16; decide) S8x1x256x512 (val_main_v161 (F := Ideal) x y) rfl rfl
    14 (by rw [List.map_take]; show (List.map _ (List.take 14 [S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512])).sum = 14; decide)
    (ix4 n (0 : Fin 1) r w) (off_axis _ _) rfl).trans ?_
  rw [val_main_v161_apply]
  exact congrArg _ (unstack n r w)

theorem stack_15 (x y : FVec Ideal S8x32x256x512 .f32) (n : Fin 8) (r : Fin 256) (w : Fin 512) :
    val_main_v174 (F := Ideal) x y (ix4 n (⟨15, by decide⟩ : Fin 25) r w) = val_main_v92 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨15, by decide⟩ : Fin 25) r w)
    0 (by show 0 < 2; decide) S8x16x256x512 (val_main_v172 (F := Ideal) x y) rfl rfl
    0 rfl (ix4 n (⟨15, by decide⟩ : Fin 16) r w) (off_axis _ _) rfl).trans ?_
  unfold val_main_v172
  refine (concatenate_apply_piece (t := S8x16x256x512) (1 : Fin 4) [⟨S8x1x256x512, val_main_v147 (F := Ideal) x y⟩, ⟨S8x1x256x512, val_main_v148 (F := Ideal) x y⟩, ⟨S8x1x256x512, val_main_v149 (F := Ideal) x y⟩, ⟨S8x1x256x512, val_main_v150 (F := Ideal) x y⟩, ⟨S8x1x256x512, val_main_v151 (F := Ideal) x y⟩, ⟨S8x1x256x512, val_main_v152 (F := Ideal) x y⟩, ⟨S8x1x256x512, val_main_v153 (F := Ideal) x y⟩, ⟨S8x1x256x512, val_main_v154 (F := Ideal) x y⟩, ⟨S8x1x256x512, val_main_v155 (F := Ideal) x y⟩, ⟨S8x1x256x512, val_main_v156 (F := Ideal) x y⟩, ⟨S8x1x256x512, val_main_v157 (F := Ideal) x y⟩, ⟨S8x1x256x512, val_main_v158 (F := Ideal) x y⟩, ⟨S8x1x256x512, val_main_v159 (F := Ideal) x y⟩, ⟨S8x1x256x512, val_main_v160 (F := Ideal) x y⟩, ⟨S8x1x256x512, val_main_v161 (F := Ideal) x y⟩, ⟨S8x1x256x512, val_main_v162 (F := Ideal) x y⟩]
    concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1 (ix4 n (⟨15, by decide⟩ : Fin 16) r w)
    15 (by show 15 < 16; decide) S8x1x256x512 (val_main_v162 (F := Ideal) x y) rfl rfl
    15 (by rw [List.map_take]; show (List.map _ (List.take 15 [S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512, S8x1x256x512])).sum = 15; decide)
    (ix4 n (0 : Fin 1) r w) (off_axis _ _) rfl).trans ?_
  rw [val_main_v162_apply]
  exact congrArg _ (unstack n r w)

theorem stack_16 (x y : FVec Ideal S8x32x256x512 .f32) (n : Fin 8) (r : Fin 256) (w : Fin 512) :
    val_main_v174 (F := Ideal) x y (ix4 n (⟨16, by decide⟩ : Fin 25) r w) = val_main_v98 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨16, by decide⟩ : Fin 25) r w)
    1 (by show 1 < 2; decide) S8x9x256x512 (val_main_v173 (F := Ideal) x y) rfl rfl
    16 rfl (ix4 n (⟨0, by decide⟩ : Fin 9) r w) (off_axis _ _) rfl).trans ?_
  unfold val_main_v173
  refine (concatenate_apply_piece (t := S8x9x256x512) (1 : Fin 4) [⟨S8x1x256x512, val_main_v163 (F := Ideal) x y⟩, ⟨S8x1x256x512, val_main_v164 (F := Ideal) x y⟩, ⟨S8x1x256x512, val_main_v165 (F := Ideal) x y⟩, ⟨S8x1x256x512, val_main_v166 (F := Ideal) x y⟩, ⟨S8x1x256x512, val_main_v167 (F := Ideal) x y⟩, ⟨S8x1x256x512, val_main_v168 (F := Ideal) x y⟩, ⟨S8x1x256x512, val_main_v169 (F := Ideal) x y⟩, ⟨S8x1x256x512, val_main_v170 (F := Ideal) x y⟩, ⟨S8x1x256x512, val_main_v171 (F := Ideal) x y⟩]
    concatenates_S8x1x256x512_S8x1x256x512_S8x1x256x512_S8x1x256x512_S8x1x256x512_S8x1x256x512_S8x1x256x512_S8x1x256x512_S8x1x256x512_S8x9x256x512_d1 (ix4 n (⟨0, by decide⟩ : Fin 9) r w)
    0 (by show 0 < 9; decide) S8x1x256x512 (val_main_v163 (F := Ideal) x y) rfl rfl
    0 (by rw [List.map_take]; show (List.map _ (List.take 0 [S8x1x256x512, S8x1x256x512, S8x1x256x512, S8x1x256x512, S8x1x256x512, S8x1x256x512, S8x1x256x512, S8x1x256x512, S8x1x256x512])).sum = 0; decide)
    (ix4 n (0 : Fin 1) r w) (off_axis _ _) rfl).trans ?_
  rw [val_main_v163_apply]
  exact congrArg _ (unstack n r w)

theorem stack_17 (x y : FVec Ideal S8x32x256x512 .f32) (n : Fin 8) (r : Fin 256) (w : Fin 512) :
    val_main_v174 (F := Ideal) x y (ix4 n (⟨17, by decide⟩ : Fin 25) r w) = val_main_v104 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨17, by decide⟩ : Fin 25) r w)
    1 (by show 1 < 2; decide) S8x9x256x512 (val_main_v173 (F := Ideal) x y) rfl rfl
    16 rfl (ix4 n (⟨1, by decide⟩ : Fin 9) r w) (off_axis _ _) rfl).trans ?_
  unfold val_main_v173
  refine (concatenate_apply_piece (t := S8x9x256x512) (1 : Fin 4) [⟨S8x1x256x512, val_main_v163 (F := Ideal) x y⟩, ⟨S8x1x256x512, val_main_v164 (F := Ideal) x y⟩, ⟨S8x1x256x512, val_main_v165 (F := Ideal) x y⟩, ⟨S8x1x256x512, val_main_v166 (F := Ideal) x y⟩, ⟨S8x1x256x512, val_main_v167 (F := Ideal) x y⟩, ⟨S8x1x256x512, val_main_v168 (F := Ideal) x y⟩, ⟨S8x1x256x512, val_main_v169 (F := Ideal) x y⟩, ⟨S8x1x256x512, val_main_v170 (F := Ideal) x y⟩, ⟨S8x1x256x512, val_main_v171 (F := Ideal) x y⟩]
    concatenates_S8x1x256x512_S8x1x256x512_S8x1x256x512_S8x1x256x512_S8x1x256x512_S8x1x256x512_S8x1x256x512_S8x1x256x512_S8x1x256x512_S8x9x256x512_d1 (ix4 n (⟨1, by decide⟩ : Fin 9) r w)
    1 (by show 1 < 9; decide) S8x1x256x512 (val_main_v164 (F := Ideal) x y) rfl rfl
    1 (by rw [List.map_take]; show (List.map _ (List.take 1 [S8x1x256x512, S8x1x256x512, S8x1x256x512, S8x1x256x512, S8x1x256x512, S8x1x256x512, S8x1x256x512, S8x1x256x512, S8x1x256x512])).sum = 1; decide)
    (ix4 n (0 : Fin 1) r w) (off_axis _ _) rfl).trans ?_
  rw [val_main_v164_apply]
  exact congrArg _ (unstack n r w)

theorem stack_18 (x y : FVec Ideal S8x32x256x512 .f32) (n : Fin 8) (r : Fin 256) (w : Fin 512) :
    val_main_v174 (F := Ideal) x y (ix4 n (⟨18, by decide⟩ : Fin 25) r w) = val_main_v110 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨18, by decide⟩ : Fin 25) r w)
    1 (by show 1 < 2; decide) S8x9x256x512 (val_main_v173 (F := Ideal) x y) rfl rfl
    16 rfl (ix4 n (⟨2, by decide⟩ : Fin 9) r w) (off_axis _ _) rfl).trans ?_
  unfold val_main_v173
  refine (concatenate_apply_piece (t := S8x9x256x512) (1 : Fin 4) [⟨S8x1x256x512, val_main_v163 (F := Ideal) x y⟩, ⟨S8x1x256x512, val_main_v164 (F := Ideal) x y⟩, ⟨S8x1x256x512, val_main_v165 (F := Ideal) x y⟩, ⟨S8x1x256x512, val_main_v166 (F := Ideal) x y⟩, ⟨S8x1x256x512, val_main_v167 (F := Ideal) x y⟩, ⟨S8x1x256x512, val_main_v168 (F := Ideal) x y⟩, ⟨S8x1x256x512, val_main_v169 (F := Ideal) x y⟩, ⟨S8x1x256x512, val_main_v170 (F := Ideal) x y⟩, ⟨S8x1x256x512, val_main_v171 (F := Ideal) x y⟩]
    concatenates_S8x1x256x512_S8x1x256x512_S8x1x256x512_S8x1x256x512_S8x1x256x512_S8x1x256x512_S8x1x256x512_S8x1x256x512_S8x1x256x512_S8x9x256x512_d1 (ix4 n (⟨2, by decide⟩ : Fin 9) r w)
    2 (by show 2 < 9; decide) S8x1x256x512 (val_main_v165 (F := Ideal) x y) rfl rfl
    2 (by rw [List.map_take]; show (List.map _ (List.take 2 [S8x1x256x512, S8x1x256x512, S8x1x256x512, S8x1x256x512, S8x1x256x512, S8x1x256x512, S8x1x256x512, S8x1x256x512, S8x1x256x512])).sum = 2; decide)
    (ix4 n (0 : Fin 1) r w) (off_axis _ _) rfl).trans ?_
  rw [val_main_v165_apply]
  exact congrArg _ (unstack n r w)

theorem stack_19 (x y : FVec Ideal S8x32x256x512 .f32) (n : Fin 8) (r : Fin 256) (w : Fin 512) :
    val_main_v174 (F := Ideal) x y (ix4 n (⟨19, by decide⟩ : Fin 25) r w) = val_main_v116 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨19, by decide⟩ : Fin 25) r w)
    1 (by show 1 < 2; decide) S8x9x256x512 (val_main_v173 (F := Ideal) x y) rfl rfl
    16 rfl (ix4 n (⟨3, by decide⟩ : Fin 9) r w) (off_axis _ _) rfl).trans ?_
  unfold val_main_v173
  refine (concatenate_apply_piece (t := S8x9x256x512) (1 : Fin 4) [⟨S8x1x256x512, val_main_v163 (F := Ideal) x y⟩, ⟨S8x1x256x512, val_main_v164 (F := Ideal) x y⟩, ⟨S8x1x256x512, val_main_v165 (F := Ideal) x y⟩, ⟨S8x1x256x512, val_main_v166 (F := Ideal) x y⟩, ⟨S8x1x256x512, val_main_v167 (F := Ideal) x y⟩, ⟨S8x1x256x512, val_main_v168 (F := Ideal) x y⟩, ⟨S8x1x256x512, val_main_v169 (F := Ideal) x y⟩, ⟨S8x1x256x512, val_main_v170 (F := Ideal) x y⟩, ⟨S8x1x256x512, val_main_v171 (F := Ideal) x y⟩]
    concatenates_S8x1x256x512_S8x1x256x512_S8x1x256x512_S8x1x256x512_S8x1x256x512_S8x1x256x512_S8x1x256x512_S8x1x256x512_S8x1x256x512_S8x9x256x512_d1 (ix4 n (⟨3, by decide⟩ : Fin 9) r w)
    3 (by show 3 < 9; decide) S8x1x256x512 (val_main_v166 (F := Ideal) x y) rfl rfl
    3 (by rw [List.map_take]; show (List.map _ (List.take 3 [S8x1x256x512, S8x1x256x512, S8x1x256x512, S8x1x256x512, S8x1x256x512, S8x1x256x512, S8x1x256x512, S8x1x256x512, S8x1x256x512])).sum = 3; decide)
    (ix4 n (0 : Fin 1) r w) (off_axis _ _) rfl).trans ?_
  rw [val_main_v166_apply]
  exact congrArg _ (unstack n r w)

theorem stack_20 (x y : FVec Ideal S8x32x256x512 .f32) (n : Fin 8) (r : Fin 256) (w : Fin 512) :
    val_main_v174 (F := Ideal) x y (ix4 n (⟨20, by decide⟩ : Fin 25) r w) = val_main_v122 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨20, by decide⟩ : Fin 25) r w)
    1 (by show 1 < 2; decide) S8x9x256x512 (val_main_v173 (F := Ideal) x y) rfl rfl
    16 rfl (ix4 n (⟨4, by decide⟩ : Fin 9) r w) (off_axis _ _) rfl).trans ?_
  unfold val_main_v173
  refine (concatenate_apply_piece (t := S8x9x256x512) (1 : Fin 4) [⟨S8x1x256x512, val_main_v163 (F := Ideal) x y⟩, ⟨S8x1x256x512, val_main_v164 (F := Ideal) x y⟩, ⟨S8x1x256x512, val_main_v165 (F := Ideal) x y⟩, ⟨S8x1x256x512, val_main_v166 (F := Ideal) x y⟩, ⟨S8x1x256x512, val_main_v167 (F := Ideal) x y⟩, ⟨S8x1x256x512, val_main_v168 (F := Ideal) x y⟩, ⟨S8x1x256x512, val_main_v169 (F := Ideal) x y⟩, ⟨S8x1x256x512, val_main_v170 (F := Ideal) x y⟩, ⟨S8x1x256x512, val_main_v171 (F := Ideal) x y⟩]
    concatenates_S8x1x256x512_S8x1x256x512_S8x1x256x512_S8x1x256x512_S8x1x256x512_S8x1x256x512_S8x1x256x512_S8x1x256x512_S8x1x256x512_S8x9x256x512_d1 (ix4 n (⟨4, by decide⟩ : Fin 9) r w)
    4 (by show 4 < 9; decide) S8x1x256x512 (val_main_v167 (F := Ideal) x y) rfl rfl
    4 (by rw [List.map_take]; show (List.map _ (List.take 4 [S8x1x256x512, S8x1x256x512, S8x1x256x512, S8x1x256x512, S8x1x256x512, S8x1x256x512, S8x1x256x512, S8x1x256x512, S8x1x256x512])).sum = 4; decide)
    (ix4 n (0 : Fin 1) r w) (off_axis _ _) rfl).trans ?_
  rw [val_main_v167_apply]
  exact congrArg _ (unstack n r w)

theorem stack_21 (x y : FVec Ideal S8x32x256x512 .f32) (n : Fin 8) (r : Fin 256) (w : Fin 512) :
    val_main_v174 (F := Ideal) x y (ix4 n (⟨21, by decide⟩ : Fin 25) r w) = val_main_v128 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨21, by decide⟩ : Fin 25) r w)
    1 (by show 1 < 2; decide) S8x9x256x512 (val_main_v173 (F := Ideal) x y) rfl rfl
    16 rfl (ix4 n (⟨5, by decide⟩ : Fin 9) r w) (off_axis _ _) rfl).trans ?_
  unfold val_main_v173
  refine (concatenate_apply_piece (t := S8x9x256x512) (1 : Fin 4) [⟨S8x1x256x512, val_main_v163 (F := Ideal) x y⟩, ⟨S8x1x256x512, val_main_v164 (F := Ideal) x y⟩, ⟨S8x1x256x512, val_main_v165 (F := Ideal) x y⟩, ⟨S8x1x256x512, val_main_v166 (F := Ideal) x y⟩, ⟨S8x1x256x512, val_main_v167 (F := Ideal) x y⟩, ⟨S8x1x256x512, val_main_v168 (F := Ideal) x y⟩, ⟨S8x1x256x512, val_main_v169 (F := Ideal) x y⟩, ⟨S8x1x256x512, val_main_v170 (F := Ideal) x y⟩, ⟨S8x1x256x512, val_main_v171 (F := Ideal) x y⟩]
    concatenates_S8x1x256x512_S8x1x256x512_S8x1x256x512_S8x1x256x512_S8x1x256x512_S8x1x256x512_S8x1x256x512_S8x1x256x512_S8x1x256x512_S8x9x256x512_d1 (ix4 n (⟨5, by decide⟩ : Fin 9) r w)
    5 (by show 5 < 9; decide) S8x1x256x512 (val_main_v168 (F := Ideal) x y) rfl rfl
    5 (by rw [List.map_take]; show (List.map _ (List.take 5 [S8x1x256x512, S8x1x256x512, S8x1x256x512, S8x1x256x512, S8x1x256x512, S8x1x256x512, S8x1x256x512, S8x1x256x512, S8x1x256x512])).sum = 5; decide)
    (ix4 n (0 : Fin 1) r w) (off_axis _ _) rfl).trans ?_
  rw [val_main_v168_apply]
  exact congrArg _ (unstack n r w)

theorem stack_22 (x y : FVec Ideal S8x32x256x512 .f32) (n : Fin 8) (r : Fin 256) (w : Fin 512) :
    val_main_v174 (F := Ideal) x y (ix4 n (⟨22, by decide⟩ : Fin 25) r w) = val_main_v134 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨22, by decide⟩ : Fin 25) r w)
    1 (by show 1 < 2; decide) S8x9x256x512 (val_main_v173 (F := Ideal) x y) rfl rfl
    16 rfl (ix4 n (⟨6, by decide⟩ : Fin 9) r w) (off_axis _ _) rfl).trans ?_
  unfold val_main_v173
  refine (concatenate_apply_piece (t := S8x9x256x512) (1 : Fin 4) [⟨S8x1x256x512, val_main_v163 (F := Ideal) x y⟩, ⟨S8x1x256x512, val_main_v164 (F := Ideal) x y⟩, ⟨S8x1x256x512, val_main_v165 (F := Ideal) x y⟩, ⟨S8x1x256x512, val_main_v166 (F := Ideal) x y⟩, ⟨S8x1x256x512, val_main_v167 (F := Ideal) x y⟩, ⟨S8x1x256x512, val_main_v168 (F := Ideal) x y⟩, ⟨S8x1x256x512, val_main_v169 (F := Ideal) x y⟩, ⟨S8x1x256x512, val_main_v170 (F := Ideal) x y⟩, ⟨S8x1x256x512, val_main_v171 (F := Ideal) x y⟩]
    concatenates_S8x1x256x512_S8x1x256x512_S8x1x256x512_S8x1x256x512_S8x1x256x512_S8x1x256x512_S8x1x256x512_S8x1x256x512_S8x1x256x512_S8x9x256x512_d1 (ix4 n (⟨6, by decide⟩ : Fin 9) r w)
    6 (by show 6 < 9; decide) S8x1x256x512 (val_main_v169 (F := Ideal) x y) rfl rfl
    6 (by rw [List.map_take]; show (List.map _ (List.take 6 [S8x1x256x512, S8x1x256x512, S8x1x256x512, S8x1x256x512, S8x1x256x512, S8x1x256x512, S8x1x256x512, S8x1x256x512, S8x1x256x512])).sum = 6; decide)
    (ix4 n (0 : Fin 1) r w) (off_axis _ _) rfl).trans ?_
  rw [val_main_v169_apply]
  exact congrArg _ (unstack n r w)

theorem stack_23 (x y : FVec Ideal S8x32x256x512 .f32) (n : Fin 8) (r : Fin 256) (w : Fin 512) :
    val_main_v174 (F := Ideal) x y (ix4 n (⟨23, by decide⟩ : Fin 25) r w) = val_main_v140 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨23, by decide⟩ : Fin 25) r w)
    1 (by show 1 < 2; decide) S8x9x256x512 (val_main_v173 (F := Ideal) x y) rfl rfl
    16 rfl (ix4 n (⟨7, by decide⟩ : Fin 9) r w) (off_axis _ _) rfl).trans ?_
  unfold val_main_v173
  refine (concatenate_apply_piece (t := S8x9x256x512) (1 : Fin 4) [⟨S8x1x256x512, val_main_v163 (F := Ideal) x y⟩, ⟨S8x1x256x512, val_main_v164 (F := Ideal) x y⟩, ⟨S8x1x256x512, val_main_v165 (F := Ideal) x y⟩, ⟨S8x1x256x512, val_main_v166 (F := Ideal) x y⟩, ⟨S8x1x256x512, val_main_v167 (F := Ideal) x y⟩, ⟨S8x1x256x512, val_main_v168 (F := Ideal) x y⟩, ⟨S8x1x256x512, val_main_v169 (F := Ideal) x y⟩, ⟨S8x1x256x512, val_main_v170 (F := Ideal) x y⟩, ⟨S8x1x256x512, val_main_v171 (F := Ideal) x y⟩]
    concatenates_S8x1x256x512_S8x1x256x512_S8x1x256x512_S8x1x256x512_S8x1x256x512_S8x1x256x512_S8x1x256x512_S8x1x256x512_S8x1x256x512_S8x9x256x512_d1 (ix4 n (⟨7, by decide⟩ : Fin 9) r w)
    7 (by show 7 < 9; decide) S8x1x256x512 (val_main_v170 (F := Ideal) x y) rfl rfl
    7 (by rw [List.map_take]; show (List.map _ (List.take 7 [S8x1x256x512, S8x1x256x512, S8x1x256x512, S8x1x256x512, S8x1x256x512, S8x1x256x512, S8x1x256x512, S8x1x256x512, S8x1x256x512])).sum = 7; decide)
    (ix4 n (0 : Fin 1) r w) (off_axis _ _) rfl).trans ?_
  rw [val_main_v170_apply]
  exact congrArg _ (unstack n r w)

theorem stack_24 (x y : FVec Ideal S8x32x256x512 .f32) (n : Fin 8) (r : Fin 256) (w : Fin 512) :
    val_main_v174 (F := Ideal) x y (ix4 n (⟨24, by decide⟩ : Fin 25) r w) = val_main_v146 (F := Ideal) x y (ix3 n r w) := by
  unfold val_main_v174
  refine (concatenate_apply_piece (t := S8x25x256x512) (1 : Fin 4) [⟨S8x16x256x512, val_main_v172 (F := Ideal) x y⟩, ⟨S8x9x256x512, val_main_v173 (F := Ideal) x y⟩]
    concatenates_S8x16x256x512_S8x9x256x512_S8x25x256x512_d1 (ix4 n (⟨24, by decide⟩ : Fin 25) r w)
    1 (by show 1 < 2; decide) S8x9x256x512 (val_main_v173 (F := Ideal) x y) rfl rfl
    16 rfl (ix4 n (⟨8, by decide⟩ : Fin 9) r w) (off_axis _ _) rfl).trans ?_
  unfold val_main_v173
  refine (concatenate_apply_piece (t := S8x9x256x512) (1 : Fin 4) [⟨S8x1x256x512, val_main_v163 (F := Ideal) x y⟩, ⟨S8x1x256x512, val_main_v164 (F := Ideal) x y⟩, ⟨S8x1x256x512, val_main_v165 (F := Ideal) x y⟩, ⟨S8x1x256x512, val_main_v166 (F := Ideal) x y⟩, ⟨S8x1x256x512, val_main_v167 (F := Ideal) x y⟩, ⟨S8x1x256x512, val_main_v168 (F := Ideal) x y⟩, ⟨S8x1x256x512, val_main_v169 (F := Ideal) x y⟩, ⟨S8x1x256x512, val_main_v170 (F := Ideal) x y⟩, ⟨S8x1x256x512, val_main_v171 (F := Ideal) x y⟩]
    concatenates_S8x1x256x512_S8x1x256x512_S8x1x256x512_S8x1x256x512_S8x1x256x512_S8x1x256x512_S8x1x256x512_S8x1x256x512_S8x1x256x512_S8x9x256x512_d1 (ix4 n (⟨8, by decide⟩ : Fin 9) r w)
    8 (by show 8 < 9; decide) S8x1x256x512 (val_main_v171 (F := Ideal) x y) rfl rfl
    8 (by rw [List.map_take]; show (List.map _ (List.take 8 [S8x1x256x512, S8x1x256x512, S8x1x256x512, S8x1x256x512, S8x1x256x512, S8x1x256x512, S8x1x256x512, S8x1x256x512, S8x1x256x512])).sum = 8; decide)
    (ix4 n (0 : Fin 1) r w) (off_axis _ _) rfl).trans ?_
  rw [val_main_v171_apply]
  exact congrArg _ (unstack n r w)

/-! ## The result -/

/-- THE REFERENCE'S RESULT is the cost volume of its two arguments. -/
theorem result_eq (x y : FVec Ideal S8x32x256x512 .f32) : val_main_v174 (F := Ideal) x y = CostVolume.volume x y := by
  funext j
  obtain ⟨n, s, r, w, rfl⟩ : ∃ (n : Fin 8) (s : Fin 25) (r : Fin 256) (w : Fin 512), j = ix4 n s r w :=
    ⟨j 0, j 1, j 2, j 3, eq_ix4 j⟩
  show _ = entry s.val x y n r w
  match s with
  | ⟨0, _⟩ => exact (stack_0 x y n r w).trans (slab_0 x y n r w)
  | ⟨1, _⟩ => exact (stack_1 x y n r w).trans (slab_1 x y n r w)
  | ⟨2, _⟩ => exact (stack_2 x y n r w).trans (slab_2 x y n r w)
  | ⟨3, _⟩ => exact (stack_3 x y n r w).trans (slab_3 x y n r w)
  | ⟨4, _⟩ => exact (stack_4 x y n r w).trans (slab_4 x y n r w)
  | ⟨5, _⟩ => exact (stack_5 x y n r w).trans (slab_5 x y n r w)
  | ⟨6, _⟩ => exact (stack_6 x y n r w).trans (slab_6 x y n r w)
  | ⟨7, _⟩ => exact (stack_7 x y n r w).trans (slab_7 x y n r w)
  | ⟨8, _⟩ => exact (stack_8 x y n r w).trans (slab_8 x y n r w)
  | ⟨9, _⟩ => exact (stack_9 x y n r w).trans (slab_9 x y n r w)
  | ⟨10, _⟩ => exact (stack_10 x y n r w).trans (slab_10 x y n r w)
  | ⟨11, _⟩ => exact (stack_11 x y n r w).trans (slab_11 x y n r w)
  | ⟨12, _⟩ => exact (stack_12 x y n r w).trans (slab_12 x y n r w)
  | ⟨13, _⟩ => exact (stack_13 x y n r w).trans (slab_13 x y n r w)
  | ⟨14, _⟩ => exact (stack_14 x y n r w).trans (slab_14 x y n r w)
  | ⟨15, _⟩ => exact (stack_15 x y n r w).trans (slab_15 x y n r w)
  | ⟨16, _⟩ => exact (stack_16 x y n r w).trans (slab_16 x y n r w)
  | ⟨17, _⟩ => exact (stack_17 x y n r w).trans (slab_17 x y n r w)
  | ⟨18, _⟩ => exact (stack_18 x y n r w).trans (slab_18 x y n r w)
  | ⟨19, _⟩ => exact (stack_19 x y n r w).trans (slab_19 x y n r w)
  | ⟨20, _⟩ => exact (stack_20 x y n r w).trans (slab_20 x y n r w)
  | ⟨21, _⟩ => exact (stack_21 x y n r w).trans (slab_21 x y n r w)
  | ⟨22, _⟩ => exact (stack_22 x y n r w).trans (slab_22 x y n r w)
  | ⟨23, _⟩ => exact (stack_23 x y n r w).trans (slab_23 x y n r w)
  | ⟨24, _⟩ => exact (stack_24 x y n r w).trans (slab_24 x y n r w)
  | ⟨k + 25, hk⟩ => exact absurd hk (by omega)

end Cert.ReferenceIdeal.RefValue

end
-- ==== Proof.RefOps0.lean ====
/-
  Operations 1 to 67 of the reference's 248 host operations, in order: part 0 of the printed @main
  (`main_part0`), a called function's two operations (the conversion of the padding value and the pad) standing in
  its call's place. The printed part IS the straight line of them (`part0_eq`), and each touches TensorCore
  references only. `RefOps.lean` puts the four parts together.
-/
import proofs.«124119_j13718125543602_2_alg».proof.Proof.Gen.ReferenceIdeal
import Idealize.ShloMosaic.Lib.StableHlo.Run

noncomputable section

namespace Cert.ReferenceIdeal.Parts

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Part 0's operations, in order. -/
abbrev ops0 : List (HloOp τ sig (Elt F)) :=
  [ unary main_arg0 main_v0 ((extractStridedSlice S8x32x256x500 ![0, 0, 0, 0] · slices_S8x32x256x512_S8x32x256x500_0_0_0_0) : (⟨S8x32x256x512, .f32⟩ : BufTy).Contents (Elt F) → (⟨S8x32x256x500, .f32⟩ : BufTy).Contents (Elt F)),
    unary main_arg1 main_v1 ((extractStridedSlice S8x32x256x500 ![0, 0, 0, 12] · slices_S8x32x256x512_S8x32x256x500_0_0_0_12) : (⟨S8x32x256x512, .f32⟩ : BufTy).Contents (Elt F) → (⟨S8x32x256x500, .f32⟩ : BufTy).Contents (Elt F)),
    binary main_v0 main_v1 main_v2 (subf : (⟨S8x32x256x500, .f32⟩ : BufTy).Contents (Elt F) → (⟨S8x32x256x500, .f32⟩ : BufTy).Contents (Elt F) → (⟨S8x32x256x500, .f32⟩ : BufTy).Contents (Elt F)),
    unary main_v2 main_v3 (Host.absf : (⟨S8x32x256x500, .f32⟩ : BufTy).Contents (Elt F) → (⟨S8x32x256x500, .f32⟩ : BufTy).Contents (Elt F)),
    nullary main_cst (constant S_ .f32 0x00000000#32),
    binary main_v3 main_cst main_v4 ((fun x v => Host.reduceAdd x v reducesTo_S8x32x256x500_S8x256x500_d1 h_S_) : (⟨S8x32x256x500, .f32⟩ : BufTy).Contents (Elt F) → (⟨S_, .f32⟩ : BufTy).Contents (Elt F) → (⟨S8x256x500, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S8x256x500, .f32⟩) main_v4) (TRef.of (T := ⟨S_, .f32⟩) main_call0_v0) (TRef.of (T := ⟨S8x256x512, .f32⟩) main_v5) (fun x v => pad S8x256x512 ![0, 0, 0] ![0, 0, 12] ![0, 0, 0] x v pads_S8x256x500_S8x256x512_000_000_0120 h_S_),
    unary main_arg0 main_v6 ((extractStridedSlice S8x32x256x501 ![0, 0, 0, 0] · slices_S8x32x256x512_S8x32x256x501_0_0_0_0) : (⟨S8x32x256x512, .f32⟩ : BufTy).Contents (Elt F) → (⟨S8x32x256x501, .f32⟩ : BufTy).Contents (Elt F)),
    unary main_arg1 main_v7 ((extractStridedSlice S8x32x256x501 ![0, 0, 0, 11] · slices_S8x32x256x512_S8x32x256x501_0_0_0_11) : (⟨S8x32x256x512, .f32⟩ : BufTy).Contents (Elt F) → (⟨S8x32x256x501, .f32⟩ : BufTy).Contents (Elt F)),
    binary main_v6 main_v7 main_v8 (subf : (⟨S8x32x256x501, .f32⟩ : BufTy).Contents (Elt F) → (⟨S8x32x256x501, .f32⟩ : BufTy).Contents (Elt F) → (⟨S8x32x256x501, .f32⟩ : BufTy).Contents (Elt F)),
    unary main_v8 main_v9 (Host.absf : (⟨S8x32x256x501, .f32⟩ : BufTy).Contents (Elt F) → (⟨S8x32x256x501, .f32⟩ : BufTy).Contents (Elt F)),
    nullary main_cst_0 (constant S_ .f32 0x00000000#32),
    binary main_v9 main_cst_0 main_v10 ((fun x v => Host.reduceAdd x v reducesTo_S8x32x256x501_S8x256x501_d1 h_S_) : (⟨S8x32x256x501, .f32⟩ : BufTy).Contents (Elt F) → (⟨S_, .f32⟩ : BufTy).Contents (Elt F) → (⟨S8x256x501, .f32⟩ : BufTy).Contents (Elt F)),
    nullary main_c_1 (constantI S_ 32 0#32),
    TRef.unary (TRef.of (T := ⟨S_, .i32⟩) main_c_1) (TRef.of (T := ⟨S_, .f32⟩) main_call1_v0) (sitofp .f32),
    TRef.binary (TRef.of (T := ⟨S8x256x501, .f32⟩) main_v10) (TRef.of (T := ⟨S_, .f32⟩) main_call1_v0) (TRef.of (T := ⟨S8x256x512, .f32⟩) main_v11) (fun x v => pad S8x256x512 ![0, 0, 0] ![0, 0, 11] ![0, 0, 0] x v pads_S8x256x501_S8x256x512_000_000_0110 h_S_),
    unary main_arg0 main_v12 ((extractStridedSlice S8x32x256x502 ![0, 0, 0, 0] · slices_S8x32x256x512_S8x32x256x502_0_0_0_0) : (⟨S8x32x256x512, .f32⟩ : BufTy).Contents (Elt F) → (⟨S8x32x256x502, .f32⟩ : BufTy).Contents (Elt F)),
    unary main_arg1 main_v13 ((extractStridedSlice S8x32x256x502 ![0, 0, 0, 10] · slices_S8x32x256x512_S8x32x256x502_0_0_0_10) : (⟨S8x32x256x512, .f32⟩ : BufTy).Contents (Elt F) → (⟨S8x32x256x502, .f32⟩ : BufTy).Contents (Elt F)),
    binary main_v12 main_v13 main_v14 (subf : (⟨S8x32x256x502, .f32⟩ : BufTy).Contents (Elt F) → (⟨S8x32x256x502, .f32⟩ : BufTy).Contents (Elt F) → (⟨S8x32x256x502, .f32⟩ : BufTy).Contents (Elt F)),
    unary main_v14 main_v15 (Host.absf : (⟨S8x32x256x502, .f32⟩ : BufTy).Contents (Elt F) → (⟨S8x32x256x502, .f32⟩ : BufTy).Contents (Elt F)),
    nullary main_cst_2 (constant S_ .f32 0x00000000#32),
    binary main_v15 main_cst_2 main_v16 ((fun x v => Host.reduceAdd x v reducesTo_S8x32x256x502_S8x256x502_d1 h_S_) : (⟨S8x32x256x502, .f32⟩ : BufTy).Contents (Elt F) → (⟨S_, .f32⟩ : BufTy).Contents (Elt F) → (⟨S8x256x502, .f32⟩ : BufTy).Contents (Elt F)),
    nullary main_c_3 (constantI S_ 32 0#32),
    TRef.unary (TRef.of (T := ⟨S_, .i32⟩) main_c_3) (TRef.of (T := ⟨S_, .f32⟩) main_call2_v0) (sitofp .f32),
    TRef.binary (TRef.of (T := ⟨S8x256x502, .f32⟩) main_v16) (TRef.of (T := ⟨S_, .f32⟩) main_call2_v0) (TRef.of (T := ⟨S8x256x512, .f32⟩) main_v17) (fun x v => pad S8x256x512 ![0, 0, 0] ![0, 0, 10] ![0, 0, 0] x v pads_S8x256x502_S8x256x512_000_000_0100 h_S_),
    unary main_arg0 main_v18 ((extractStridedSlice S8x32x256x503 ![0, 0, 0, 0] · slices_S8x32x256x512_S8x32x256x503_0_0_0_0) : (⟨S8x32x256x512, .f32⟩ : BufTy).Contents (Elt F) → (⟨S8x32x256x503, .f32⟩ : BufTy).Contents (Elt F)),
    unary main_arg1 main_v19 ((extractStridedSlice S8x32x256x503 ![0, 0, 0, 9] · slices_S8x32x256x512_S8x32x256x503_0_0_0_9) : (⟨S8x32x256x512, .f32⟩ : BufTy).Contents (Elt F) → (⟨S8x32x256x503, .f32⟩ : BufTy).Contents (Elt F)),
    binary main_v18 main_v19 main_v20 (subf : (⟨S8x32x256x503, .f32⟩ : BufTy).Contents (Elt F) → (⟨S8x32x256x503, .f32⟩ : BufTy).Contents (Elt F) → (⟨S8x32x256x503, .f32⟩ : BufTy).Contents (Elt F)),
    unary main_v20 main_v21 (Host.absf : (⟨S8x32x256x503, .f32⟩ : BufTy).Contents (Elt F) → (⟨S8x32x256x503, .f32⟩ : BufTy).Contents (Elt F)),
    nullary main_cst_4 (constant S_ .f32 0x00000000#32),
    binary main_v21 main_cst_4 main_v22 ((fun x v => Host.reduceAdd x v reducesTo_S8x32x256x503_S8x256x503_d1 h_S_) : (⟨S8x32x256x503, .f32⟩ : BufTy).Contents (Elt F) → (⟨S_, .f32⟩ : BufTy).Contents (Elt F) → (⟨S8x256x503, .f32⟩ : BufTy).Contents (Elt F)),
    nullary main_c_5 (constantI S_ 32 0#32),
    TRef.unary (TRef.of (T := ⟨S_, .i32⟩) main_c_5) (TRef.of (T := ⟨S_, .f32⟩) main_call3_v0) (sitofp .f32),
    TRef.binary (TRef.of (T := ⟨S8x256x503, .f32⟩) main_v22) (TRef.of (T := ⟨S_, .f32⟩) main_call3_v0) (TRef.of (T := ⟨S8x256x512, .f32⟩) main_v23) (fun x v => pad S8x256x512 ![0, 0, 0] ![0, 0, 9] ![0, 0, 0] x v pads_S8x256x503_S8x256x512_000_000_090 h_S_),
    unary main_arg0 main_v24 ((extractStridedSlice S8x32x256x504 ![0, 0, 0, 0] · slices_S8x32x256x512_S8x32x256x504_0_0_0_0) : (⟨S8x32x256x512, .f32⟩ : BufTy).Contents (Elt F) → (⟨S8x32x256x504, .f32⟩ : BufTy).Contents (Elt F)),
    unary main_arg1 main_v25 ((extractStridedSlice S8x32x256x504 ![0, 0, 0, 8] · slices_S8x32x256x512_S8x32x256x504_0_0_0_8) : (⟨S8x32x256x512, .f32⟩ : BufTy).Contents (Elt F) → (⟨S8x32x256x504, .f32⟩ : BufTy).Contents (Elt F)),
    binary main_v24 main_v25 main_v26 (subf : (⟨S8x32x256x504, .f32⟩ : BufTy).Contents (Elt F) → (⟨S8x32x256x504, .f32⟩ : BufTy).Contents (Elt F) → (⟨S8x32x256x504, .f32⟩ : BufTy).Contents (Elt F)),
    unary main_v26 main_v27 (Host.absf : (⟨S8x32x256x504, .f32⟩ : BufTy).Contents (Elt F) → (⟨S8x32x256x504, .f32⟩ : BufTy).Contents (Elt F)),
    nullary main_cst_6 (constant S_ .f32 0x00000000#32),
    binary main_v27 main_cst_6 main_v28 ((fun x v => Host.reduceAdd x v reducesTo_S8x32x256x504_S8x256x504_d1 h_S_) : (⟨S8x32x256x504, .f32⟩ : BufTy).Contents (Elt F) → (⟨S_, .f32⟩ : BufTy).Contents (Elt F) → (⟨S8x256x504, .f32⟩ : BufTy).Contents (Elt F)),
    nullary main_c_7 (constantI S_ 32 0#32),
    TRef.unary (TRef.of (T := ⟨S_, .i32⟩) main_c_7) (TRef.of (T := ⟨S_, .f32⟩) main_call4_v0) (sitofp .f32),
    TRef.binary (TRef.of (T := ⟨S8x256x504, .f32⟩) main_v28) (TRef.of (T := ⟨S_, .f32⟩) main_call4_v0) (TRef.of (T := ⟨S8x256x512, .f32⟩) main_v29) (fun x v => pad S8x256x512 ![0, 0, 0] ![0, 0, 8] ![0, 0, 0] x v pads_S8x256x504_S8x256x512_000_000_080 h_S_),
    unary main_arg0 main_v30 ((extractStridedSlice S8x32x256x505 ![0, 0, 0, 0] · slices_S8x32x256x512_S8x32x256x505_0_0_0_0) : (⟨S8x32x256x512, .f32⟩ : BufTy).Contents (Elt F) → (⟨S8x32x256x505, .f32⟩ : BufTy).Contents (Elt F)),
    unary main_arg1 main_v31 ((extractStridedSlice S8x32x256x505 ![0, 0, 0, 7] · slices_S8x32x256x512_S8x32x256x505_0_0_0_7) : (⟨S8x32x256x512, .f32⟩ : BufTy).Contents (Elt F) → (⟨S8x32x256x505, .f32⟩ : BufTy).Contents (Elt F)),
    binary main_v30 main_v31 main_v32 (subf : (⟨S8x32x256x505, .f32⟩ : BufTy).Contents (Elt F) → (⟨S8x32x256x505, .f32⟩ : BufTy).Contents (Elt F) → (⟨S8x32x256x505, .f32⟩ : BufTy).Contents (Elt F)),
    unary main_v32 main_v33 (Host.absf : (⟨S8x32x256x505, .f32⟩ : BufTy).Contents (Elt F) → (⟨S8x32x256x505, .f32⟩ : BufTy).Contents (Elt F)),
    nullary main_cst_8 (constant S_ .f32 0x00000000#32),
    binary main_v33 main_cst_8 main_v34 ((fun x v => Host.reduceAdd x v reducesTo_S8x32x256x505_S8x256x505_d1 h_S_) : (⟨S8x32x256x505, .f32⟩ : BufTy).Contents (Elt F) → (⟨S_, .f32⟩ : BufTy).Contents (Elt F) → (⟨S8x256x505, .f32⟩ : BufTy).Contents (Elt F)),
    nullary main_c_9 (constantI S_ 32 0#32),
    TRef.unary (TRef.of (T := ⟨S_, .i32⟩) main_c_9) (TRef.of (T := ⟨S_, .f32⟩) main_call5_v0) (sitofp .f32),
    TRef.binary (TRef.of (T := ⟨S8x256x505, .f32⟩) main_v34) (TRef.of (T := ⟨S_, .f32⟩) main_call5_v0) (TRef.of (T := ⟨S8x256x512, .f32⟩) main_v35) (fun x v => pad S8x256x512 ![0, 0, 0] ![0, 0, 7] ![0, 0, 0] x v pads_S8x256x505_S8x256x512_000_000_070 h_S_),
    unary main_arg0 main_v36 ((extractStridedSlice S8x32x256x506 ![0, 0, 0, 0] · slices_S8x32x256x512_S8x32x256x506_0_0_0_0) : (⟨S8x32x256x512, .f32⟩ : BufTy).Contents (Elt F) → (⟨S8x32x256x506, .f32⟩ : BufTy).Contents (Elt F)),
    unary main_arg1 main_v37 ((extractStridedSlice S8x32x256x506 ![0, 0, 0, 6] · slices_S8x32x256x512_S8x32x256x506_0_0_0_6) : (⟨S8x32x256x512, .f32⟩ : BufTy).Contents (Elt F) → (⟨S8x32x256x506, .f32⟩ : BufTy).Contents (Elt F)),
    binary main_v36 main_v37 main_v38 (subf : (⟨S8x32x256x506, .f32⟩ : BufTy).Contents (Elt F) → (⟨S8x32x256x506, .f32⟩ : BufTy).Contents (Elt F) → (⟨S8x32x256x506, .f32⟩ : BufTy).Contents (Elt F)),
    unary main_v38 main_v39 (Host.absf : (⟨S8x32x256x506, .f32⟩ : BufTy).Contents (Elt F) → (⟨S8x32x256x506, .f32⟩ : BufTy).Contents (Elt F)),
    nullary main_cst_10 (constant S_ .f32 0x00000000#32),
    binary main_v39 main_cst_10 main_v40 ((fun x v => Host.reduceAdd x v reducesTo_S8x32x256x506_S8x256x506_d1 h_S_) : (⟨S8x32x256x506, .f32⟩ : BufTy).Contents (Elt F) → (⟨S_, .f32⟩ : BufTy).Contents (Elt F) → (⟨S8x256x506, .f32⟩ : BufTy).Contents (Elt F)),
    nullary main_c_11 (constantI S_ 32 0#32),
    TRef.unary (TRef.of (T := ⟨S_, .i32⟩) main_c_11) (TRef.of (T := ⟨S_, .f32⟩) main_call6_v0) (sitofp .f32),
    TRef.binary (TRef.of (T := ⟨S8x256x506, .f32⟩) main_v40) (TRef.of (T := ⟨S_, .f32⟩) main_call6_v0) (TRef.of (T := ⟨S8x256x512, .f32⟩) main_v41) (fun x v => pad S8x256x512 ![0, 0, 0] ![0, 0, 6] ![0, 0, 0] x v pads_S8x256x506_S8x256x512_000_000_060 h_S_),
    unary main_arg0 main_v42 ((extractStridedSlice S8x32x256x507 ![0, 0, 0, 0] · slices_S8x32x256x512_S8x32x256x507_0_0_0_0) : (⟨S8x32x256x512, .f32⟩ : BufTy).Contents (Elt F) → (⟨S8x32x256x507, .f32⟩ : BufTy).Contents (Elt F)),
    unary main_arg1 main_v43 ((extractStridedSlice S8x32x256x507 ![0, 0, 0, 5] · slices_S8x32x256x512_S8x32x256x507_0_0_0_5) : (⟨S8x32x256x512, .f32⟩ : BufTy).Contents (Elt F) → (⟨S8x32x256x507, .f32⟩ : BufTy).Contents (Elt F)),
    binary main_v42 main_v43 main_v44 (subf : (⟨S8x32x256x507, .f32⟩ : BufTy).Contents (Elt F) → (⟨S8x32x256x507, .f32⟩ : BufTy).Contents (Elt F) → (⟨S8x32x256x507, .f32⟩ : BufTy).Contents (Elt F)),
    unary main_v44 main_v45 (Host.absf : (⟨S8x32x256x507, .f32⟩ : BufTy).Contents (Elt F) → (⟨S8x32x256x507, .f32⟩ : BufTy).Contents (Elt F)) ]

set_option maxRecDepth 8192 in
set_option maxHeartbeats 4000000 in
/-- The printed part is the straight line of its operations. -/
theorem part0_eq (c : Dev nD) : main_part0 (F := F) c = seq ops0 := rfl

set_option maxRecDepth 8192 in
/-- Every operation touches TensorCore references only. -/
theorem ops0_sub : (ops0 : List (HloOp τ sig (Elt F))).Forall fun op => op.bufs ⊆ tcRefs τ sig :=
  ⟨unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub ..⟩

end Cert.ReferenceIdeal.Parts

end
-- ==== Proof.RefOps1.lean ====
/-
  Operations 68 to 134 of the reference's 248 host operations, in order: part 1 of the printed @main
  (`main_part1`), a called function's two operations (the conversion of the padding value and the pad) standing in
  its call's place. The printed part IS the straight line of them (`part1_eq`), and each touches TensorCore
  references only. `RefOps.lean` puts the four parts together.
-/
import proofs.«124119_j13718125543602_2_alg».proof.Proof.Gen.ReferenceIdeal
import Idealize.ShloMosaic.Lib.StableHlo.Run

noncomputable section

namespace Cert.ReferenceIdeal.Parts

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Part 1's operations, in order. -/
abbrev ops1 : List (HloOp τ sig (Elt F)) :=
  [ nullary main_cst_12 (constant S_ .f32 0x00000000#32),
    binary main_v45 main_cst_12 main_v46 ((fun x v => Host.reduceAdd x v reducesTo_S8x32x256x507_S8x256x507_d1 h_S_) : (⟨S8x32x256x507, .f32⟩ : BufTy).Contents (Elt F) → (⟨S_, .f32⟩ : BufTy).Contents (Elt F) → (⟨S8x256x507, .f32⟩ : BufTy).Contents (Elt F)),
    nullary main_c_13 (constantI S_ 32 0#32),
    TRef.unary (TRef.of (T := ⟨S_, .i32⟩) main_c_13) (TRef.of (T := ⟨S_, .f32⟩) main_call7_v0) (sitofp .f32),
    TRef.binary (TRef.of (T := ⟨S8x256x507, .f32⟩) main_v46) (TRef.of (T := ⟨S_, .f32⟩) main_call7_v0) (TRef.of (T := ⟨S8x256x512, .f32⟩) main_v47) (fun x v => pad S8x256x512 ![0, 0, 0] ![0, 0, 5] ![0, 0, 0] x v pads_S8x256x507_S8x256x512_000_000_050 h_S_),
    unary main_arg0 main_v48 ((extractStridedSlice S8x32x256x508 ![0, 0, 0, 0] · slices_S8x32x256x512_S8x32x256x508_0_0_0_0) : (⟨S8x32x256x512, .f32⟩ : BufTy).Contents (Elt F) → (⟨S8x32x256x508, .f32⟩ : BufTy).Contents (Elt F)),
    unary main_arg1 main_v49 ((extractStridedSlice S8x32x256x508 ![0, 0, 0, 4] · slices_S8x32x256x512_S8x32x256x508_0_0_0_4) : (⟨S8x32x256x512, .f32⟩ : BufTy).Contents (Elt F) → (⟨S8x32x256x508, .f32⟩ : BufTy).Contents (Elt F)),
    binary main_v48 main_v49 main_v50 (subf : (⟨S8x32x256x508, .f32⟩ : BufTy).Contents (Elt F) → (⟨S8x32x256x508, .f32⟩ : BufTy).Contents (Elt F) → (⟨S8x32x256x508, .f32⟩ : BufTy).Contents (Elt F)),
    unary main_v50 main_v51 (Host.absf : (⟨S8x32x256x508, .f32⟩ : BufTy).Contents (Elt F) → (⟨S8x32x256x508, .f32⟩ : BufTy).Contents (Elt F)),
    nullary main_cst_14 (constant S_ .f32 0x00000000#32),
    binary main_v51 main_cst_14 main_v52 ((fun x v => Host.reduceAdd x v reducesTo_S8x32x256x508_S8x256x508_d1 h_S_) : (⟨S8x32x256x508, .f32⟩ : BufTy).Contents (Elt F) → (⟨S_, .f32⟩ : BufTy).Contents (Elt F) → (⟨S8x256x508, .f32⟩ : BufTy).Contents (Elt F)),
    nullary main_c_15 (constantI S_ 32 0#32),
    TRef.unary (TRef.of (T := ⟨S_, .i32⟩) main_c_15) (TRef.of (T := ⟨S_, .f32⟩) main_call8_v0) (sitofp .f32),
    TRef.binary (TRef.of (T := ⟨S8x256x508, .f32⟩) main_v52) (TRef.of (T := ⟨S_, .f32⟩) main_call8_v0) (TRef.of (T := ⟨S8x256x512, .f32⟩) main_v53) (fun x v => pad S8x256x512 ![0, 0, 0] ![0, 0, 4] ![0, 0, 0] x v pads_S8x256x508_S8x256x512_000_000_040 h_S_),
    unary main_arg0 main_v54 ((extractStridedSlice S8x32x256x509 ![0, 0, 0, 0] · slices_S8x32x256x512_S8x32x256x509_0_0_0_0) : (⟨S8x32x256x512, .f32⟩ : BufTy).Contents (Elt F) → (⟨S8x32x256x509, .f32⟩ : BufTy).Contents (Elt F)),
    unary main_arg1 main_v55 ((extractStridedSlice S8x32x256x509 ![0, 0, 0, 3] · slices_S8x32x256x512_S8x32x256x509_0_0_0_3) : (⟨S8x32x256x512, .f32⟩ : BufTy).Contents (Elt F) → (⟨S8x32x256x509, .f32⟩ : BufTy).Contents (Elt F)),
    binary main_v54 main_v55 main_v56 (subf : (⟨S8x32x256x509, .f32⟩ : BufTy).Contents (Elt F) → (⟨S8x32x256x509, .f32⟩ : BufTy).Contents (Elt F) → (⟨S8x32x256x509, .f32⟩ : BufTy).Contents (Elt F)),
    unary main_v56 main_v57 (Host.absf : (⟨S8x32x256x509, .f32⟩ : BufTy).Contents (Elt F) → (⟨S8x32x256x509, .f32⟩ : BufTy).Contents (Elt F)),
    nullary main_cst_16 (constant S_ .f32 0x00000000#32),
    binary main_v57 main_cst_16 main_v58 ((fun x v => Host.reduceAdd x v reducesTo_S8x32x256x509_S8x256x509_d1 h_S_) : (⟨S8x32x256x509, .f32⟩ : BufTy).Contents (Elt F) → (⟨S_, .f32⟩ : BufTy).Contents (Elt F) → (⟨S8x256x509, .f32⟩ : BufTy).Contents (Elt F)),
    nullary main_c_17 (constantI S_ 32 0#32),
    TRef.unary (TRef.of (T := ⟨S_, .i32⟩) main_c_17) (TRef.of (T := ⟨S_, .f32⟩) main_call9_v0) (sitofp .f32),
    TRef.binary (TRef.of (T := ⟨S8x256x509, .f32⟩) main_v58) (TRef.of (T := ⟨S_, .f32⟩) main_call9_v0) (TRef.of (T := ⟨S8x256x512, .f32⟩) main_v59) (fun x v => pad S8x256x512 ![0, 0, 0] ![0, 0, 3] ![0, 0, 0] x v pads_S8x256x509_S8x256x512_000_000_030 h_S_),
    unary main_arg0 main_v60 ((extractStridedSlice S8x32x256x510 ![0, 0, 0, 0] · slices_S8x32x256x512_S8x32x256x510_0_0_0_0) : (⟨S8x32x256x512, .f32⟩ : BufTy).Contents (Elt F) → (⟨S8x32x256x510, .f32⟩ : BufTy).Contents (Elt F)),
    unary main_arg1 main_v61 ((extractStridedSlice S8x32x256x510 ![0, 0, 0, 2] · slices_S8x32x256x512_S8x32x256x510_0_0_0_2) : (⟨S8x32x256x512, .f32⟩ : BufTy).Contents (Elt F) → (⟨S8x32x256x510, .f32⟩ : BufTy).Contents (Elt F)),
    binary main_v60 main_v61 main_v62 (subf : (⟨S8x32x256x510, .f32⟩ : BufTy).Contents (Elt F) → (⟨S8x32x256x510, .f32⟩ : BufTy).Contents (Elt F) → (⟨S8x32x256x510, .f32⟩ : BufTy).Contents (Elt F)),
    unary main_v62 main_v63 (Host.absf : (⟨S8x32x256x510, .f32⟩ : BufTy).Contents (Elt F) → (⟨S8x32x256x510, .f32⟩ : BufTy).Contents (Elt F)),
    nullary main_cst_18 (constant S_ .f32 0x00000000#32),
    binary main_v63 main_cst_18 main_v64 ((fun x v => Host.reduceAdd x v reducesTo_S8x32x256x510_S8x256x510_d1 h_S_) : (⟨S8x32x256x510, .f32⟩ : BufTy).Contents (Elt F) → (⟨S_, .f32⟩ : BufTy).Contents (Elt F) → (⟨S8x256x510, .f32⟩ : BufTy).Contents (Elt F)),
    nullary main_c_19 (constantI S_ 32 0#32),
    TRef.unary (TRef.of (T := ⟨S_, .i32⟩) main_c_19) (TRef.of (T := ⟨S_, .f32⟩) main_call10_v0) (sitofp .f32),
    TRef.binary (TRef.of (T := ⟨S8x256x510, .f32⟩) main_v64) (TRef.of (T := ⟨S_, .f32⟩) main_call10_v0) (TRef.of (T := ⟨S8x256x512, .f32⟩) main_v65) (fun x v => pad S8x256x512 ![0, 0, 0] ![0, 0, 2] ![0, 0, 0] x v pads_S8x256x510_S8x256x512_000_000_020 h_S_),
    unary main_arg0 main_v66 ((extractStridedSlice S8x32x256x511 ![0, 0, 0, 0] · slices_S8x32x256x512_S8x32x256x511_0_0_0_0) : (⟨S8x32x256x512, .f32⟩ : BufTy).Contents (Elt F) → (⟨S8x32x256x511, .f32⟩ : BufTy).Contents (Elt F)),
    unary main_arg1 main_v67 ((extractStridedSlice S8x32x256x511 ![0, 0, 0, 1] · slices_S8x32x256x512_S8x32x256x511_0_0_0_1) : (⟨S8x32x256x512, .f32⟩ : BufTy).Contents (Elt F) → (⟨S8x32x256x511, .f32⟩ : BufTy).Contents (Elt F)),
    binary main_v66 main_v67 main_v68 (subf : (⟨S8x32x256x511, .f32⟩ : BufTy).Contents (Elt F) → (⟨S8x32x256x511, .f32⟩ : BufTy).Contents (Elt F) → (⟨S8x32x256x511, .f32⟩ : BufTy).Contents (Elt F)),
    unary main_v68 main_v69 (Host.absf : (⟨S8x32x256x511, .f32⟩ : BufTy).Contents (Elt F) → (⟨S8x32x256x511, .f32⟩ : BufTy).Contents (Elt F)),
    nullary main_cst_20 (constant S_ .f32 0x00000000#32),
    binary main_v69 main_cst_20 main_v70 ((fun x v => Host.reduceAdd x v reducesTo_S8x32x256x511_S8x256x511_d1 h_S_) : (⟨S8x32x256x511, .f32⟩ : BufTy).Contents (Elt F) → (⟨S_, .f32⟩ : BufTy).Contents (Elt F) → (⟨S8x256x511, .f32⟩ : BufTy).Contents (Elt F)),
    nullary main_c_21 (constantI S_ 32 0#32),
    TRef.unary (TRef.of (T := ⟨S_, .i32⟩) main_c_21) (TRef.of (T := ⟨S_, .f32⟩) main_call11_v0) (sitofp .f32),
    TRef.binary (TRef.of (T := ⟨S8x256x511, .f32⟩) main_v70) (TRef.of (T := ⟨S_, .f32⟩) main_call11_v0) (TRef.of (T := ⟨S8x256x512, .f32⟩) main_v71) (fun x v => pad S8x256x512 ![0, 0, 0] ![0, 0, 1] ![0, 0, 0] x v pads_S8x256x511_S8x256x512_000_000_010 h_S_),
    binary main_arg0 main_arg1 main_v72 (subf : (⟨S8x32x256x512, .f32⟩ : BufTy).Contents (Elt F) → (⟨S8x32x256x512, .f32⟩ : BufTy).Contents (Elt F) → (⟨S8x32x256x512, .f32⟩ : BufTy).Contents (Elt F)),
    unary main_v72 main_v73 (Host.absf : (⟨S8x32x256x512, .f32⟩ : BufTy).Contents (Elt F) → (⟨S8x32x256x512, .f32⟩ : BufTy).Contents (Elt F)),
    nullary main_cst_22 (constant S_ .f32 0x00000000#32),
    binary main_v73 main_cst_22 main_v74 ((fun x v => Host.reduceAdd x v reducesTo_S8x32x256x512_S8x256x512_d1 h_S_) : (⟨S8x32x256x512, .f32⟩ : BufTy).Contents (Elt F) → (⟨S_, .f32⟩ : BufTy).Contents (Elt F) → (⟨S8x256x512, .f32⟩ : BufTy).Contents (Elt F)),
    unary main_arg0 main_v75 ((extractStridedSlice S8x32x256x511 ![0, 0, 0, 1] · slices_S8x32x256x512_S8x32x256x511_0_0_0_1) : (⟨S8x32x256x512, .f32⟩ : BufTy).Contents (Elt F) → (⟨S8x32x256x511, .f32⟩ : BufTy).Contents (Elt F)),
    unary main_arg1 main_v76 ((extractStridedSlice S8x32x256x511 ![0, 0, 0, 0] · slices_S8x32x256x512_S8x32x256x511_0_0_0_0) : (⟨S8x32x256x512, .f32⟩ : BufTy).Contents (Elt F) → (⟨S8x32x256x511, .f32⟩ : BufTy).Contents (Elt F)),
    binary main_v75 main_v76 main_v77 (subf : (⟨S8x32x256x511, .f32⟩ : BufTy).Contents (Elt F) → (⟨S8x32x256x511, .f32⟩ : BufTy).Contents (Elt F) → (⟨S8x32x256x511, .f32⟩ : BufTy).Contents (Elt F)),
    unary main_v77 main_v78 (Host.absf : (⟨S8x32x256x511, .f32⟩ : BufTy).Contents (Elt F) → (⟨S8x32x256x511, .f32⟩ : BufTy).Contents (Elt F)),
    nullary main_cst_23 (constant S_ .f32 0x00000000#32),
    binary main_v78 main_cst_23 main_v79 ((fun x v => Host.reduceAdd x v reducesTo_S8x32x256x511_S8x256x511_d1 h_S_) : (⟨S8x32x256x511, .f32⟩ : BufTy).Contents (Elt F) → (⟨S_, .f32⟩ : BufTy).Contents (Elt F) → (⟨S8x256x511, .f32⟩ : BufTy).Contents (Elt F)),
    nullary main_c_24 (constantI S_ 32 0#32),
    TRef.unary (TRef.of (T := ⟨S_, .i32⟩) main_c_24) (TRef.of (T := ⟨S_, .f32⟩) main_call12_v0) (sitofp .f32),
    TRef.binary (TRef.of (T := ⟨S8x256x511, .f32⟩) main_v79) (TRef.of (T := ⟨S_, .f32⟩) main_call12_v0) (TRef.of (T := ⟨S8x256x512, .f32⟩) main_v80) (fun x v => pad S8x256x512 ![0, 0, 1] ![0, 0, 0] ![0, 0, 0] x v pads_S8x256x511_S8x256x512_000_000_100 h_S_),
    unary main_arg0 main_v81 ((extractStridedSlice S8x32x256x510 ![0, 0, 0, 2] · slices_S8x32x256x512_S8x32x256x510_0_0_0_2) : (⟨S8x32x256x512, .f32⟩ : BufTy).Contents (Elt F) → (⟨S8x32x256x510, .f32⟩ : BufTy).Contents (Elt F)),
    unary main_arg1 main_v82 ((extractStridedSlice S8x32x256x510 ![0, 0, 0, 0] · slices_S8x32x256x512_S8x32x256x510_0_0_0_0) : (⟨S8x32x256x512, .f32⟩ : BufTy).Contents (Elt F) → (⟨S8x32x256x510, .f32⟩ : BufTy).Contents (Elt F)),
    binary main_v81 main_v82 main_v83 (subf : (⟨S8x32x256x510, .f32⟩ : BufTy).Contents (Elt F) → (⟨S8x32x256x510, .f32⟩ : BufTy).Contents (Elt F) → (⟨S8x32x256x510, .f32⟩ : BufTy).Contents (Elt F)),
    unary main_v83 main_v84 (Host.absf : (⟨S8x32x256x510, .f32⟩ : BufTy).Contents (Elt F) → (⟨S8x32x256x510, .f32⟩ : BufTy).Contents (Elt F)),
    nullary main_cst_25 (constant S_ .f32 0x00000000#32),
    binary main_v84 main_cst_25 main_v85 ((fun x v => Host.reduceAdd x v reducesTo_S8x32x256x510_S8x256x510_d1 h_S_) : (⟨S8x32x256x510, .f32⟩ : BufTy).Contents (Elt F) → (⟨S_, .f32⟩ : BufTy).Contents (Elt F) → (⟨S8x256x510, .f32⟩ : BufTy).Contents (Elt F)),
    nullary main_c_26 (constantI S_ 32 0#32),
    TRef.unary (TRef.of (T := ⟨S_, .i32⟩) main_c_26) (TRef.of (T := ⟨S_, .f32⟩) main_call13_v0) (sitofp .f32),
    TRef.binary (TRef.of (T := ⟨S8x256x510, .f32⟩) main_v85) (TRef.of (T := ⟨S_, .f32⟩) main_call13_v0) (TRef.of (T := ⟨S8x256x512, .f32⟩) main_v86) (fun x v => pad S8x256x512 ![0, 0, 2] ![0, 0, 0] ![0, 0, 0] x v pads_S8x256x510_S8x256x512_000_000_200 h_S_),
    unary main_arg0 main_v87 ((extractStridedSlice S8x32x256x509 ![0, 0, 0, 3] · slices_S8x32x256x512_S8x32x256x509_0_0_0_3) : (⟨S8x32x256x512, .f32⟩ : BufTy).Contents (Elt F) → (⟨S8x32x256x509, .f32⟩ : BufTy).Contents (Elt F)),
    unary main_arg1 main_v88 ((extractStridedSlice S8x32x256x509 ![0, 0, 0, 0] · slices_S8x32x256x512_S8x32x256x509_0_0_0_0) : (⟨S8x32x256x512, .f32⟩ : BufTy).Contents (Elt F) → (⟨S8x32x256x509, .f32⟩ : BufTy).Contents (Elt F)),
    binary main_v87 main_v88 main_v89 (subf : (⟨S8x32x256x509, .f32⟩ : BufTy).Contents (Elt F) → (⟨S8x32x256x509, .f32⟩ : BufTy).Contents (Elt F) → (⟨S8x32x256x509, .f32⟩ : BufTy).Contents (Elt F)),
    unary main_v89 main_v90 (Host.absf : (⟨S8x32x256x509, .f32⟩ : BufTy).Contents (Elt F) → (⟨S8x32x256x509, .f32⟩ : BufTy).Contents (Elt F)) ]

set_option maxRecDepth 8192 in
set_option maxHeartbeats 4000000 in
/-- The printed part is the straight line of its operations. -/
theorem part1_eq (c : Dev nD) : main_part1 (F := F) c = seq ops1 := rfl

set_option maxRecDepth 8192 in
/-- Every operation touches TensorCore references only. -/
theorem ops1_sub : (ops1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., binary_bufs_sub .., unary_bufs_sub .., nullary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub ..⟩

end Cert.ReferenceIdeal.Parts

end
-- ==== Proof.RefOps2.lean ====
/-
  Operations 135 to 202 of the reference's 248 host operations, in order: part 2 of the printed @main
  (`main_part2`), a called function's two operations (the conversion of the padding value and the pad) standing in
  its call's place. The printed part IS the straight line of them (`part2_eq`), and each touches TensorCore
  references only. `RefOps.lean` puts the four parts together.
-/
import proofs.«124119_j13718125543602_2_alg».proof.Proof.Gen.ReferenceIdeal
import Idealize.ShloMosaic.Lib.StableHlo.Run

noncomputable section

namespace Cert.ReferenceIdeal.Parts

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Part 2's operations, in order. -/
abbrev ops2 : List (HloOp τ sig (Elt F)) :=
  [ nullary main_cst_27 (constant S_ .f32 0x00000000#32),
    binary main_v90 main_cst_27 main_v91 ((fun x v => Host.reduceAdd x v reducesTo_S8x32x256x509_S8x256x509_d1 h_S_) : (⟨S8x32x256x509, .f32⟩ : BufTy).Contents (Elt F) → (⟨S_, .f32⟩ : BufTy).Contents (Elt F) → (⟨S8x256x509, .f32⟩ : BufTy).Contents (Elt F)),
    nullary main_c_28 (constantI S_ 32 0#32),
    TRef.unary (TRef.of (T := ⟨S_, .i32⟩) main_c_28) (TRef.of (T := ⟨S_, .f32⟩) main_call14_v0) (sitofp .f32),
    TRef.binary (TRef.of (T := ⟨S8x256x509, .f32⟩) main_v91) (TRef.of (T := ⟨S_, .f32⟩) main_call14_v0) (TRef.of (T := ⟨S8x256x512, .f32⟩) main_v92) (fun x v => pad S8x256x512 ![0, 0, 3] ![0, 0, 0] ![0, 0, 0] x v pads_S8x256x509_S8x256x512_000_000_300 h_S_),
    unary main_arg0 main_v93 ((extractStridedSlice S8x32x256x508 ![0, 0, 0, 4] · slices_S8x32x256x512_S8x32x256x508_0_0_0_4) : (⟨S8x32x256x512, .f32⟩ : BufTy).Contents (Elt F) → (⟨S8x32x256x508, .f32⟩ : BufTy).Contents (Elt F)),
    unary main_arg1 main_v94 ((extractStridedSlice S8x32x256x508 ![0, 0, 0, 0] · slices_S8x32x256x512_S8x32x256x508_0_0_0_0) : (⟨S8x32x256x512, .f32⟩ : BufTy).Contents (Elt F) → (⟨S8x32x256x508, .f32⟩ : BufTy).Contents (Elt F)),
    binary main_v93 main_v94 main_v95 (subf : (⟨S8x32x256x508, .f32⟩ : BufTy).Contents (Elt F) → (⟨S8x32x256x508, .f32⟩ : BufTy).Contents (Elt F) → (⟨S8x32x256x508, .f32⟩ : BufTy).Contents (Elt F)),
    unary main_v95 main_v96 (Host.absf : (⟨S8x32x256x508, .f32⟩ : BufTy).Contents (Elt F) → (⟨S8x32x256x508, .f32⟩ : BufTy).Contents (Elt F)),
    nullary main_cst_29 (constant S_ .f32 0x00000000#32),
    binary main_v96 main_cst_29 main_v97 ((fun x v => Host.reduceAdd x v reducesTo_S8x32x256x508_S8x256x508_d1 h_S_) : (⟨S8x32x256x508, .f32⟩ : BufTy).Contents (Elt F) → (⟨S_, .f32⟩ : BufTy).Contents (Elt F) → (⟨S8x256x508, .f32⟩ : BufTy).Contents (Elt F)),
    nullary main_c_30 (constantI S_ 32 0#32),
    TRef.unary (TRef.of (T := ⟨S_, .i32⟩) main_c_30) (TRef.of (T := ⟨S_, .f32⟩) main_call15_v0) (sitofp .f32),
    TRef.binary (TRef.of (T := ⟨S8x256x508, .f32⟩) main_v97) (TRef.of (T := ⟨S_, .f32⟩) main_call15_v0) (TRef.of (T := ⟨S8x256x512, .f32⟩) main_v98) (fun x v => pad S8x256x512 ![0, 0, 4] ![0, 0, 0] ![0, 0, 0] x v pads_S8x256x508_S8x256x512_000_000_400 h_S_),
    unary main_arg0 main_v99 ((extractStridedSlice S8x32x256x507 ![0, 0, 0, 5] · slices_S8x32x256x512_S8x32x256x507_0_0_0_5) : (⟨S8x32x256x512, .f32⟩ : BufTy).Contents (Elt F) → (⟨S8x32x256x507, .f32⟩ : BufTy).Contents (Elt F)),
    unary main_arg1 main_v100 ((extractStridedSlice S8x32x256x507 ![0, 0, 0, 0] · slices_S8x32x256x512_S8x32x256x507_0_0_0_0) : (⟨S8x32x256x512, .f32⟩ : BufTy).Contents (Elt F) → (⟨S8x32x256x507, .f32⟩ : BufTy).Contents (Elt F)),
    binary main_v99 main_v100 main_v101 (subf : (⟨S8x32x256x507, .f32⟩ : BufTy).Contents (Elt F) → (⟨S8x32x256x507, .f32⟩ : BufTy).Contents (Elt F) → (⟨S8x32x256x507, .f32⟩ : BufTy).Contents (Elt F)),
    unary main_v101 main_v102 (Host.absf : (⟨S8x32x256x507, .f32⟩ : BufTy).Contents (Elt F) → (⟨S8x32x256x507, .f32⟩ : BufTy).Contents (Elt F)),
    nullary main_cst_31 (constant S_ .f32 0x00000000#32),
    binary main_v102 main_cst_31 main_v103 ((fun x v => Host.reduceAdd x v reducesTo_S8x32x256x507_S8x256x507_d1 h_S_) : (⟨S8x32x256x507, .f32⟩ : BufTy).Contents (Elt F) → (⟨S_, .f32⟩ : BufTy).Contents (Elt F) → (⟨S8x256x507, .f32⟩ : BufTy).Contents (Elt F)),
    nullary main_c_32 (constantI S_ 32 0#32),
    TRef.unary (TRef.of (T := ⟨S_, .i32⟩) main_c_32) (TRef.of (T := ⟨S_, .f32⟩) main_call16_v0) (sitofp .f32),
    TRef.binary (TRef.of (T := ⟨S8x256x507, .f32⟩) main_v103) (TRef.of (T := ⟨S_, .f32⟩) main_call16_v0) (TRef.of (T := ⟨S8x256x512, .f32⟩) main_v104) (fun x v => pad S8x256x512 ![0, 0, 5] ![0, 0, 0] ![0, 0, 0] x v pads_S8x256x507_S8x256x512_000_000_500 h_S_),
    unary main_arg0 main_v105 ((extractStridedSlice S8x32x256x506 ![0, 0, 0, 6] · slices_S8x32x256x512_S8x32x256x506_0_0_0_6) : (⟨S8x32x256x512, .f32⟩ : BufTy).Contents (Elt F) → (⟨S8x32x256x506, .f32⟩ : BufTy).Contents (Elt F)),
    unary main_arg1 main_v106 ((extractStridedSlice S8x32x256x506 ![0, 0, 0, 0] · slices_S8x32x256x512_S8x32x256x506_0_0_0_0) : (⟨S8x32x256x512, .f32⟩ : BufTy).Contents (Elt F) → (⟨S8x32x256x506, .f32⟩ : BufTy).Contents (Elt F)),
    binary main_v105 main_v106 main_v107 (subf : (⟨S8x32x256x506, .f32⟩ : BufTy).Contents (Elt F) → (⟨S8x32x256x506, .f32⟩ : BufTy).Contents (Elt F) → (⟨S8x32x256x506, .f32⟩ : BufTy).Contents (Elt F)),
    unary main_v107 main_v108 (Host.absf : (⟨S8x32x256x506, .f32⟩ : BufTy).Contents (Elt F) → (⟨S8x32x256x506, .f32⟩ : BufTy).Contents (Elt F)),
    nullary main_cst_33 (constant S_ .f32 0x00000000#32),
    binary main_v108 main_cst_33 main_v109 ((fun x v => Host.reduceAdd x v reducesTo_S8x32x256x506_S8x256x506_d1 h_S_) : (⟨S8x32x256x506, .f32⟩ : BufTy).Contents (Elt F) → (⟨S_, .f32⟩ : BufTy).Contents (Elt F) → (⟨S8x256x506, .f32⟩ : BufTy).Contents (Elt F)),
    nullary main_c_34 (constantI S_ 32 0#32),
    TRef.unary (TRef.of (T := ⟨S_, .i32⟩) main_c_34) (TRef.of (T := ⟨S_, .f32⟩) main_call17_v0) (sitofp .f32),
    TRef.binary (TRef.of (T := ⟨S8x256x506, .f32⟩) main_v109) (TRef.of (T := ⟨S_, .f32⟩) main_call17_v0) (TRef.of (T := ⟨S8x256x512, .f32⟩) main_v110) (fun x v => pad S8x256x512 ![0, 0, 6] ![0, 0, 0] ![0, 0, 0] x v pads_S8x256x506_S8x256x512_000_000_600 h_S_),
    unary main_arg0 main_v111 ((extractStridedSlice S8x32x256x505 ![0, 0, 0, 7] · slices_S8x32x256x512_S8x32x256x505_0_0_0_7) : (⟨S8x32x256x512, .f32⟩ : BufTy).Contents (Elt F) → (⟨S8x32x256x505, .f32⟩ : BufTy).Contents (Elt F)),
    unary main_arg1 main_v112 ((extractStridedSlice S8x32x256x505 ![0, 0, 0, 0] · slices_S8x32x256x512_S8x32x256x505_0_0_0_0) : (⟨S8x32x256x512, .f32⟩ : BufTy).Contents (Elt F) → (⟨S8x32x256x505, .f32⟩ : BufTy).Contents (Elt F)),
    binary main_v111 main_v112 main_v113 (subf : (⟨S8x32x256x505, .f32⟩ : BufTy).Contents (Elt F) → (⟨S8x32x256x505, .f32⟩ : BufTy).Contents (Elt F) → (⟨S8x32x256x505, .f32⟩ : BufTy).Contents (Elt F)),
    unary main_v113 main_v114 (Host.absf : (⟨S8x32x256x505, .f32⟩ : BufTy).Contents (Elt F) → (⟨S8x32x256x505, .f32⟩ : BufTy).Contents (Elt F)),
    nullary main_cst_35 (constant S_ .f32 0x00000000#32),
    binary main_v114 main_cst_35 main_v115 ((fun x v => Host.reduceAdd x v reducesTo_S8x32x256x505_S8x256x505_d1 h_S_) : (⟨S8x32x256x505, .f32⟩ : BufTy).Contents (Elt F) → (⟨S_, .f32⟩ : BufTy).Contents (Elt F) → (⟨S8x256x505, .f32⟩ : BufTy).Contents (Elt F)),
    nullary main_c_36 (constantI S_ 32 0#32),
    TRef.unary (TRef.of (T := ⟨S_, .i32⟩) main_c_36) (TRef.of (T := ⟨S_, .f32⟩) main_call18_v0) (sitofp .f32),
    TRef.binary (TRef.of (T := ⟨S8x256x505, .f32⟩) main_v115) (TRef.of (T := ⟨S_, .f32⟩) main_call18_v0) (TRef.of (T := ⟨S8x256x512, .f32⟩) main_v116) (fun x v => pad S8x256x512 ![0, 0, 7] ![0, 0, 0] ![0, 0, 0] x v pads_S8x256x505_S8x256x512_000_000_700 h_S_),
    unary main_arg0 main_v117 ((extractStridedSlice S8x32x256x504 ![0, 0, 0, 8] · slices_S8x32x256x512_S8x32x256x504_0_0_0_8) : (⟨S8x32x256x512, .f32⟩ : BufTy).Contents (Elt F) → (⟨S8x32x256x504, .f32⟩ : BufTy).Contents (Elt F)),
    unary main_arg1 main_v118 ((extractStridedSlice S8x32x256x504 ![0, 0, 0, 0] · slices_S8x32x256x512_S8x32x256x504_0_0_0_0) : (⟨S8x32x256x512, .f32⟩ : BufTy).Contents (Elt F) → (⟨S8x32x256x504, .f32⟩ : BufTy).Contents (Elt F)),
    binary main_v117 main_v118 main_v119 (subf : (⟨S8x32x256x504, .f32⟩ : BufTy).Contents (Elt F) → (⟨S8x32x256x504, .f32⟩ : BufTy).Contents (Elt F) → (⟨S8x32x256x504, .f32⟩ : BufTy).Contents (Elt F)),
    unary main_v119 main_v120 (Host.absf : (⟨S8x32x256x504, .f32⟩ : BufTy).Contents (Elt F) → (⟨S8x32x256x504, .f32⟩ : BufTy).Contents (Elt F)),
    nullary main_cst_37 (constant S_ .f32 0x00000000#32),
    binary main_v120 main_cst_37 main_v121 ((fun x v => Host.reduceAdd x v reducesTo_S8x32x256x504_S8x256x504_d1 h_S_) : (⟨S8x32x256x504, .f32⟩ : BufTy).Contents (Elt F) → (⟨S_, .f32⟩ : BufTy).Contents (Elt F) → (⟨S8x256x504, .f32⟩ : BufTy).Contents (Elt F)),
    nullary main_c_38 (constantI S_ 32 0#32),
    TRef.unary (TRef.of (T := ⟨S_, .i32⟩) main_c_38) (TRef.of (T := ⟨S_, .f32⟩) main_call19_v0) (sitofp .f32),
    TRef.binary (TRef.of (T := ⟨S8x256x504, .f32⟩) main_v121) (TRef.of (T := ⟨S_, .f32⟩) main_call19_v0) (TRef.of (T := ⟨S8x256x512, .f32⟩) main_v122) (fun x v => pad S8x256x512 ![0, 0, 8] ![0, 0, 0] ![0, 0, 0] x v pads_S8x256x504_S8x256x512_000_000_800 h_S_),
    unary main_arg0 main_v123 ((extractStridedSlice S8x32x256x503 ![0, 0, 0, 9] · slices_S8x32x256x512_S8x32x256x503_0_0_0_9) : (⟨S8x32x256x512, .f32⟩ : BufTy).Contents (Elt F) → (⟨S8x32x256x503, .f32⟩ : BufTy).Contents (Elt F)),
    unary main_arg1 main_v124 ((extractStridedSlice S8x32x256x503 ![0, 0, 0, 0] · slices_S8x32x256x512_S8x32x256x503_0_0_0_0) : (⟨S8x32x256x512, .f32⟩ : BufTy).Contents (Elt F) → (⟨S8x32x256x503, .f32⟩ : BufTy).Contents (Elt F)),
    binary main_v123 main_v124 main_v125 (subf : (⟨S8x32x256x503, .f32⟩ : BufTy).Contents (Elt F) → (⟨S8x32x256x503, .f32⟩ : BufTy).Contents (Elt F) → (⟨S8x32x256x503, .f32⟩ : BufTy).Contents (Elt F)),
    unary main_v125 main_v126 (Host.absf : (⟨S8x32x256x503, .f32⟩ : BufTy).Contents (Elt F) → (⟨S8x32x256x503, .f32⟩ : BufTy).Contents (Elt F)),
    nullary main_cst_39 (constant S_ .f32 0x00000000#32),
    binary main_v126 main_cst_39 main_v127 ((fun x v => Host.reduceAdd x v reducesTo_S8x32x256x503_S8x256x503_d1 h_S_) : (⟨S8x32x256x503, .f32⟩ : BufTy).Contents (Elt F) → (⟨S_, .f32⟩ : BufTy).Contents (Elt F) → (⟨S8x256x503, .f32⟩ : BufTy).Contents (Elt F)),
    nullary main_c_40 (constantI S_ 32 0#32),
    TRef.unary (TRef.of (T := ⟨S_, .i32⟩) main_c_40) (TRef.of (T := ⟨S_, .f32⟩) main_call20_v0) (sitofp .f32),
    TRef.binary (TRef.of (T := ⟨S8x256x503, .f32⟩) main_v127) (TRef.of (T := ⟨S_, .f32⟩) main_call20_v0) (TRef.of (T := ⟨S8x256x512, .f32⟩) main_v128) (fun x v => pad S8x256x512 ![0, 0, 9] ![0, 0, 0] ![0, 0, 0] x v pads_S8x256x503_S8x256x512_000_000_900 h_S_),
    unary main_arg0 main_v129 ((extractStridedSlice S8x32x256x502 ![0, 0, 0, 10] · slices_S8x32x256x512_S8x32x256x502_0_0_0_10) : (⟨S8x32x256x512, .f32⟩ : BufTy).Contents (Elt F) → (⟨S8x32x256x502, .f32⟩ : BufTy).Contents (Elt F)),
    unary main_arg1 main_v130 ((extractStridedSlice S8x32x256x502 ![0, 0, 0, 0] · slices_S8x32x256x512_S8x32x256x502_0_0_0_0) : (⟨S8x32x256x512, .f32⟩ : BufTy).Contents (Elt F) → (⟨S8x32x256x502, .f32⟩ : BufTy).Contents (Elt F)),
    binary main_v129 main_v130 main_v131 (subf : (⟨S8x32x256x502, .f32⟩ : BufTy).Contents (Elt F) → (⟨S8x32x256x502, .f32⟩ : BufTy).Contents (Elt F) → (⟨S8x32x256x502, .f32⟩ : BufTy).Contents (Elt F)),
    unary main_v131 main_v132 (Host.absf : (⟨S8x32x256x502, .f32⟩ : BufTy).Contents (Elt F) → (⟨S8x32x256x502, .f32⟩ : BufTy).Contents (Elt F)),
    nullary main_cst_41 (constant S_ .f32 0x00000000#32),
    binary main_v132 main_cst_41 main_v133 ((fun x v => Host.reduceAdd x v reducesTo_S8x32x256x502_S8x256x502_d1 h_S_) : (⟨S8x32x256x502, .f32⟩ : BufTy).Contents (Elt F) → (⟨S_, .f32⟩ : BufTy).Contents (Elt F) → (⟨S8x256x502, .f32⟩ : BufTy).Contents (Elt F)),
    nullary main_c_42 (constantI S_ 32 0#32),
    TRef.unary (TRef.of (T := ⟨S_, .i32⟩) main_c_42) (TRef.of (T := ⟨S_, .f32⟩) main_call21_v0) (sitofp .f32),
    TRef.binary (TRef.of (T := ⟨S8x256x502, .f32⟩) main_v133) (TRef.of (T := ⟨S_, .f32⟩) main_call21_v0) (TRef.of (T := ⟨S8x256x512, .f32⟩) main_v134) (fun x v => pad S8x256x512 ![0, 0, 10] ![0, 0, 0] ![0, 0, 0] x v pads_S8x256x502_S8x256x512_000_000_1000 h_S_) ]

set_option maxRecDepth 8192 in
set_option maxHeartbeats 4000000 in
/-- The printed part is the straight line of its operations. -/
theorem part2_eq (c : Dev nD) : main_part2 (F := F) c = seq ops2 := rfl

set_option maxRecDepth 8192 in
/-- Every operation touches TensorCore references only. -/
theorem ops2_sub : (ops2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub ..⟩

end Cert.ReferenceIdeal.Parts

end
-- ==== Proof.RefOps3.lean ====
/-
  Operations 203 to 248 of the reference's 248 host operations, in order: part 3 of the printed @main
  (`main_part3`), a called function's two operations (the conversion of the padding value and the pad) standing in
  its call's place. The printed part IS the straight line of them (`part3_eq`), and each touches TensorCore
  references only. `RefOps.lean` puts the four parts together.
-/
import proofs.«124119_j13718125543602_2_alg».proof.Proof.Gen.ReferenceIdeal
import Idealize.ShloMosaic.Lib.StableHlo.Run

noncomputable section

namespace Cert.ReferenceIdeal.Parts

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Part 3's operations, in order. -/
abbrev ops3 : List (HloOp τ sig (Elt F)) :=
  [ unary main_arg0 main_v135 ((extractStridedSlice S8x32x256x501 ![0, 0, 0, 11] · slices_S8x32x256x512_S8x32x256x501_0_0_0_11) : (⟨S8x32x256x512, .f32⟩ : BufTy).Contents (Elt F) → (⟨S8x32x256x501, .f32⟩ : BufTy).Contents (Elt F)),
    unary main_arg1 main_v136 ((extractStridedSlice S8x32x256x501 ![0, 0, 0, 0] · slices_S8x32x256x512_S8x32x256x501_0_0_0_0) : (⟨S8x32x256x512, .f32⟩ : BufTy).Contents (Elt F) → (⟨S8x32x256x501, .f32⟩ : BufTy).Contents (Elt F)),
    binary main_v135 main_v136 main_v137 (subf : (⟨S8x32x256x501, .f32⟩ : BufTy).Contents (Elt F) → (⟨S8x32x256x501, .f32⟩ : BufTy).Contents (Elt F) → (⟨S8x32x256x501, .f32⟩ : BufTy).Contents (Elt F)),
    unary main_v137 main_v138 (Host.absf : (⟨S8x32x256x501, .f32⟩ : BufTy).Contents (Elt F) → (⟨S8x32x256x501, .f32⟩ : BufTy).Contents (Elt F)),
    nullary main_cst_43 (constant S_ .f32 0x00000000#32),
    binary main_v138 main_cst_43 main_v139 ((fun x v => Host.reduceAdd x v reducesTo_S8x32x256x501_S8x256x501_d1 h_S_) : (⟨S8x32x256x501, .f32⟩ : BufTy).Contents (Elt F) → (⟨S_, .f32⟩ : BufTy).Contents (Elt F) → (⟨S8x256x501, .f32⟩ : BufTy).Contents (Elt F)),
    nullary main_c_44 (constantI S_ 32 0#32),
    TRef.unary (TRef.of (T := ⟨S_, .i32⟩) main_c_44) (TRef.of (T := ⟨S_, .f32⟩) main_call22_v0) (sitofp .f32),
    TRef.binary (TRef.of (T := ⟨S8x256x501, .f32⟩) main_v139) (TRef.of (T := ⟨S_, .f32⟩) main_call22_v0) (TRef.of (T := ⟨S8x256x512, .f32⟩) main_v140) (fun x v => pad S8x256x512 ![0, 0, 11] ![0, 0, 0] ![0, 0, 0] x v pads_S8x256x501_S8x256x512_000_000_1100 h_S_),
    unary main_arg0 main_v141 ((extractStridedSlice S8x32x256x500 ![0, 0, 0, 12] · slices_S8x32x256x512_S8x32x256x500_0_0_0_12) : (⟨S8x32x256x512, .f32⟩ : BufTy).Contents (Elt F) → (⟨S8x32x256x500, .f32⟩ : BufTy).Contents (Elt F)),
    unary main_arg1 main_v142 ((extractStridedSlice S8x32x256x500 ![0, 0, 0, 0] · slices_S8x32x256x512_S8x32x256x500_0_0_0_0) : (⟨S8x32x256x512, .f32⟩ : BufTy).Contents (Elt F) → (⟨S8x32x256x500, .f32⟩ : BufTy).Contents (Elt F)),
    binary main_v141 main_v142 main_v143 (subf : (⟨S8x32x256x500, .f32⟩ : BufTy).Contents (Elt F) → (⟨S8x32x256x500, .f32⟩ : BufTy).Contents (Elt F) → (⟨S8x32x256x500, .f32⟩ : BufTy).Contents (Elt F)),
    unary main_v143 main_v144 (Host.absf : (⟨S8x32x256x500, .f32⟩ : BufTy).Contents (Elt F) → (⟨S8x32x256x500, .f32⟩ : BufTy).Contents (Elt F)),
    nullary main_cst_45 (constant S_ .f32 0x00000000#32),
    binary main_v144 main_cst_45 main_v145 ((fun x v => Host.reduceAdd x v reducesTo_S8x32x256x500_S8x256x500_d1 h_S_) : (⟨S8x32x256x500, .f32⟩ : BufTy).Contents (Elt F) → (⟨S_, .f32⟩ : BufTy).Contents (Elt F) → (⟨S8x256x500, .f32⟩ : BufTy).Contents (Elt F)),
    nullary main_c_46 (constantI S_ 32 0#32),
    TRef.unary (TRef.of (T := ⟨S_, .i32⟩) main_c_46) (TRef.of (T := ⟨S_, .f32⟩) main_call23_v0) (sitofp .f32),
    TRef.binary (TRef.of (T := ⟨S8x256x500, .f32⟩) main_v145) (TRef.of (T := ⟨S_, .f32⟩) main_call23_v0) (TRef.of (T := ⟨S8x256x512, .f32⟩) main_v146) (fun x v => pad S8x256x512 ![0, 0, 12] ![0, 0, 0] ![0, 0, 0] x v pads_S8x256x500_S8x256x512_000_000_1200 h_S_),
    unary main_v5 main_v147 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v11 main_v148 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v17 main_v149 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v23 main_v150 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v29 main_v151 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v35 main_v152 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v41 main_v153 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v47 main_v154 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v53 main_v155 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v59 main_v156 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v65 main_v157 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v71 main_v158 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v74 main_v159 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v80 main_v160 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v86 main_v161 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v92 main_v162 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v98 main_v163 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v104 main_v164 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v110 main_v165 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v116 main_v166 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v122 main_v167 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v128 main_v168 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v134 main_v169 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v140 main_v170 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    unary main_v146 main_v171 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
    nary ![main_v147, main_v148, main_v149, main_v150, main_v151, main_v152, main_v153, main_v154, main_v155, main_v156, main_v157, main_v158, main_v159, main_v160, main_v161, main_v162] main_v172 (fun u => concatenate S8x16x256x512 1 [⟨S8x1x256x512, u 0⟩, ⟨S8x1x256x512, u 1⟩, ⟨S8x1x256x512, u 2⟩, ⟨S8x1x256x512, u 3⟩, ⟨S8x1x256x512, u 4⟩, ⟨S8x1x256x512, u 5⟩, ⟨S8x1x256x512, u 6⟩, ⟨S8x1x256x512, u 7⟩, ⟨S8x1x256x512, u 8⟩, ⟨S8x1x256x512, u 9⟩, ⟨S8x1x256x512, u 10⟩, ⟨S8x1x256x512, u 11⟩, ⟨S8x1x256x512, u 12⟩, ⟨S8x1x256x512, u 13⟩, ⟨S8x1x256x512, u 14⟩, ⟨S8x1x256x512, u 15⟩] concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1),
    nary ![main_v163, main_v164, main_v165, main_v166, main_v167, main_v168, main_v169, main_v170, main_v171] main_v173 (fun u => concatenate S8x9x256x512 1 [⟨S8x1x256x512, u 0⟩, ⟨S8x1x256x512, u 1⟩, ⟨S8x1x256x512, u 2⟩, ⟨S8x1x256x512, u 3⟩, ⟨S8x1x256x512, u 4⟩, ⟨S8x1x256x512, u 5⟩, ⟨S8x1x256x512, u 6⟩, ⟨S8x1x256x512, u 7⟩, ⟨S8x1x256x512, u 8⟩] concatenates_S8x1x256x512_S8x1x256x512_S8x1x256x512_S8x1x256x512_S8x1x256x512_S8x1x256x512_S8x1x256x512_S8x1x256x512_S8x1x256x512_S8x9x256x512_d1),
    binary main_v172 main_v173 main_v174 ((fun a b => concatenate S8x25x256x512 1 [⟨S8x16x256x512, a⟩, ⟨S8x9x256x512, b⟩] concatenates_S8x16x256x512_S8x9x256x512_S8x25x256x512_d1) : (⟨S8x16x256x512, .f32⟩ : BufTy).Contents (Elt F) → (⟨S8x9x256x512, .f32⟩ : BufTy).Contents (Elt F) → (⟨S8x25x256x512, .f32⟩ : BufTy).Contents (Elt F)) ]

set_option maxRecDepth 8192 in
set_option maxHeartbeats 4000000 in
/-- The printed part is the straight line of its operations. -/
theorem part3_eq (c : Dev nD) : main_part3 (F := F) c = seq ops3 := rfl

set_option maxRecDepth 8192 in
/-- Every operation touches TensorCore references only. -/
theorem ops3_sub : (ops3 : List (HloOp τ sig (Elt F))).Forall fun op => op.bufs ⊆ tcRefs τ sig :=
  ⟨unary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., binary_bufs_sub ..⟩

end Cert.ReferenceIdeal.Parts

end
-- ==== Proof.RefOps.lean ====
/-
  The reference's @main as the straight line of its 248 host operations.

  The four printed parts of @main run one after the other, and each is the straight line of its own operations
  (`RefOps0.lean` … `RefOps3.lean`); a line run after a line is the concatenated line (`seq_append`). So @main is
  `seq` of the concatenation. No buffer or semaphore of the program is scoped, every operation touches TensorCore
  references only, and every operation determines its results: what `StableHlo.run_seq` asks.
-/
import proofs.«124119_j13718125543602_2_alg».proof.Proof.RefOps0
import proofs.«124119_j13718125543602_2_alg».proof.Proof.RefOps1
import proofs.«124119_j13718125543602_2_alg».proof.Proof.RefOps2
import proofs.«124119_j13718125543602_2_alg».proof.Proof.RefOps3

noncomputable section

namespace Cert.ReferenceIdeal.Parts

open Cert.ReferenceIdeal Cert.ReferenceIdeal.Gen Idealize.ShloMosaic Idealize.ShloMosaic.TcCoe Idealize.SL.Sem Idealize.ShloMosaic.StableHlo

variable {F : FTy → Type} [FloatOps F]

/-- @main's 248 operations, in order. -/
abbrev ops : List (HloOp τ sig (Elt F)) := ops0 ++ (ops1 ++ (ops2 ++ ops3))

/-- @main is the straight line of its operations. -/
theorem main_eq (c : Dev nD) : main (F := F) c = seq ops := by
  show main (F := F) c = seq (ops0 ++ (ops1 ++ (ops2 ++ ops3)))
  rw [seq_append, seq_append, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_iff_forall_mem.mpr fun op h => by
    rcases List.mem_append.mp h with h | h
    · exact List.forall_iff_forall_mem.mp ops0_sub op h
    rcases List.mem_append.mp h with h | h
    · exact List.forall_iff_forall_mem.mp ops1_sub op h
    rcases List.mem_append.mp h with h | h
    · exact List.forall_iff_forall_mem.mp ops2_sub op h
    · exact List.forall_iff_forall_mem.mp ops3_sub op h

set_option maxRecDepth 8192 in
theorem ops0_fresh : ∀ op ∈ (ops0 : List (HloOp τ sig (Elt F))), op.fresh = ∅ := by
  intro op h; (repeat (cases h with | head => rfl | tail _ h => ?_)); exact nomatch h
set_option maxRecDepth 8192 in
theorem ops1_fresh : ∀ op ∈ (ops1 : List (HloOp τ sig (Elt F))), op.fresh = ∅ := by
  intro op h; (repeat (cases h with | head => rfl | tail _ h => ?_)); exact nomatch h
set_option maxRecDepth 8192 in
theorem ops2_fresh : ∀ op ∈ (ops2 : List (HloOp τ sig (Elt F))), op.fresh = ∅ := by
  intro op h; (repeat (cases h with | head => rfl | tail _ h => ?_)); exact nomatch h
set_option maxRecDepth 8192 in
theorem ops3_fresh : ∀ op ∈ (ops3 : List (HloOp τ sig (Elt F))), op.fresh = ∅ := by
  intro op h; (repeat (cases h with | head => rfl | tail _ h => ?_)); exact nomatch h

/-- Every operation determines its results. -/
theorem ops_fresh : ∀ op ∈ (ops : List (HloOp τ sig (Elt F))), op.fresh = ∅ := by
  intro op h
  rcases List.mem_append.mp h with h | h
  · exact ops0_fresh op h
  rcases List.mem_append.mp h with h | h
  · exact ops1_fresh op h
  rcases List.mem_append.mp h with h | h
  · exact ops2_fresh op h
  · exact ops3_fresh op h

end Cert.ReferenceIdeal.Parts

end
-- ==== Proof.LibStretchRead.lean ====
/-
  Reading one buffer after a long straight line of host operations, through the one stretch that writes it.

  `StableHlo.after ops V` folds every operation of `ops` over the buffer contents `V`. When the line is long, a buffer
  written early is read back through all the later operations one by one. If `Wr` lists, operation by operation, the
  one reference each operation may write (`WritesOnly ops Wr`), then:

  * a reference not in `Wr` is never written: `after ops V` still holds `V` there (`after_of_not_mem_writesOnly`);
  * a reference that none of the operations after position `a + n` writes is read off the stretch of `n` operations
    from position `a`, run from the contents the first `a` operations leave (`after_read_stretch`);
  * the first `a` operations leave every reference they do not write as it was (`after_take_of_not_mem`), and already
    leave in a reference no later operation writes what the whole line leaves (`after_take_eq`).

  Membership in `Wr` (a list of references) is decided in one pass, so each buffer of a program of hundreds of operations
  costs one short stretch instead of the whole fold.
-/
import Idealize.ShloMosaic.Lib.StableHlo.Run
import Mathlib.Data.List.Forall2

noncomputable section

namespace Idealize.ShloMosaic.StableHlo

variable {τ : Topo} {sig : RefSig} {Val : EltTy → Type}

/-- Two lines run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- `Wr` names, operation by operation, the one reference each operation of `ops` may write. -/
def WritesOnly (ops : List (HloOp τ sig Val)) (Wr : List (Ref sig .tc)) : Prop :=
  List.Forall₂ (fun op r => op.writes ⊆ ({Proc.devRef (τ := τ) .tc r} : Finset (DevRef τ sig))) ops Wr

/-- A reference none of the operations may write keeps its contents. -/
theorem after_of_not_mem_writesOnly {ops : List (HloOp τ sig Val)} {Wr : List (Ref sig .tc)} (h : WritesOnly ops Wr)
    (V : Valuation τ sig Val) (r : Ref sig .tc) (hr : r ∉ Wr) :
    after ops V (Proc.devRef .tc r) = V (Proc.devRef .tc r) := by
  refine after_of_forall_not_mem ops V ?_
  unfold WritesOnly at h
  induction h with
  | nil => intro op hop; exact absurd hop List.not_mem_nil
  | @cons op r₀ l W hop _ ih =>
    intro op' hop'
    rcases List.mem_cons.mp hop' with rfl | hmem
    · intro hb
      have := Finset.mem_singleton.mp (hop hb)
      exact hr (by rw [Proc.devRef_injective _ this]; exact List.mem_cons_self)
    · exact ih (fun hm => hr (List.mem_cons_of_mem _ hm)) op' hmem

/-- The first `a` operations leave a reference they may not write as it was. -/
theorem after_take_of_not_mem {ops : List (HloOp τ sig Val)} {Wr : List (Ref sig .tc)} (h : WritesOnly ops Wr) (a : Nat)
    (V : Valuation τ sig Val) (r : Ref sig .tc) (hr : r ∉ Wr.take a) :
    after (ops.take a) V (Proc.devRef .tc r) = V (Proc.devRef .tc r) :=
  after_of_not_mem_writesOnly (List.forall₂_take a h) V r hr

/-- A reference that no operation after position `a + n` may write is read, after the whole line, off the stretch of
    `n` operations from position `a`, run from what the first `a` operations leave. -/
theorem after_read_stretch {ops : List (HloOp τ sig Val)} {Wr : List (Ref sig .tc)} (h : WritesOnly ops Wr) (a n : Nat)
    (V : Valuation τ sig Val) (r : Ref sig .tc) (hr : r ∉ (Wr.drop a).drop n) :
    after ops V (Proc.devRef .tc r) = after ((ops.drop a).take n) (after (ops.take a) V) (Proc.devRef .tc r) := by
  have e : ops = ops.take a ++ ((ops.drop a).take n ++ (ops.drop a).drop n) := by
    rw [List.take_append_drop, List.take_append_drop]
  conv_lhs => rw [e]
  rw [after_append, after_append]
  exact after_of_not_mem_writesOnly (List.forall₂_drop n (List.forall₂_drop a h)) _ r hr

/-- The first `p` operations already leave, in a reference no later operation may write, what the whole line leaves. -/
theorem after_take_eq {ops : List (HloOp τ sig Val)} {Wr : List (Ref sig .tc)} (h : WritesOnly ops Wr) (p : Nat)
    (V : Valuation τ sig Val) (r : Ref sig .tc) (hr : r ∉ Wr.drop p) :
    after (ops.take p) V (Proc.devRef .tc r) = after ops V (Proc.devRef .tc r) := by
  conv_rhs => rw [← List.take_append_drop p ops]
  rw [after_append]
  exact (after_of_not_mem_writesOnly (List.forall₂_drop p h) _ r hr).symm

end Idealize.ShloMosaic.StableHlo

end
-- ==== Proof.RefStaged.lean ====
/-
  The reference's run, read buffer by buffer.

  The reference is a straight line of 248 host operations: for each of the 25 disparities a stretch that computes one
  slice `[8, 256, 512]` from the two arguments (two windows, their difference, its absolute value, the sum over the
  channels, the padding; for disparity 0 only the difference, the absolute value and the sum), then 25 operations that
  give each slice a unit axis, and three that join them. Every operation writes one buffer of its own, so a buffer is
  read, after the whole line, off the one stretch that computes it, run from whatever the operations before it left;
  and those operations never write an argument. Slice `i`'s buffer is therefore the slice's term of the two arguments,
  and the result buffer the joined stack of the 25 terms, which is the composed term `val_main_v174` of the arguments.
-/
import proofs.«124119_j13718125543602_2_alg».proof.Proof.RefOps
import proofs.«124119_j13718125543602_2_alg».proof.Proof.RefRead
import proofs.«124119_j13718125543602_2_alg».proof.Proof.LibStretchRead

set_option maxRecDepth 16384

noncomputable section

namespace Cert.ReferenceIdeal.Staged

open Cert.ReferenceIdeal Cert.ReferenceIdeal.Gen Cert.ReferenceIdeal.Parts Cert.ReferenceIdeal.ReadP
open Idealize.ShloMosaic Idealize.ShloMosaic.TcCoe Idealize.SL.Sem Idealize.ShloMosaic.StableHlo

variable {F : FTy → Type} [FloatOps F]

/-- The buffer each operation writes, in program order, part by part. -/
abbrev written0 : List (Ref sig .tc) := [main_v0, main_v1, main_v2, main_v3, main_cst, main_v4, main_c, main_call0_v0, main_v5, main_v6, main_v7, main_v8, main_v9, main_cst_0, main_v10, main_c_1, main_call1_v0, main_v11, main_v12, main_v13, main_v14, main_v15, main_cst_2, main_v16, main_c_3, main_call2_v0, main_v17, main_v18, main_v19, main_v20, main_v21, main_cst_4, main_v22, main_c_5, main_call3_v0, main_v23, main_v24, main_v25, main_v26, main_v27, main_cst_6, main_v28, main_c_7, main_call4_v0, main_v29, main_v30, main_v31, main_v32, main_v33, main_cst_8, main_v34, main_c_9, main_call5_v0, main_v35, main_v36, main_v37, main_v38, main_v39, main_cst_10, main_v40, main_c_11, main_call6_v0, main_v41, main_v42, main_v43, main_v44, main_v45]
abbrev written1 : List (Ref sig .tc) := [main_cst_12, main_v46, main_c_13, main_call7_v0, main_v47, main_v48, main_v49, main_v50, main_v51, main_cst_14, main_v52, main_c_15, main_call8_v0, main_v53, main_v54, main_v55, main_v56, main_v57, main_cst_16, main_v58, main_c_17, main_call9_v0, main_v59, main_v60, main_v61, main_v62, main_v63, main_cst_18, main_v64, main_c_19, main_call10_v0, main_v65, main_v66, main_v67, main_v68, main_v69, main_cst_20, main_v70, main_c_21, main_call11_v0, main_v71, main_v72, main_v73, main_cst_22, main_v74, main_v75, main_v76, main_v77, main_v78, main_cst_23, main_v79, main_c_24, main_call12_v0, main_v80, main_v81, main_v82, main_v83, main_v84, main_cst_25, main_v85, main_c_26, main_call13_v0, main_v86, main_v87, main_v88, main_v89, main_v90]
abbrev written2 : List (Ref sig .tc) := [main_cst_27, main_v91, main_c_28, main_call14_v0, main_v92, main_v93, main_v94, main_v95, main_v96, main_cst_29, main_v97, main_c_30, main_call15_v0, main_v98, main_v99, main_v100, main_v101, main_v102, main_cst_31, main_v103, main_c_32, main_call16_v0, main_v104, main_v105, main_v106, main_v107, main_v108, main_cst_33, main_v109, main_c_34, main_call17_v0, main_v110, main_v111, main_v112, main_v113, main_v114, main_cst_35, main_v115, main_c_36, main_call18_v0, main_v116, main_v117, main_v118, main_v119, main_v120, main_cst_37, main_v121, main_c_38, main_call19_v0, main_v122, main_v123, main_v124, main_v125, main_v126, main_cst_39, main_v127, main_c_40, main_call20_v0, main_v128, main_v129, main_v130, main_v131, main_v132, main_cst_41, main_v133, main_c_42, main_call21_v0, main_v134]
abbrev written3 : List (Ref sig .tc) := [main_v135, main_v136, main_v137, main_v138, main_cst_43, main_v139, main_c_44, main_call22_v0, main_v140, main_v141, main_v142, main_v143, main_v144, main_cst_45, main_v145, main_c_46, main_call23_v0, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174]
abbrev written : List (Ref sig .tc) := written0 ++ (written1 ++ (written2 ++ written3))

theorem writesOnly0 : WritesOnly (ops0 (F := F)) written0 := by
  unfold WritesOnly
  repeat' (first | exact List.Forall₂.nil | refine List.Forall₂.cons (Finset.Subset.refl _) ?_)
theorem writesOnly1 : WritesOnly (ops1 (F := F)) written1 := by
  unfold WritesOnly
  repeat' (first | exact List.Forall₂.nil | refine List.Forall₂.cons (Finset.Subset.refl _) ?_)
theorem writesOnly2 : WritesOnly (ops2 (F := F)) written2 := by
  unfold WritesOnly
  repeat' (first | exact List.Forall₂.nil | refine List.Forall₂.cons (Finset.Subset.refl _) ?_)
theorem writesOnly3 : WritesOnly (ops3 (F := F)) written3 := by
  unfold WritesOnly
  repeat' (first | exact List.Forall₂.nil | refine List.Forall₂.cons (Finset.Subset.refl _) ?_)

theorem writesOnly : WritesOnly (ops (F := F)) written :=
  List.rel_append writesOnly0 (List.rel_append writesOnly1 (List.rel_append writesOnly2 writesOnly3))

/-! ## The arguments are never written -/

theorem arg0_after (V : Valuation τ sig (Elt F)) : after (ops (F := F)) V (Proc.devRef .tc main_arg0) = V (Proc.devRef .tc main_arg0) :=
  after_of_not_mem_writesOnly writesOnly V main_arg0 (by decide)

theorem arg1_after (V : Valuation τ sig (Elt F)) : after (ops (F := F)) V (Proc.devRef .tc main_arg1) = V (Proc.devRef .tc main_arg1) :=
  after_of_not_mem_writesOnly writesOnly V main_arg1 (by decide)

/-! ## The 25 slices, each off its own stretch -/

theorem slab_after_0 (V : Valuation τ sig (Elt F)) :
    after (ops (F := F)) V (Proc.devRef .tc main_v5)
      = val_main_v5 (F := F) (V (Proc.devRef .tc main_arg0)) (V (Proc.devRef .tc main_arg1)) := by
  rw [after_read_stretch (writesOnly (F := F)) 0 9 V main_v5 (by decide)]
  have h0 := after_take_of_not_mem (writesOnly (F := F)) 0 V main_arg0 (by decide)
  have h1 := after_take_of_not_mem (writesOnly (F := F)) 0 V main_arg1 (by decide)
  generalize after ((ops (F := F)).take 0) V = S at h0 h1 ⊢
  show after
     [unary main_arg0 main_v0 ((extractStridedSlice S8x32x256x500 ![0, 0, 0, 0] · slices_S8x32x256x512_S8x32x256x500_0_0_0_0) : (⟨S8x32x256x512, .f32⟩ : BufTy).Contents (Elt F) → (⟨S8x32x256x500, .f32⟩ : BufTy).Contents (Elt F)),
      unary main_arg1 main_v1 ((extractStridedSlice S8x32x256x500 ![0, 0, 0, 12] · slices_S8x32x256x512_S8x32x256x500_0_0_0_12) : (⟨S8x32x256x512, .f32⟩ : BufTy).Contents (Elt F) → (⟨S8x32x256x500, .f32⟩ : BufTy).Contents (Elt F)),
      binary main_v0 main_v1 main_v2 (subf : (⟨S8x32x256x500, .f32⟩ : BufTy).Contents (Elt F) → (⟨S8x32x256x500, .f32⟩ : BufTy).Contents (Elt F) → (⟨S8x32x256x500, .f32⟩ : BufTy).Contents (Elt F)),
      unary main_v2 main_v3 (Host.absf : (⟨S8x32x256x500, .f32⟩ : BufTy).Contents (Elt F) → (⟨S8x32x256x500, .f32⟩ : BufTy).Contents (Elt F)),
      nullary main_cst (constant S_ .f32 0x00000000#32),
      binary main_v3 main_cst main_v4 ((fun x v => Host.reduceAdd x v reducesTo_S8x32x256x500_S8x256x500_d1 h_S_) : (⟨S8x32x256x500, .f32⟩ : BufTy).Contents (Elt F) → (⟨S_, .f32⟩ : BufTy).Contents (Elt F) → (⟨S8x256x500, .f32⟩ : BufTy).Contents (Elt F)),
      nullary main_c (constantI S_ 32 0#32),
      TRef.unary (TRef.of (T := ⟨S_, .i32⟩) main_c) (TRef.of (T := ⟨S_, .f32⟩) main_call0_v0) (sitofp .f32),
      TRef.binary (TRef.of (T := ⟨S8x256x500, .f32⟩) main_v4) (TRef.of (T := ⟨S_, .f32⟩) main_call0_v0) (TRef.of (T := ⟨S8x256x512, .f32⟩) main_v5) (fun x v => pad S8x256x512 ![0, 0, 0] ![0, 0, 12] ![0, 0, 0] x v pads_S8x256x500_S8x256x512_000_000_0120 h_S_)]
     S (Proc.devRef .tc main_v5) = _
  after_results
  rw [h0, h1]
  rfl

theorem slab_after_1 (V : Valuation τ sig (Elt F)) :
    after (ops (F := F)) V (Proc.devRef .tc main_v11)
      = val_main_v11 (F := F) (V (Proc.devRef .tc main_arg0)) (V (Proc.devRef .tc main_arg1)) := by
  rw [after_read_stretch (writesOnly (F := F)) 9 9 V main_v11 (by decide)]
  have h0 := after_take_of_not_mem (writesOnly (F := F)) 9 V main_arg0 (by decide)
  have h1 := after_take_of_not_mem (writesOnly (F := F)) 9 V main_arg1 (by decide)
  generalize after ((ops (F := F)).take 9) V = S at h0 h1 ⊢
  show after
     [unary main_arg0 main_v6 ((extractStridedSlice S8x32x256x501 ![0, 0, 0, 0] · slices_S8x32x256x512_S8x32x256x501_0_0_0_0) : (⟨S8x32x256x512, .f32⟩ : BufTy).Contents (Elt F) → (⟨S8x32x256x501, .f32⟩ : BufTy).Contents (Elt F)),
      unary main_arg1 main_v7 ((extractStridedSlice S8x32x256x501 ![0, 0, 0, 11] · slices_S8x32x256x512_S8x32x256x501_0_0_0_11) : (⟨S8x32x256x512, .f32⟩ : BufTy).Contents (Elt F) → (⟨S8x32x256x501, .f32⟩ : BufTy).Contents (Elt F)),
      binary main_v6 main_v7 main_v8 (subf : (⟨S8x32x256x501, .f32⟩ : BufTy).Contents (Elt F) → (⟨S8x32x256x501, .f32⟩ : BufTy).Contents (Elt F) → (⟨S8x32x256x501, .f32⟩ : BufTy).Contents (Elt F)),
      unary main_v8 main_v9 (Host.absf : (⟨S8x32x256x501, .f32⟩ : BufTy).Contents (Elt F) → (⟨S8x32x256x501, .f32⟩ : BufTy).Contents (Elt F)),
      nullary main_cst_0 (constant S_ .f32 0x00000000#32),
      binary main_v9 main_cst_0 main_v10 ((fun x v => Host.reduceAdd x v reducesTo_S8x32x256x501_S8x256x501_d1 h_S_) : (⟨S8x32x256x501, .f32⟩ : BufTy).Contents (Elt F) → (⟨S_, .f32⟩ : BufTy).Contents (Elt F) → (⟨S8x256x501, .f32⟩ : BufTy).Contents (Elt F)),
      nullary main_c_1 (constantI S_ 32 0#32),
      TRef.unary (TRef.of (T := ⟨S_, .i32⟩) main_c_1) (TRef.of (T := ⟨S_, .f32⟩) main_call1_v0) (sitofp .f32),
      TRef.binary (TRef.of (T := ⟨S8x256x501, .f32⟩) main_v10) (TRef.of (T := ⟨S_, .f32⟩) main_call1_v0) (TRef.of (T := ⟨S8x256x512, .f32⟩) main_v11) (fun x v => pad S8x256x512 ![0, 0, 0] ![0, 0, 11] ![0, 0, 0] x v pads_S8x256x501_S8x256x512_000_000_0110 h_S_)]
     S (Proc.devRef .tc main_v11) = _
  after_results
  rw [h0, h1]
  rfl

theorem slab_after_2 (V : Valuation τ sig (Elt F)) :
    after (ops (F := F)) V (Proc.devRef .tc main_v17)
      = val_main_v17 (F := F) (V (Proc.devRef .tc main_arg0)) (V (Proc.devRef .tc main_arg1)) := by
  rw [after_read_stretch (writesOnly (F := F)) 18 9 V main_v17 (by decide)]
  have h0 := after_take_of_not_mem (writesOnly (F := F)) 18 V main_arg0 (by decide)
  have h1 := after_take_of_not_mem (writesOnly (F := F)) 18 V main_arg1 (by decide)
  generalize after ((ops (F := F)).take 18) V = S at h0 h1 ⊢
  show after
     [unary main_arg0 main_v12 ((extractStridedSlice S8x32x256x502 ![0, 0, 0, 0] · slices_S8x32x256x512_S8x32x256x502_0_0_0_0) : (⟨S8x32x256x512, .f32⟩ : BufTy).Contents (Elt F) → (⟨S8x32x256x502, .f32⟩ : BufTy).Contents (Elt F)),
      unary main_arg1 main_v13 ((extractStridedSlice S8x32x256x502 ![0, 0, 0, 10] · slices_S8x32x256x512_S8x32x256x502_0_0_0_10) : (⟨S8x32x256x512, .f32⟩ : BufTy).Contents (Elt F) → (⟨S8x32x256x502, .f32⟩ : BufTy).Contents (Elt F)),
      binary main_v12 main_v13 main_v14 (subf : (⟨S8x32x256x502, .f32⟩ : BufTy).Contents (Elt F) → (⟨S8x32x256x502, .f32⟩ : BufTy).Contents (Elt F) → (⟨S8x32x256x502, .f32⟩ : BufTy).Contents (Elt F)),
      unary main_v14 main_v15 (Host.absf : (⟨S8x32x256x502, .f32⟩ : BufTy).Contents (Elt F) → (⟨S8x32x256x502, .f32⟩ : BufTy).Contents (Elt F)),
      nullary main_cst_2 (constant S_ .f32 0x00000000#32),
      binary main_v15 main_cst_2 main_v16 ((fun x v => Host.reduceAdd x v reducesTo_S8x32x256x502_S8x256x502_d1 h_S_) : (⟨S8x32x256x502, .f32⟩ : BufTy).Contents (Elt F) → (⟨S_, .f32⟩ : BufTy).Contents (Elt F) → (⟨S8x256x502, .f32⟩ : BufTy).Contents (Elt F)),
      nullary main_c_3 (constantI S_ 32 0#32),
      TRef.unary (TRef.of (T := ⟨S_, .i32⟩) main_c_3) (TRef.of (T := ⟨S_, .f32⟩) main_call2_v0) (sitofp .f32),
      TRef.binary (TRef.of (T := ⟨S8x256x502, .f32⟩) main_v16) (TRef.of (T := ⟨S_, .f32⟩) main_call2_v0) (TRef.of (T := ⟨S8x256x512, .f32⟩) main_v17) (fun x v => pad S8x256x512 ![0, 0, 0] ![0, 0, 10] ![0, 0, 0] x v pads_S8x256x502_S8x256x512_000_000_0100 h_S_)]
     S (Proc.devRef .tc main_v17) = _
  after_results
  rw [h0, h1]
  rfl

theorem slab_after_3 (V : Valuation τ sig (Elt F)) :
    after (ops (F := F)) V (Proc.devRef .tc main_v23)
      = val_main_v23 (F := F) (V (Proc.devRef .tc main_arg0)) (V (Proc.devRef .tc main_arg1)) := by
  rw [after_read_stretch (writesOnly (F := F)) 27 9 V main_v23 (by decide)]
  have h0 := after_take_of_not_mem (writesOnly (F := F)) 27 V main_arg0 (by decide)
  have h1 := after_take_of_not_mem (writesOnly (F := F)) 27 V main_arg1 (by decide)
  generalize after ((ops (F := F)).take 27) V = S at h0 h1 ⊢
  show after
     [unary main_arg0 main_v18 ((extractStridedSlice S8x32x256x503 ![0, 0, 0, 0] · slices_S8x32x256x512_S8x32x256x503_0_0_0_0) : (⟨S8x32x256x512, .f32⟩ : BufTy).Contents (Elt F) → (⟨S8x32x256x503, .f32⟩ : BufTy).Contents (Elt F)),
      unary main_arg1 main_v19 ((extractStridedSlice S8x32x256x503 ![0, 0, 0, 9] · slices_S8x32x256x512_S8x32x256x503_0_0_0_9) : (⟨S8x32x256x512, .f32⟩ : BufTy).Contents (Elt F) → (⟨S8x32x256x503, .f32⟩ : BufTy).Contents (Elt F)),
      binary main_v18 main_v19 main_v20 (subf : (⟨S8x32x256x503, .f32⟩ : BufTy).Contents (Elt F) → (⟨S8x32x256x503, .f32⟩ : BufTy).Contents (Elt F) → (⟨S8x32x256x503, .f32⟩ : BufTy).Contents (Elt F)),
      unary main_v20 main_v21 (Host.absf : (⟨S8x32x256x503, .f32⟩ : BufTy).Contents (Elt F) → (⟨S8x32x256x503, .f32⟩ : BufTy).Contents (Elt F)),
      nullary main_cst_4 (constant S_ .f32 0x00000000#32),
      binary main_v21 main_cst_4 main_v22 ((fun x v => Host.reduceAdd x v reducesTo_S8x32x256x503_S8x256x503_d1 h_S_) : (⟨S8x32x256x503, .f32⟩ : BufTy).Contents (Elt F) → (⟨S_, .f32⟩ : BufTy).Contents (Elt F) → (⟨S8x256x503, .f32⟩ : BufTy).Contents (Elt F)),
      nullary main_c_5 (constantI S_ 32 0#32),
      TRef.unary (TRef.of (T := ⟨S_, .i32⟩) main_c_5) (TRef.of (T := ⟨S_, .f32⟩) main_call3_v0) (sitofp .f32),
      TRef.binary (TRef.of (T := ⟨S8x256x503, .f32⟩) main_v22) (TRef.of (T := ⟨S_, .f32⟩) main_call3_v0) (TRef.of (T := ⟨S8x256x512, .f32⟩) main_v23) (fun x v => pad S8x256x512 ![0, 0, 0] ![0, 0, 9] ![0, 0, 0] x v pads_S8x256x503_S8x256x512_000_000_090 h_S_)]
     S (Proc.devRef .tc main_v23) = _
  after_results
  rw [h0, h1]
  rfl

theorem slab_after_4 (V : Valuation τ sig (Elt F)) :
    after (ops (F := F)) V (Proc.devRef .tc main_v29)
      = val_main_v29 (F := F) (V (Proc.devRef .tc main_arg0)) (V (Proc.devRef .tc main_arg1)) := by
  rw [after_read_stretch (writesOnly (F := F)) 36 9 V main_v29 (by decide)]
  have h0 := after_take_of_not_mem (writesOnly (F := F)) 36 V main_arg0 (by decide)
  have h1 := after_take_of_not_mem (writesOnly (F := F)) 36 V main_arg1 (by decide)
  generalize after ((ops (F := F)).take 36) V = S at h0 h1 ⊢
  show after
     [unary main_arg0 main_v24 ((extractStridedSlice S8x32x256x504 ![0, 0, 0, 0] · slices_S8x32x256x512_S8x32x256x504_0_0_0_0) : (⟨S8x32x256x512, .f32⟩ : BufTy).Contents (Elt F) → (⟨S8x32x256x504, .f32⟩ : BufTy).Contents (Elt F)),
      unary main_arg1 main_v25 ((extractStridedSlice S8x32x256x504 ![0, 0, 0, 8] · slices_S8x32x256x512_S8x32x256x504_0_0_0_8) : (⟨S8x32x256x512, .f32⟩ : BufTy).Contents (Elt F) → (⟨S8x32x256x504, .f32⟩ : BufTy).Contents (Elt F)),
      binary main_v24 main_v25 main_v26 (subf : (⟨S8x32x256x504, .f32⟩ : BufTy).Contents (Elt F) → (⟨S8x32x256x504, .f32⟩ : BufTy).Contents (Elt F) → (⟨S8x32x256x504, .f32⟩ : BufTy).Contents (Elt F)),
      unary main_v26 main_v27 (Host.absf : (⟨S8x32x256x504, .f32⟩ : BufTy).Contents (Elt F) → (⟨S8x32x256x504, .f32⟩ : BufTy).Contents (Elt F)),
      nullary main_cst_6 (constant S_ .f32 0x00000000#32),
      binary main_v27 main_cst_6 main_v28 ((fun x v => Host.reduceAdd x v reducesTo_S8x32x256x504_S8x256x504_d1 h_S_) : (⟨S8x32x256x504, .f32⟩ : BufTy).Contents (Elt F) → (⟨S_, .f32⟩ : BufTy).Contents (Elt F) → (⟨S8x256x504, .f32⟩ : BufTy).Contents (Elt F)),
      nullary main_c_7 (constantI S_ 32 0#32),
      TRef.unary (TRef.of (T := ⟨S_, .i32⟩) main_c_7) (TRef.of (T := ⟨S_, .f32⟩) main_call4_v0) (sitofp .f32),
      TRef.binary (TRef.of (T := ⟨S8x256x504, .f32⟩) main_v28) (TRef.of (T := ⟨S_, .f32⟩) main_call4_v0) (TRef.of (T := ⟨S8x256x512, .f32⟩) main_v29) (fun x v => pad S8x256x512 ![0, 0, 0] ![0, 0, 8] ![0, 0, 0] x v pads_S8x256x504_S8x256x512_000_000_080 h_S_)]
     S (Proc.devRef .tc main_v29) = _
  after_results
  rw [h0, h1]
  rfl

theorem slab_after_5 (V : Valuation τ sig (Elt F)) :
    after (ops (F := F)) V (Proc.devRef .tc main_v35)
      = val_main_v35 (F := F) (V (Proc.devRef .tc main_arg0)) (V (Proc.devRef .tc main_arg1)) := by
  rw [after_read_stretch (writesOnly (F := F)) 45 9 V main_v35 (by decide)]
  have h0 := after_take_of_not_mem (writesOnly (F := F)) 45 V main_arg0 (by decide)
  have h1 := after_take_of_not_mem (writesOnly (F := F)) 45 V main_arg1 (by decide)
  generalize after ((ops (F := F)).take 45) V = S at h0 h1 ⊢
  show after
     [unary main_arg0 main_v30 ((extractStridedSlice S8x32x256x505 ![0, 0, 0, 0] · slices_S8x32x256x512_S8x32x256x505_0_0_0_0) : (⟨S8x32x256x512, .f32⟩ : BufTy).Contents (Elt F) → (⟨S8x32x256x505, .f32⟩ : BufTy).Contents (Elt F)),
      unary main_arg1 main_v31 ((extractStridedSlice S8x32x256x505 ![0, 0, 0, 7] · slices_S8x32x256x512_S8x32x256x505_0_0_0_7) : (⟨S8x32x256x512, .f32⟩ : BufTy).Contents (Elt F) → (⟨S8x32x256x505, .f32⟩ : BufTy).Contents (Elt F)),
      binary main_v30 main_v31 main_v32 (subf : (⟨S8x32x256x505, .f32⟩ : BufTy).Contents (Elt F) → (⟨S8x32x256x505, .f32⟩ : BufTy).Contents (Elt F) → (⟨S8x32x256x505, .f32⟩ : BufTy).Contents (Elt F)),
      unary main_v32 main_v33 (Host.absf : (⟨S8x32x256x505, .f32⟩ : BufTy).Contents (Elt F) → (⟨S8x32x256x505, .f32⟩ : BufTy).Contents (Elt F)),
      nullary main_cst_8 (constant S_ .f32 0x00000000#32),
      binary main_v33 main_cst_8 main_v34 ((fun x v => Host.reduceAdd x v reducesTo_S8x32x256x505_S8x256x505_d1 h_S_) : (⟨S8x32x256x505, .f32⟩ : BufTy).Contents (Elt F) → (⟨S_, .f32⟩ : BufTy).Contents (Elt F) → (⟨S8x256x505, .f32⟩ : BufTy).Contents (Elt F)),
      nullary main_c_9 (constantI S_ 32 0#32),
      TRef.unary (TRef.of (T := ⟨S_, .i32⟩) main_c_9) (TRef.of (T := ⟨S_, .f32⟩) main_call5_v0) (sitofp .f32),
      TRef.binary (TRef.of (T := ⟨S8x256x505, .f32⟩) main_v34) (TRef.of (T := ⟨S_, .f32⟩) main_call5_v0) (TRef.of (T := ⟨S8x256x512, .f32⟩) main_v35) (fun x v => pad S8x256x512 ![0, 0, 0] ![0, 0, 7] ![0, 0, 0] x v pads_S8x256x505_S8x256x512_000_000_070 h_S_)]
     S (Proc.devRef .tc main_v35) = _
  after_results
  rw [h0, h1]
  rfl

theorem slab_after_6 (V : Valuation τ sig (Elt F)) :
    after (ops (F := F)) V (Proc.devRef .tc main_v41)
      = val_main_v41 (F := F) (V (Proc.devRef .tc main_arg0)) (V (Proc.devRef .tc main_arg1)) := by
  rw [after_read_stretch (writesOnly (F := F)) 54 9 V main_v41 (by decide)]
  have h0 := after_take_of_not_mem (writesOnly (F := F)) 54 V main_arg0 (by decide)
  have h1 := after_take_of_not_mem (writesOnly (F := F)) 54 V main_arg1 (by decide)
  generalize after ((ops (F := F)).take 54) V = S at h0 h1 ⊢
  show after
     [unary main_arg0 main_v36 ((extractStridedSlice S8x32x256x506 ![0, 0, 0, 0] · slices_S8x32x256x512_S8x32x256x506_0_0_0_0) : (⟨S8x32x256x512, .f32⟩ : BufTy).Contents (Elt F) → (⟨S8x32x256x506, .f32⟩ : BufTy).Contents (Elt F)),
      unary main_arg1 main_v37 ((extractStridedSlice S8x32x256x506 ![0, 0, 0, 6] · slices_S8x32x256x512_S8x32x256x506_0_0_0_6) : (⟨S8x32x256x512, .f32⟩ : BufTy).Contents (Elt F) → (⟨S8x32x256x506, .f32⟩ : BufTy).Contents (Elt F)),
      binary main_v36 main_v37 main_v38 (subf : (⟨S8x32x256x506, .f32⟩ : BufTy).Contents (Elt F) → (⟨S8x32x256x506, .f32⟩ : BufTy).Contents (Elt F) → (⟨S8x32x256x506, .f32⟩ : BufTy).Contents (Elt F)),
      unary main_v38 main_v39 (Host.absf : (⟨S8x32x256x506, .f32⟩ : BufTy).Contents (Elt F) → (⟨S8x32x256x506, .f32⟩ : BufTy).Contents (Elt F)),
      nullary main_cst_10 (constant S_ .f32 0x00000000#32),
      binary main_v39 main_cst_10 main_v40 ((fun x v => Host.reduceAdd x v reducesTo_S8x32x256x506_S8x256x506_d1 h_S_) : (⟨S8x32x256x506, .f32⟩ : BufTy).Contents (Elt F) → (⟨S_, .f32⟩ : BufTy).Contents (Elt F) → (⟨S8x256x506, .f32⟩ : BufTy).Contents (Elt F)),
      nullary main_c_11 (constantI S_ 32 0#32),
      TRef.unary (TRef.of (T := ⟨S_, .i32⟩) main_c_11) (TRef.of (T := ⟨S_, .f32⟩) main_call6_v0) (sitofp .f32),
      TRef.binary (TRef.of (T := ⟨S8x256x506, .f32⟩) main_v40) (TRef.of (T := ⟨S_, .f32⟩) main_call6_v0) (TRef.of (T := ⟨S8x256x512, .f32⟩) main_v41) (fun x v => pad S8x256x512 ![0, 0, 0] ![0, 0, 6] ![0, 0, 0] x v pads_S8x256x506_S8x256x512_000_000_060 h_S_)]
     S (Proc.devRef .tc main_v41) = _
  after_results
  rw [h0, h1]
  rfl

theorem slab_after_7 (V : Valuation τ sig (Elt F)) :
    after (ops (F := F)) V (Proc.devRef .tc main_v47)
      = val_main_v47 (F := F) (V (Proc.devRef .tc main_arg0)) (V (Proc.devRef .tc main_arg1)) := by
  rw [after_read_stretch (writesOnly (F := F)) 63 9 V main_v47 (by decide)]
  have h0 := after_take_of_not_mem (writesOnly (F := F)) 63 V main_arg0 (by decide)
  have h1 := after_take_of_not_mem (writesOnly (F := F)) 63 V main_arg1 (by decide)
  generalize after ((ops (F := F)).take 63) V = S at h0 h1 ⊢
  show after
     [unary main_arg0 main_v42 ((extractStridedSlice S8x32x256x507 ![0, 0, 0, 0] · slices_S8x32x256x512_S8x32x256x507_0_0_0_0) : (⟨S8x32x256x512, .f32⟩ : BufTy).Contents (Elt F) → (⟨S8x32x256x507, .f32⟩ : BufTy).Contents (Elt F)),
      unary main_arg1 main_v43 ((extractStridedSlice S8x32x256x507 ![0, 0, 0, 5] · slices_S8x32x256x512_S8x32x256x507_0_0_0_5) : (⟨S8x32x256x512, .f32⟩ : BufTy).Contents (Elt F) → (⟨S8x32x256x507, .f32⟩ : BufTy).Contents (Elt F)),
      binary main_v42 main_v43 main_v44 (subf : (⟨S8x32x256x507, .f32⟩ : BufTy).Contents (Elt F) → (⟨S8x32x256x507, .f32⟩ : BufTy).Contents (Elt F) → (⟨S8x32x256x507, .f32⟩ : BufTy).Contents (Elt F)),
      unary main_v44 main_v45 (Host.absf : (⟨S8x32x256x507, .f32⟩ : BufTy).Contents (Elt F) → (⟨S8x32x256x507, .f32⟩ : BufTy).Contents (Elt F)),
      nullary main_cst_12 (constant S_ .f32 0x00000000#32),
      binary main_v45 main_cst_12 main_v46 ((fun x v => Host.reduceAdd x v reducesTo_S8x32x256x507_S8x256x507_d1 h_S_) : (⟨S8x32x256x507, .f32⟩ : BufTy).Contents (Elt F) → (⟨S_, .f32⟩ : BufTy).Contents (Elt F) → (⟨S8x256x507, .f32⟩ : BufTy).Contents (Elt F)),
      nullary main_c_13 (constantI S_ 32 0#32),
      TRef.unary (TRef.of (T := ⟨S_, .i32⟩) main_c_13) (TRef.of (T := ⟨S_, .f32⟩) main_call7_v0) (sitofp .f32),
      TRef.binary (TRef.of (T := ⟨S8x256x507, .f32⟩) main_v46) (TRef.of (T := ⟨S_, .f32⟩) main_call7_v0) (TRef.of (T := ⟨S8x256x512, .f32⟩) main_v47) (fun x v => pad S8x256x512 ![0, 0, 0] ![0, 0, 5] ![0, 0, 0] x v pads_S8x256x507_S8x256x512_000_000_050 h_S_)]
     S (Proc.devRef .tc main_v47) = _
  after_results
  rw [h0, h1]
  rfl

theorem slab_after_8 (V : Valuation τ sig (Elt F)) :
    after (ops (F := F)) V (Proc.devRef .tc main_v53)
      = val_main_v53 (F := F) (V (Proc.devRef .tc main_arg0)) (V (Proc.devRef .tc main_arg1)) := by
  rw [after_read_stretch (writesOnly (F := F)) 72 9 V main_v53 (by decide)]
  have h0 := after_take_of_not_mem (writesOnly (F := F)) 72 V main_arg0 (by decide)
  have h1 := after_take_of_not_mem (writesOnly (F := F)) 72 V main_arg1 (by decide)
  generalize after ((ops (F := F)).take 72) V = S at h0 h1 ⊢
  show after
     [unary main_arg0 main_v48 ((extractStridedSlice S8x32x256x508 ![0, 0, 0, 0] · slices_S8x32x256x512_S8x32x256x508_0_0_0_0) : (⟨S8x32x256x512, .f32⟩ : BufTy).Contents (Elt F) → (⟨S8x32x256x508, .f32⟩ : BufTy).Contents (Elt F)),
      unary main_arg1 main_v49 ((extractStridedSlice S8x32x256x508 ![0, 0, 0, 4] · slices_S8x32x256x512_S8x32x256x508_0_0_0_4) : (⟨S8x32x256x512, .f32⟩ : BufTy).Contents (Elt F) → (⟨S8x32x256x508, .f32⟩ : BufTy).Contents (Elt F)),
      binary main_v48 main_v49 main_v50 (subf : (⟨S8x32x256x508, .f32⟩ : BufTy).Contents (Elt F) → (⟨S8x32x256x508, .f32⟩ : BufTy).Contents (Elt F) → (⟨S8x32x256x508, .f32⟩ : BufTy).Contents (Elt F)),
      unary main_v50 main_v51 (Host.absf : (⟨S8x32x256x508, .f32⟩ : BufTy).Contents (Elt F) → (⟨S8x32x256x508, .f32⟩ : BufTy).Contents (Elt F)),
      nullary main_cst_14 (constant S_ .f32 0x00000000#32),
      binary main_v51 main_cst_14 main_v52 ((fun x v => Host.reduceAdd x v reducesTo_S8x32x256x508_S8x256x508_d1 h_S_) : (⟨S8x32x256x508, .f32⟩ : BufTy).Contents (Elt F) → (⟨S_, .f32⟩ : BufTy).Contents (Elt F) → (⟨S8x256x508, .f32⟩ : BufTy).Contents (Elt F)),
      nullary main_c_15 (constantI S_ 32 0#32),
      TRef.unary (TRef.of (T := ⟨S_, .i32⟩) main_c_15) (TRef.of (T := ⟨S_, .f32⟩) main_call8_v0) (sitofp .f32),
      TRef.binary (TRef.of (T := ⟨S8x256x508, .f32⟩) main_v52) (TRef.of (T := ⟨S_, .f32⟩) main_call8_v0) (TRef.of (T := ⟨S8x256x512, .f32⟩) main_v53) (fun x v => pad S8x256x512 ![0, 0, 0] ![0, 0, 4] ![0, 0, 0] x v pads_S8x256x508_S8x256x512_000_000_040 h_S_)]
     S (Proc.devRef .tc main_v53) = _
  after_results
  rw [h0, h1]
  rfl

theorem slab_after_9 (V : Valuation τ sig (Elt F)) :
    after (ops (F := F)) V (Proc.devRef .tc main_v59)
      = val_main_v59 (F := F) (V (Proc.devRef .tc main_arg0)) (V (Proc.devRef .tc main_arg1)) := by
  rw [after_read_stretch (writesOnly (F := F)) 81 9 V main_v59 (by decide)]
  have h0 := after_take_of_not_mem (writesOnly (F := F)) 81 V main_arg0 (by decide)
  have h1 := after_take_of_not_mem (writesOnly (F := F)) 81 V main_arg1 (by decide)
  generalize after ((ops (F := F)).take 81) V = S at h0 h1 ⊢
  show after
     [unary main_arg0 main_v54 ((extractStridedSlice S8x32x256x509 ![0, 0, 0, 0] · slices_S8x32x256x512_S8x32x256x509_0_0_0_0) : (⟨S8x32x256x512, .f32⟩ : BufTy).Contents (Elt F) → (⟨S8x32x256x509, .f32⟩ : BufTy).Contents (Elt F)),
      unary main_arg1 main_v55 ((extractStridedSlice S8x32x256x509 ![0, 0, 0, 3] · slices_S8x32x256x512_S8x32x256x509_0_0_0_3) : (⟨S8x32x256x512, .f32⟩ : BufTy).Contents (Elt F) → (⟨S8x32x256x509, .f32⟩ : BufTy).Contents (Elt F)),
      binary main_v54 main_v55 main_v56 (subf : (⟨S8x32x256x509, .f32⟩ : BufTy).Contents (Elt F) → (⟨S8x32x256x509, .f32⟩ : BufTy).Contents (Elt F) → (⟨S8x32x256x509, .f32⟩ : BufTy).Contents (Elt F)),
      unary main_v56 main_v57 (Host.absf : (⟨S8x32x256x509, .f32⟩ : BufTy).Contents (Elt F) → (⟨S8x32x256x509, .f32⟩ : BufTy).Contents (Elt F)),
      nullary main_cst_16 (constant S_ .f32 0x00000000#32),
      binary main_v57 main_cst_16 main_v58 ((fun x v => Host.reduceAdd x v reducesTo_S8x32x256x509_S8x256x509_d1 h_S_) : (⟨S8x32x256x509, .f32⟩ : BufTy).Contents (Elt F) → (⟨S_, .f32⟩ : BufTy).Contents (Elt F) → (⟨S8x256x509, .f32⟩ : BufTy).Contents (Elt F)),
      nullary main_c_17 (constantI S_ 32 0#32),
      TRef.unary (TRef.of (T := ⟨S_, .i32⟩) main_c_17) (TRef.of (T := ⟨S_, .f32⟩) main_call9_v0) (sitofp .f32),
      TRef.binary (TRef.of (T := ⟨S8x256x509, .f32⟩) main_v58) (TRef.of (T := ⟨S_, .f32⟩) main_call9_v0) (TRef.of (T := ⟨S8x256x512, .f32⟩) main_v59) (fun x v => pad S8x256x512 ![0, 0, 0] ![0, 0, 3] ![0, 0, 0] x v pads_S8x256x509_S8x256x512_000_000_030 h_S_)]
     S (Proc.devRef .tc main_v59) = _
  after_results
  rw [h0, h1]
  rfl

theorem slab_after_10 (V : Valuation τ sig (Elt F)) :
    after (ops (F := F)) V (Proc.devRef .tc main_v65)
      = val_main_v65 (F := F) (V (Proc.devRef .tc main_arg0)) (V (Proc.devRef .tc main_arg1)) := by
  rw [after_read_stretch (writesOnly (F := F)) 90 9 V main_v65 (by decide)]
  have h0 := after_take_of_not_mem (writesOnly (F := F)) 90 V main_arg0 (by decide)
  have h1 := after_take_of_not_mem (writesOnly (F := F)) 90 V main_arg1 (by decide)
  generalize after ((ops (F := F)).take 90) V = S at h0 h1 ⊢
  show after
     [unary main_arg0 main_v60 ((extractStridedSlice S8x32x256x510 ![0, 0, 0, 0] · slices_S8x32x256x512_S8x32x256x510_0_0_0_0) : (⟨S8x32x256x512, .f32⟩ : BufTy).Contents (Elt F) → (⟨S8x32x256x510, .f32⟩ : BufTy).Contents (Elt F)),
      unary main_arg1 main_v61 ((extractStridedSlice S8x32x256x510 ![0, 0, 0, 2] · slices_S8x32x256x512_S8x32x256x510_0_0_0_2) : (⟨S8x32x256x512, .f32⟩ : BufTy).Contents (Elt F) → (⟨S8x32x256x510, .f32⟩ : BufTy).Contents (Elt F)),
      binary main_v60 main_v61 main_v62 (subf : (⟨S8x32x256x510, .f32⟩ : BufTy).Contents (Elt F) → (⟨S8x32x256x510, .f32⟩ : BufTy).Contents (Elt F) → (⟨S8x32x256x510, .f32⟩ : BufTy).Contents (Elt F)),
      unary main_v62 main_v63 (Host.absf : (⟨S8x32x256x510, .f32⟩ : BufTy).Contents (Elt F) → (⟨S8x32x256x510, .f32⟩ : BufTy).Contents (Elt F)),
      nullary main_cst_18 (constant S_ .f32 0x00000000#32),
      binary main_v63 main_cst_18 main_v64 ((fun x v => Host.reduceAdd x v reducesTo_S8x32x256x510_S8x256x510_d1 h_S_) : (⟨S8x32x256x510, .f32⟩ : BufTy).Contents (Elt F) → (⟨S_, .f32⟩ : BufTy).Contents (Elt F) → (⟨S8x256x510, .f32⟩ : BufTy).Contents (Elt F)),
      nullary main_c_19 (constantI S_ 32 0#32),
      TRef.unary (TRef.of (T := ⟨S_, .i32⟩) main_c_19) (TRef.of (T := ⟨S_, .f32⟩) main_call10_v0) (sitofp .f32),
      TRef.binary (TRef.of (T := ⟨S8x256x510, .f32⟩) main_v64) (TRef.of (T := ⟨S_, .f32⟩) main_call10_v0) (TRef.of (T := ⟨S8x256x512, .f32⟩) main_v65) (fun x v => pad S8x256x512 ![0, 0, 0] ![0, 0, 2] ![0, 0, 0] x v pads_S8x256x510_S8x256x512_000_000_020 h_S_)]
     S (Proc.devRef .tc main_v65) = _
  after_results
  rw [h0, h1]
  rfl

theorem slab_after_11 (V : Valuation τ sig (Elt F)) :
    after (ops (F := F)) V (Proc.devRef .tc main_v71)
      = val_main_v71 (F := F) (V (Proc.devRef .tc main_arg0)) (V (Proc.devRef .tc main_arg1)) := by
  rw [after_read_stretch (writesOnly (F := F)) 99 9 V main_v71 (by decide)]
  have h0 := after_take_of_not_mem (writesOnly (F := F)) 99 V main_arg0 (by decide)
  have h1 := after_take_of_not_mem (writesOnly (F := F)) 99 V main_arg1 (by decide)
  generalize after ((ops (F := F)).take 99) V = S at h0 h1 ⊢
  show after
     [unary main_arg0 main_v66 ((extractStridedSlice S8x32x256x511 ![0, 0, 0, 0] · slices_S8x32x256x512_S8x32x256x511_0_0_0_0) : (⟨S8x32x256x512, .f32⟩ : BufTy).Contents (Elt F) → (⟨S8x32x256x511, .f32⟩ : BufTy).Contents (Elt F)),
      unary main_arg1 main_v67 ((extractStridedSlice S8x32x256x511 ![0, 0, 0, 1] · slices_S8x32x256x512_S8x32x256x511_0_0_0_1) : (⟨S8x32x256x512, .f32⟩ : BufTy).Contents (Elt F) → (⟨S8x32x256x511, .f32⟩ : BufTy).Contents (Elt F)),
      binary main_v66 main_v67 main_v68 (subf : (⟨S8x32x256x511, .f32⟩ : BufTy).Contents (Elt F) → (⟨S8x32x256x511, .f32⟩ : BufTy).Contents (Elt F) → (⟨S8x32x256x511, .f32⟩ : BufTy).Contents (Elt F)),
      unary main_v68 main_v69 (Host.absf : (⟨S8x32x256x511, .f32⟩ : BufTy).Contents (Elt F) → (⟨S8x32x256x511, .f32⟩ : BufTy).Contents (Elt F)),
      nullary main_cst_20 (constant S_ .f32 0x00000000#32),
      binary main_v69 main_cst_20 main_v70 ((fun x v => Host.reduceAdd x v reducesTo_S8x32x256x511_S8x256x511_d1 h_S_) : (⟨S8x32x256x511, .f32⟩ : BufTy).Contents (Elt F) → (⟨S_, .f32⟩ : BufTy).Contents (Elt F) → (⟨S8x256x511, .f32⟩ : BufTy).Contents (Elt F)),
      nullary main_c_21 (constantI S_ 32 0#32),
      TRef.unary (TRef.of (T := ⟨S_, .i32⟩) main_c_21) (TRef.of (T := ⟨S_, .f32⟩) main_call11_v0) (sitofp .f32),
      TRef.binary (TRef.of (T := ⟨S8x256x511, .f32⟩) main_v70) (TRef.of (T := ⟨S_, .f32⟩) main_call11_v0) (TRef.of (T := ⟨S8x256x512, .f32⟩) main_v71) (fun x v => pad S8x256x512 ![0, 0, 0] ![0, 0, 1] ![0, 0, 0] x v pads_S8x256x511_S8x256x512_000_000_010 h_S_)]
     S (Proc.devRef .tc main_v71) = _
  after_results
  rw [h0, h1]
  rfl

theorem slab_after_12 (V : Valuation τ sig (Elt F)) :
    after (ops (F := F)) V (Proc.devRef .tc main_v74)
      = val_main_v74 (F := F) (V (Proc.devRef .tc main_arg0)) (V (Proc.devRef .tc main_arg1)) := by
  rw [after_read_stretch (writesOnly (F := F)) 108 4 V main_v74 (by decide)]
  have h0 := after_take_of_not_mem (writesOnly (F := F)) 108 V main_arg0 (by decide)
  have h1 := after_take_of_not_mem (writesOnly (F := F)) 108 V main_arg1 (by decide)
  generalize after ((ops (F := F)).take 108) V = S at h0 h1 ⊢
  show after
     [binary main_arg0 main_arg1 main_v72 (subf : (⟨S8x32x256x512, .f32⟩ : BufTy).Contents (Elt F) → (⟨S8x32x256x512, .f32⟩ : BufTy).Contents (Elt F) → (⟨S8x32x256x512, .f32⟩ : BufTy).Contents (Elt F)),
      unary main_v72 main_v73 (Host.absf : (⟨S8x32x256x512, .f32⟩ : BufTy).Contents (Elt F) → (⟨S8x32x256x512, .f32⟩ : BufTy).Contents (Elt F)),
      nullary main_cst_22 (constant S_ .f32 0x00000000#32),
      binary main_v73 main_cst_22 main_v74 ((fun x v => Host.reduceAdd x v reducesTo_S8x32x256x512_S8x256x512_d1 h_S_) : (⟨S8x32x256x512, .f32⟩ : BufTy).Contents (Elt F) → (⟨S_, .f32⟩ : BufTy).Contents (Elt F) → (⟨S8x256x512, .f32⟩ : BufTy).Contents (Elt F))]
     S (Proc.devRef .tc main_v74) = _
  after_results
  rw [h0, h1]
  rfl

theorem slab_after_13 (V : Valuation τ sig (Elt F)) :
    after (ops (F := F)) V (Proc.devRef .tc main_v80)
      = val_main_v80 (F := F) (V (Proc.devRef .tc main_arg0)) (V (Proc.devRef .tc main_arg1)) := by
  rw [after_read_stretch (writesOnly (F := F)) 112 9 V main_v80 (by decide)]
  have h0 := after_take_of_not_mem (writesOnly (F := F)) 112 V main_arg0 (by decide)
  have h1 := after_take_of_not_mem (writesOnly (F := F)) 112 V main_arg1 (by decide)
  generalize after ((ops (F := F)).take 112) V = S at h0 h1 ⊢
  show after
     [unary main_arg0 main_v75 ((extractStridedSlice S8x32x256x511 ![0, 0, 0, 1] · slices_S8x32x256x512_S8x32x256x511_0_0_0_1) : (⟨S8x32x256x512, .f32⟩ : BufTy).Contents (Elt F) → (⟨S8x32x256x511, .f32⟩ : BufTy).Contents (Elt F)),
      unary main_arg1 main_v76 ((extractStridedSlice S8x32x256x511 ![0, 0, 0, 0] · slices_S8x32x256x512_S8x32x256x511_0_0_0_0) : (⟨S8x32x256x512, .f32⟩ : BufTy).Contents (Elt F) → (⟨S8x32x256x511, .f32⟩ : BufTy).Contents (Elt F)),
      binary main_v75 main_v76 main_v77 (subf : (⟨S8x32x256x511, .f32⟩ : BufTy).Contents (Elt F) → (⟨S8x32x256x511, .f32⟩ : BufTy).Contents (Elt F) → (⟨S8x32x256x511, .f32⟩ : BufTy).Contents (Elt F)),
      unary main_v77 main_v78 (Host.absf : (⟨S8x32x256x511, .f32⟩ : BufTy).Contents (Elt F) → (⟨S8x32x256x511, .f32⟩ : BufTy).Contents (Elt F)),
      nullary main_cst_23 (constant S_ .f32 0x00000000#32),
      binary main_v78 main_cst_23 main_v79 ((fun x v => Host.reduceAdd x v reducesTo_S8x32x256x511_S8x256x511_d1 h_S_) : (⟨S8x32x256x511, .f32⟩ : BufTy).Contents (Elt F) → (⟨S_, .f32⟩ : BufTy).Contents (Elt F) → (⟨S8x256x511, .f32⟩ : BufTy).Contents (Elt F)),
      nullary main_c_24 (constantI S_ 32 0#32),
      TRef.unary (TRef.of (T := ⟨S_, .i32⟩) main_c_24) (TRef.of (T := ⟨S_, .f32⟩) main_call12_v0) (sitofp .f32),
      TRef.binary (TRef.of (T := ⟨S8x256x511, .f32⟩) main_v79) (TRef.of (T := ⟨S_, .f32⟩) main_call12_v0) (TRef.of (T := ⟨S8x256x512, .f32⟩) main_v80) (fun x v => pad S8x256x512 ![0, 0, 1] ![0, 0, 0] ![0, 0, 0] x v pads_S8x256x511_S8x256x512_000_000_100 h_S_)]
     S (Proc.devRef .tc main_v80) = _
  after_results
  rw [h0, h1]
  rfl

theorem slab_after_14 (V : Valuation τ sig (Elt F)) :
    after (ops (F := F)) V (Proc.devRef .tc main_v86)
      = val_main_v86 (F := F) (V (Proc.devRef .tc main_arg0)) (V (Proc.devRef .tc main_arg1)) := by
  rw [after_read_stretch (writesOnly (F := F)) 121 9 V main_v86 (by decide)]
  have h0 := after_take_of_not_mem (writesOnly (F := F)) 121 V main_arg0 (by decide)
  have h1 := after_take_of_not_mem (writesOnly (F := F)) 121 V main_arg1 (by decide)
  generalize after ((ops (F := F)).take 121) V = S at h0 h1 ⊢
  show after
     [unary main_arg0 main_v81 ((extractStridedSlice S8x32x256x510 ![0, 0, 0, 2] · slices_S8x32x256x512_S8x32x256x510_0_0_0_2) : (⟨S8x32x256x512, .f32⟩ : BufTy).Contents (Elt F) → (⟨S8x32x256x510, .f32⟩ : BufTy).Contents (Elt F)),
      unary main_arg1 main_v82 ((extractStridedSlice S8x32x256x510 ![0, 0, 0, 0] · slices_S8x32x256x512_S8x32x256x510_0_0_0_0) : (⟨S8x32x256x512, .f32⟩ : BufTy).Contents (Elt F) → (⟨S8x32x256x510, .f32⟩ : BufTy).Contents (Elt F)),
      binary main_v81 main_v82 main_v83 (subf : (⟨S8x32x256x510, .f32⟩ : BufTy).Contents (Elt F) → (⟨S8x32x256x510, .f32⟩ : BufTy).Contents (Elt F) → (⟨S8x32x256x510, .f32⟩ : BufTy).Contents (Elt F)),
      unary main_v83 main_v84 (Host.absf : (⟨S8x32x256x510, .f32⟩ : BufTy).Contents (Elt F) → (⟨S8x32x256x510, .f32⟩ : BufTy).Contents (Elt F)),
      nullary main_cst_25 (constant S_ .f32 0x00000000#32),
      binary main_v84 main_cst_25 main_v85 ((fun x v => Host.reduceAdd x v reducesTo_S8x32x256x510_S8x256x510_d1 h_S_) : (⟨S8x32x256x510, .f32⟩ : BufTy).Contents (Elt F) → (⟨S_, .f32⟩ : BufTy).Contents (Elt F) → (⟨S8x256x510, .f32⟩ : BufTy).Contents (Elt F)),
      nullary main_c_26 (constantI S_ 32 0#32),
      TRef.unary (TRef.of (T := ⟨S_, .i32⟩) main_c_26) (TRef.of (T := ⟨S_, .f32⟩) main_call13_v0) (sitofp .f32),
      TRef.binary (TRef.of (T := ⟨S8x256x510, .f32⟩) main_v85) (TRef.of (T := ⟨S_, .f32⟩) main_call13_v0) (TRef.of (T := ⟨S8x256x512, .f32⟩) main_v86) (fun x v => pad S8x256x512 ![0, 0, 2] ![0, 0, 0] ![0, 0, 0] x v pads_S8x256x510_S8x256x512_000_000_200 h_S_)]
     S (Proc.devRef .tc main_v86) = _
  after_results
  rw [h0, h1]
  rfl

theorem slab_after_15 (V : Valuation τ sig (Elt F)) :
    after (ops (F := F)) V (Proc.devRef .tc main_v92)
      = val_main_v92 (F := F) (V (Proc.devRef .tc main_arg0)) (V (Proc.devRef .tc main_arg1)) := by
  rw [after_read_stretch (writesOnly (F := F)) 130 9 V main_v92 (by decide)]
  have h0 := after_take_of_not_mem (writesOnly (F := F)) 130 V main_arg0 (by decide)
  have h1 := after_take_of_not_mem (writesOnly (F := F)) 130 V main_arg1 (by decide)
  generalize after ((ops (F := F)).take 130) V = S at h0 h1 ⊢
  show after
     [unary main_arg0 main_v87 ((extractStridedSlice S8x32x256x509 ![0, 0, 0, 3] · slices_S8x32x256x512_S8x32x256x509_0_0_0_3) : (⟨S8x32x256x512, .f32⟩ : BufTy).Contents (Elt F) → (⟨S8x32x256x509, .f32⟩ : BufTy).Contents (Elt F)),
      unary main_arg1 main_v88 ((extractStridedSlice S8x32x256x509 ![0, 0, 0, 0] · slices_S8x32x256x512_S8x32x256x509_0_0_0_0) : (⟨S8x32x256x512, .f32⟩ : BufTy).Contents (Elt F) → (⟨S8x32x256x509, .f32⟩ : BufTy).Contents (Elt F)),
      binary main_v87 main_v88 main_v89 (subf : (⟨S8x32x256x509, .f32⟩ : BufTy).Contents (Elt F) → (⟨S8x32x256x509, .f32⟩ : BufTy).Contents (Elt F) → (⟨S8x32x256x509, .f32⟩ : BufTy).Contents (Elt F)),
      unary main_v89 main_v90 (Host.absf : (⟨S8x32x256x509, .f32⟩ : BufTy).Contents (Elt F) → (⟨S8x32x256x509, .f32⟩ : BufTy).Contents (Elt F)),
      nullary main_cst_27 (constant S_ .f32 0x00000000#32),
      binary main_v90 main_cst_27 main_v91 ((fun x v => Host.reduceAdd x v reducesTo_S8x32x256x509_S8x256x509_d1 h_S_) : (⟨S8x32x256x509, .f32⟩ : BufTy).Contents (Elt F) → (⟨S_, .f32⟩ : BufTy).Contents (Elt F) → (⟨S8x256x509, .f32⟩ : BufTy).Contents (Elt F)),
      nullary main_c_28 (constantI S_ 32 0#32),
      TRef.unary (TRef.of (T := ⟨S_, .i32⟩) main_c_28) (TRef.of (T := ⟨S_, .f32⟩) main_call14_v0) (sitofp .f32),
      TRef.binary (TRef.of (T := ⟨S8x256x509, .f32⟩) main_v91) (TRef.of (T := ⟨S_, .f32⟩) main_call14_v0) (TRef.of (T := ⟨S8x256x512, .f32⟩) main_v92) (fun x v => pad S8x256x512 ![0, 0, 3] ![0, 0, 0] ![0, 0, 0] x v pads_S8x256x509_S8x256x512_000_000_300 h_S_)]
     S (Proc.devRef .tc main_v92) = _
  after_results
  rw [h0, h1]
  rfl

theorem slab_after_16 (V : Valuation τ sig (Elt F)) :
    after (ops (F := F)) V (Proc.devRef .tc main_v98)
      = val_main_v98 (F := F) (V (Proc.devRef .tc main_arg0)) (V (Proc.devRef .tc main_arg1)) := by
  rw [after_read_stretch (writesOnly (F := F)) 139 9 V main_v98 (by decide)]
  have h0 := after_take_of_not_mem (writesOnly (F := F)) 139 V main_arg0 (by decide)
  have h1 := after_take_of_not_mem (writesOnly (F := F)) 139 V main_arg1 (by decide)
  generalize after ((ops (F := F)).take 139) V = S at h0 h1 ⊢
  show after
     [unary main_arg0 main_v93 ((extractStridedSlice S8x32x256x508 ![0, 0, 0, 4] · slices_S8x32x256x512_S8x32x256x508_0_0_0_4) : (⟨S8x32x256x512, .f32⟩ : BufTy).Contents (Elt F) → (⟨S8x32x256x508, .f32⟩ : BufTy).Contents (Elt F)),
      unary main_arg1 main_v94 ((extractStridedSlice S8x32x256x508 ![0, 0, 0, 0] · slices_S8x32x256x512_S8x32x256x508_0_0_0_0) : (⟨S8x32x256x512, .f32⟩ : BufTy).Contents (Elt F) → (⟨S8x32x256x508, .f32⟩ : BufTy).Contents (Elt F)),
      binary main_v93 main_v94 main_v95 (subf : (⟨S8x32x256x508, .f32⟩ : BufTy).Contents (Elt F) → (⟨S8x32x256x508, .f32⟩ : BufTy).Contents (Elt F) → (⟨S8x32x256x508, .f32⟩ : BufTy).Contents (Elt F)),
      unary main_v95 main_v96 (Host.absf : (⟨S8x32x256x508, .f32⟩ : BufTy).Contents (Elt F) → (⟨S8x32x256x508, .f32⟩ : BufTy).Contents (Elt F)),
      nullary main_cst_29 (constant S_ .f32 0x00000000#32),
      binary main_v96 main_cst_29 main_v97 ((fun x v => Host.reduceAdd x v reducesTo_S8x32x256x508_S8x256x508_d1 h_S_) : (⟨S8x32x256x508, .f32⟩ : BufTy).Contents (Elt F) → (⟨S_, .f32⟩ : BufTy).Contents (Elt F) → (⟨S8x256x508, .f32⟩ : BufTy).Contents (Elt F)),
      nullary main_c_30 (constantI S_ 32 0#32),
      TRef.unary (TRef.of (T := ⟨S_, .i32⟩) main_c_30) (TRef.of (T := ⟨S_, .f32⟩) main_call15_v0) (sitofp .f32),
      TRef.binary (TRef.of (T := ⟨S8x256x508, .f32⟩) main_v97) (TRef.of (T := ⟨S_, .f32⟩) main_call15_v0) (TRef.of (T := ⟨S8x256x512, .f32⟩) main_v98) (fun x v => pad S8x256x512 ![0, 0, 4] ![0, 0, 0] ![0, 0, 0] x v pads_S8x256x508_S8x256x512_000_000_400 h_S_)]
     S (Proc.devRef .tc main_v98) = _
  after_results
  rw [h0, h1]
  rfl

theorem slab_after_17 (V : Valuation τ sig (Elt F)) :
    after (ops (F := F)) V (Proc.devRef .tc main_v104)
      = val_main_v104 (F := F) (V (Proc.devRef .tc main_arg0)) (V (Proc.devRef .tc main_arg1)) := by
  rw [after_read_stretch (writesOnly (F := F)) 148 9 V main_v104 (by decide)]
  have h0 := after_take_of_not_mem (writesOnly (F := F)) 148 V main_arg0 (by decide)
  have h1 := after_take_of_not_mem (writesOnly (F := F)) 148 V main_arg1 (by decide)
  generalize after ((ops (F := F)).take 148) V = S at h0 h1 ⊢
  show after
     [unary main_arg0 main_v99 ((extractStridedSlice S8x32x256x507 ![0, 0, 0, 5] · slices_S8x32x256x512_S8x32x256x507_0_0_0_5) : (⟨S8x32x256x512, .f32⟩ : BufTy).Contents (Elt F) → (⟨S8x32x256x507, .f32⟩ : BufTy).Contents (Elt F)),
      unary main_arg1 main_v100 ((extractStridedSlice S8x32x256x507 ![0, 0, 0, 0] · slices_S8x32x256x512_S8x32x256x507_0_0_0_0) : (⟨S8x32x256x512, .f32⟩ : BufTy).Contents (Elt F) → (⟨S8x32x256x507, .f32⟩ : BufTy).Contents (Elt F)),
      binary main_v99 main_v100 main_v101 (subf : (⟨S8x32x256x507, .f32⟩ : BufTy).Contents (Elt F) → (⟨S8x32x256x507, .f32⟩ : BufTy).Contents (Elt F) → (⟨S8x32x256x507, .f32⟩ : BufTy).Contents (Elt F)),
      unary main_v101 main_v102 (Host.absf : (⟨S8x32x256x507, .f32⟩ : BufTy).Contents (Elt F) → (⟨S8x32x256x507, .f32⟩ : BufTy).Contents (Elt F)),
      nullary main_cst_31 (constant S_ .f32 0x00000000#32),
      binary main_v102 main_cst_31 main_v103 ((fun x v => Host.reduceAdd x v reducesTo_S8x32x256x507_S8x256x507_d1 h_S_) : (⟨S8x32x256x507, .f32⟩ : BufTy).Contents (Elt F) → (⟨S_, .f32⟩ : BufTy).Contents (Elt F) → (⟨S8x256x507, .f32⟩ : BufTy).Contents (Elt F)),
      nullary main_c_32 (constantI S_ 32 0#32),
      TRef.unary (TRef.of (T := ⟨S_, .i32⟩) main_c_32) (TRef.of (T := ⟨S_, .f32⟩) main_call16_v0) (sitofp .f32),
      TRef.binary (TRef.of (T := ⟨S8x256x507, .f32⟩) main_v103) (TRef.of (T := ⟨S_, .f32⟩) main_call16_v0) (TRef.of (T := ⟨S8x256x512, .f32⟩) main_v104) (fun x v => pad S8x256x512 ![0, 0, 5] ![0, 0, 0] ![0, 0, 0] x v pads_S8x256x507_S8x256x512_000_000_500 h_S_)]
     S (Proc.devRef .tc main_v104) = _
  after_results
  rw [h0, h1]
  rfl

theorem slab_after_18 (V : Valuation τ sig (Elt F)) :
    after (ops (F := F)) V (Proc.devRef .tc main_v110)
      = val_main_v110 (F := F) (V (Proc.devRef .tc main_arg0)) (V (Proc.devRef .tc main_arg1)) := by
  rw [after_read_stretch (writesOnly (F := F)) 157 9 V main_v110 (by decide)]
  have h0 := after_take_of_not_mem (writesOnly (F := F)) 157 V main_arg0 (by decide)
  have h1 := after_take_of_not_mem (writesOnly (F := F)) 157 V main_arg1 (by decide)
  generalize after ((ops (F := F)).take 157) V = S at h0 h1 ⊢
  show after
     [unary main_arg0 main_v105 ((extractStridedSlice S8x32x256x506 ![0, 0, 0, 6] · slices_S8x32x256x512_S8x32x256x506_0_0_0_6) : (⟨S8x32x256x512, .f32⟩ : BufTy).Contents (Elt F) → (⟨S8x32x256x506, .f32⟩ : BufTy).Contents (Elt F)),
      unary main_arg1 main_v106 ((extractStridedSlice S8x32x256x506 ![0, 0, 0, 0] · slices_S8x32x256x512_S8x32x256x506_0_0_0_0) : (⟨S8x32x256x512, .f32⟩ : BufTy).Contents (Elt F) → (⟨S8x32x256x506, .f32⟩ : BufTy).Contents (Elt F)),
      binary main_v105 main_v106 main_v107 (subf : (⟨S8x32x256x506, .f32⟩ : BufTy).Contents (Elt F) → (⟨S8x32x256x506, .f32⟩ : BufTy).Contents (Elt F) → (⟨S8x32x256x506, .f32⟩ : BufTy).Contents (Elt F)),
      unary main_v107 main_v108 (Host.absf : (⟨S8x32x256x506, .f32⟩ : BufTy).Contents (Elt F) → (⟨S8x32x256x506, .f32⟩ : BufTy).Contents (Elt F)),
      nullary main_cst_33 (constant S_ .f32 0x00000000#32),
      binary main_v108 main_cst_33 main_v109 ((fun x v => Host.reduceAdd x v reducesTo_S8x32x256x506_S8x256x506_d1 h_S_) : (⟨S8x32x256x506, .f32⟩ : BufTy).Contents (Elt F) → (⟨S_, .f32⟩ : BufTy).Contents (Elt F) → (⟨S8x256x506, .f32⟩ : BufTy).Contents (Elt F)),
      nullary main_c_34 (constantI S_ 32 0#32),
      TRef.unary (TRef.of (T := ⟨S_, .i32⟩) main_c_34) (TRef.of (T := ⟨S_, .f32⟩) main_call17_v0) (sitofp .f32),
      TRef.binary (TRef.of (T := ⟨S8x256x506, .f32⟩) main_v109) (TRef.of (T := ⟨S_, .f32⟩) main_call17_v0) (TRef.of (T := ⟨S8x256x512, .f32⟩) main_v110) (fun x v => pad S8x256x512 ![0, 0, 6] ![0, 0, 0] ![0, 0, 0] x v pads_S8x256x506_S8x256x512_000_000_600 h_S_)]
     S (Proc.devRef .tc main_v110) = _
  after_results
  rw [h0, h1]
  rfl

theorem slab_after_19 (V : Valuation τ sig (Elt F)) :
    after (ops (F := F)) V (Proc.devRef .tc main_v116)
      = val_main_v116 (F := F) (V (Proc.devRef .tc main_arg0)) (V (Proc.devRef .tc main_arg1)) := by
  rw [after_read_stretch (writesOnly (F := F)) 166 9 V main_v116 (by decide)]
  have h0 := after_take_of_not_mem (writesOnly (F := F)) 166 V main_arg0 (by decide)
  have h1 := after_take_of_not_mem (writesOnly (F := F)) 166 V main_arg1 (by decide)
  generalize after ((ops (F := F)).take 166) V = S at h0 h1 ⊢
  show after
     [unary main_arg0 main_v111 ((extractStridedSlice S8x32x256x505 ![0, 0, 0, 7] · slices_S8x32x256x512_S8x32x256x505_0_0_0_7) : (⟨S8x32x256x512, .f32⟩ : BufTy).Contents (Elt F) → (⟨S8x32x256x505, .f32⟩ : BufTy).Contents (Elt F)),
      unary main_arg1 main_v112 ((extractStridedSlice S8x32x256x505 ![0, 0, 0, 0] · slices_S8x32x256x512_S8x32x256x505_0_0_0_0) : (⟨S8x32x256x512, .f32⟩ : BufTy).Contents (Elt F) → (⟨S8x32x256x505, .f32⟩ : BufTy).Contents (Elt F)),
      binary main_v111 main_v112 main_v113 (subf : (⟨S8x32x256x505, .f32⟩ : BufTy).Contents (Elt F) → (⟨S8x32x256x505, .f32⟩ : BufTy).Contents (Elt F) → (⟨S8x32x256x505, .f32⟩ : BufTy).Contents (Elt F)),
      unary main_v113 main_v114 (Host.absf : (⟨S8x32x256x505, .f32⟩ : BufTy).Contents (Elt F) → (⟨S8x32x256x505, .f32⟩ : BufTy).Contents (Elt F)),
      nullary main_cst_35 (constant S_ .f32 0x00000000#32),
      binary main_v114 main_cst_35 main_v115 ((fun x v => Host.reduceAdd x v reducesTo_S8x32x256x505_S8x256x505_d1 h_S_) : (⟨S8x32x256x505, .f32⟩ : BufTy).Contents (Elt F) → (⟨S_, .f32⟩ : BufTy).Contents (Elt F) → (⟨S8x256x505, .f32⟩ : BufTy).Contents (Elt F)),
      nullary main_c_36 (constantI S_ 32 0#32),
      TRef.unary (TRef.of (T := ⟨S_, .i32⟩) main_c_36) (TRef.of (T := ⟨S_, .f32⟩) main_call18_v0) (sitofp .f32),
      TRef.binary (TRef.of (T := ⟨S8x256x505, .f32⟩) main_v115) (TRef.of (T := ⟨S_, .f32⟩) main_call18_v0) (TRef.of (T := ⟨S8x256x512, .f32⟩) main_v116) (fun x v => pad S8x256x512 ![0, 0, 7] ![0, 0, 0] ![0, 0, 0] x v pads_S8x256x505_S8x256x512_000_000_700 h_S_)]
     S (Proc.devRef .tc main_v116) = _
  after_results
  rw [h0, h1]
  rfl

theorem slab_after_20 (V : Valuation τ sig (Elt F)) :
    after (ops (F := F)) V (Proc.devRef .tc main_v122)
      = val_main_v122 (F := F) (V (Proc.devRef .tc main_arg0)) (V (Proc.devRef .tc main_arg1)) := by
  rw [after_read_stretch (writesOnly (F := F)) 175 9 V main_v122 (by decide)]
  have h0 := after_take_of_not_mem (writesOnly (F := F)) 175 V main_arg0 (by decide)
  have h1 := after_take_of_not_mem (writesOnly (F := F)) 175 V main_arg1 (by decide)
  generalize after ((ops (F := F)).take 175) V = S at h0 h1 ⊢
  show after
     [unary main_arg0 main_v117 ((extractStridedSlice S8x32x256x504 ![0, 0, 0, 8] · slices_S8x32x256x512_S8x32x256x504_0_0_0_8) : (⟨S8x32x256x512, .f32⟩ : BufTy).Contents (Elt F) → (⟨S8x32x256x504, .f32⟩ : BufTy).Contents (Elt F)),
      unary main_arg1 main_v118 ((extractStridedSlice S8x32x256x504 ![0, 0, 0, 0] · slices_S8x32x256x512_S8x32x256x504_0_0_0_0) : (⟨S8x32x256x512, .f32⟩ : BufTy).Contents (Elt F) → (⟨S8x32x256x504, .f32⟩ : BufTy).Contents (Elt F)),
      binary main_v117 main_v118 main_v119 (subf : (⟨S8x32x256x504, .f32⟩ : BufTy).Contents (Elt F) → (⟨S8x32x256x504, .f32⟩ : BufTy).Contents (Elt F) → (⟨S8x32x256x504, .f32⟩ : BufTy).Contents (Elt F)),
      unary main_v119 main_v120 (Host.absf : (⟨S8x32x256x504, .f32⟩ : BufTy).Contents (Elt F) → (⟨S8x32x256x504, .f32⟩ : BufTy).Contents (Elt F)),
      nullary main_cst_37 (constant S_ .f32 0x00000000#32),
      binary main_v120 main_cst_37 main_v121 ((fun x v => Host.reduceAdd x v reducesTo_S8x32x256x504_S8x256x504_d1 h_S_) : (⟨S8x32x256x504, .f32⟩ : BufTy).Contents (Elt F) → (⟨S_, .f32⟩ : BufTy).Contents (Elt F) → (⟨S8x256x504, .f32⟩ : BufTy).Contents (Elt F)),
      nullary main_c_38 (constantI S_ 32 0#32),
      TRef.unary (TRef.of (T := ⟨S_, .i32⟩) main_c_38) (TRef.of (T := ⟨S_, .f32⟩) main_call19_v0) (sitofp .f32),
      TRef.binary (TRef.of (T := ⟨S8x256x504, .f32⟩) main_v121) (TRef.of (T := ⟨S_, .f32⟩) main_call19_v0) (TRef.of (T := ⟨S8x256x512, .f32⟩) main_v122) (fun x v => pad S8x256x512 ![0, 0, 8] ![0, 0, 0] ![0, 0, 0] x v pads_S8x256x504_S8x256x512_000_000_800 h_S_)]
     S (Proc.devRef .tc main_v122) = _
  after_results
  rw [h0, h1]
  rfl

theorem slab_after_21 (V : Valuation τ sig (Elt F)) :
    after (ops (F := F)) V (Proc.devRef .tc main_v128)
      = val_main_v128 (F := F) (V (Proc.devRef .tc main_arg0)) (V (Proc.devRef .tc main_arg1)) := by
  rw [after_read_stretch (writesOnly (F := F)) 184 9 V main_v128 (by decide)]
  have h0 := after_take_of_not_mem (writesOnly (F := F)) 184 V main_arg0 (by decide)
  have h1 := after_take_of_not_mem (writesOnly (F := F)) 184 V main_arg1 (by decide)
  generalize after ((ops (F := F)).take 184) V = S at h0 h1 ⊢
  show after
     [unary main_arg0 main_v123 ((extractStridedSlice S8x32x256x503 ![0, 0, 0, 9] · slices_S8x32x256x512_S8x32x256x503_0_0_0_9) : (⟨S8x32x256x512, .f32⟩ : BufTy).Contents (Elt F) → (⟨S8x32x256x503, .f32⟩ : BufTy).Contents (Elt F)),
      unary main_arg1 main_v124 ((extractStridedSlice S8x32x256x503 ![0, 0, 0, 0] · slices_S8x32x256x512_S8x32x256x503_0_0_0_0) : (⟨S8x32x256x512, .f32⟩ : BufTy).Contents (Elt F) → (⟨S8x32x256x503, .f32⟩ : BufTy).Contents (Elt F)),
      binary main_v123 main_v124 main_v125 (subf : (⟨S8x32x256x503, .f32⟩ : BufTy).Contents (Elt F) → (⟨S8x32x256x503, .f32⟩ : BufTy).Contents (Elt F) → (⟨S8x32x256x503, .f32⟩ : BufTy).Contents (Elt F)),
      unary main_v125 main_v126 (Host.absf : (⟨S8x32x256x503, .f32⟩ : BufTy).Contents (Elt F) → (⟨S8x32x256x503, .f32⟩ : BufTy).Contents (Elt F)),
      nullary main_cst_39 (constant S_ .f32 0x00000000#32),
      binary main_v126 main_cst_39 main_v127 ((fun x v => Host.reduceAdd x v reducesTo_S8x32x256x503_S8x256x503_d1 h_S_) : (⟨S8x32x256x503, .f32⟩ : BufTy).Contents (Elt F) → (⟨S_, .f32⟩ : BufTy).Contents (Elt F) → (⟨S8x256x503, .f32⟩ : BufTy).Contents (Elt F)),
      nullary main_c_40 (constantI S_ 32 0#32),
      TRef.unary (TRef.of (T := ⟨S_, .i32⟩) main_c_40) (TRef.of (T := ⟨S_, .f32⟩) main_call20_v0) (sitofp .f32),
      TRef.binary (TRef.of (T := ⟨S8x256x503, .f32⟩) main_v127) (TRef.of (T := ⟨S_, .f32⟩) main_call20_v0) (TRef.of (T := ⟨S8x256x512, .f32⟩) main_v128) (fun x v => pad S8x256x512 ![0, 0, 9] ![0, 0, 0] ![0, 0, 0] x v pads_S8x256x503_S8x256x512_000_000_900 h_S_)]
     S (Proc.devRef .tc main_v128) = _
  after_results
  rw [h0, h1]
  rfl

theorem slab_after_22 (V : Valuation τ sig (Elt F)) :
    after (ops (F := F)) V (Proc.devRef .tc main_v134)
      = val_main_v134 (F := F) (V (Proc.devRef .tc main_arg0)) (V (Proc.devRef .tc main_arg1)) := by
  rw [after_read_stretch (writesOnly (F := F)) 193 9 V main_v134 (by decide)]
  have h0 := after_take_of_not_mem (writesOnly (F := F)) 193 V main_arg0 (by decide)
  have h1 := after_take_of_not_mem (writesOnly (F := F)) 193 V main_arg1 (by decide)
  generalize after ((ops (F := F)).take 193) V = S at h0 h1 ⊢
  show after
     [unary main_arg0 main_v129 ((extractStridedSlice S8x32x256x502 ![0, 0, 0, 10] · slices_S8x32x256x512_S8x32x256x502_0_0_0_10) : (⟨S8x32x256x512, .f32⟩ : BufTy).Contents (Elt F) → (⟨S8x32x256x502, .f32⟩ : BufTy).Contents (Elt F)),
      unary main_arg1 main_v130 ((extractStridedSlice S8x32x256x502 ![0, 0, 0, 0] · slices_S8x32x256x512_S8x32x256x502_0_0_0_0) : (⟨S8x32x256x512, .f32⟩ : BufTy).Contents (Elt F) → (⟨S8x32x256x502, .f32⟩ : BufTy).Contents (Elt F)),
      binary main_v129 main_v130 main_v131 (subf : (⟨S8x32x256x502, .f32⟩ : BufTy).Contents (Elt F) → (⟨S8x32x256x502, .f32⟩ : BufTy).Contents (Elt F) → (⟨S8x32x256x502, .f32⟩ : BufTy).Contents (Elt F)),
      unary main_v131 main_v132 (Host.absf : (⟨S8x32x256x502, .f32⟩ : BufTy).Contents (Elt F) → (⟨S8x32x256x502, .f32⟩ : BufTy).Contents (Elt F)),
      nullary main_cst_41 (constant S_ .f32 0x00000000#32),
      binary main_v132 main_cst_41 main_v133 ((fun x v => Host.reduceAdd x v reducesTo_S8x32x256x502_S8x256x502_d1 h_S_) : (⟨S8x32x256x502, .f32⟩ : BufTy).Contents (Elt F) → (⟨S_, .f32⟩ : BufTy).Contents (Elt F) → (⟨S8x256x502, .f32⟩ : BufTy).Contents (Elt F)),
      nullary main_c_42 (constantI S_ 32 0#32),
      TRef.unary (TRef.of (T := ⟨S_, .i32⟩) main_c_42) (TRef.of (T := ⟨S_, .f32⟩) main_call21_v0) (sitofp .f32),
      TRef.binary (TRef.of (T := ⟨S8x256x502, .f32⟩) main_v133) (TRef.of (T := ⟨S_, .f32⟩) main_call21_v0) (TRef.of (T := ⟨S8x256x512, .f32⟩) main_v134) (fun x v => pad S8x256x512 ![0, 0, 10] ![0, 0, 0] ![0, 0, 0] x v pads_S8x256x502_S8x256x512_000_000_1000 h_S_)]
     S (Proc.devRef .tc main_v134) = _
  after_results
  rw [h0, h1]
  rfl

theorem slab_after_23 (V : Valuation τ sig (Elt F)) :
    after (ops (F := F)) V (Proc.devRef .tc main_v140)
      = val_main_v140 (F := F) (V (Proc.devRef .tc main_arg0)) (V (Proc.devRef .tc main_arg1)) := by
  rw [after_read_stretch (writesOnly (F := F)) 202 9 V main_v140 (by decide)]
  have h0 := after_take_of_not_mem (writesOnly (F := F)) 202 V main_arg0 (by decide)
  have h1 := after_take_of_not_mem (writesOnly (F := F)) 202 V main_arg1 (by decide)
  generalize after ((ops (F := F)).take 202) V = S at h0 h1 ⊢
  show after
     [unary main_arg0 main_v135 ((extractStridedSlice S8x32x256x501 ![0, 0, 0, 11] · slices_S8x32x256x512_S8x32x256x501_0_0_0_11) : (⟨S8x32x256x512, .f32⟩ : BufTy).Contents (Elt F) → (⟨S8x32x256x501, .f32⟩ : BufTy).Contents (Elt F)),
      unary main_arg1 main_v136 ((extractStridedSlice S8x32x256x501 ![0, 0, 0, 0] · slices_S8x32x256x512_S8x32x256x501_0_0_0_0) : (⟨S8x32x256x512, .f32⟩ : BufTy).Contents (Elt F) → (⟨S8x32x256x501, .f32⟩ : BufTy).Contents (Elt F)),
      binary main_v135 main_v136 main_v137 (subf : (⟨S8x32x256x501, .f32⟩ : BufTy).Contents (Elt F) → (⟨S8x32x256x501, .f32⟩ : BufTy).Contents (Elt F) → (⟨S8x32x256x501, .f32⟩ : BufTy).Contents (Elt F)),
      unary main_v137 main_v138 (Host.absf : (⟨S8x32x256x501, .f32⟩ : BufTy).Contents (Elt F) → (⟨S8x32x256x501, .f32⟩ : BufTy).Contents (Elt F)),
      nullary main_cst_43 (constant S_ .f32 0x00000000#32),
      binary main_v138 main_cst_43 main_v139 ((fun x v => Host.reduceAdd x v reducesTo_S8x32x256x501_S8x256x501_d1 h_S_) : (⟨S8x32x256x501, .f32⟩ : BufTy).Contents (Elt F) → (⟨S_, .f32⟩ : BufTy).Contents (Elt F) → (⟨S8x256x501, .f32⟩ : BufTy).Contents (Elt F)),
      nullary main_c_44 (constantI S_ 32 0#32),
      TRef.unary (TRef.of (T := ⟨S_, .i32⟩) main_c_44) (TRef.of (T := ⟨S_, .f32⟩) main_call22_v0) (sitofp .f32),
      TRef.binary (TRef.of (T := ⟨S8x256x501, .f32⟩) main_v139) (TRef.of (T := ⟨S_, .f32⟩) main_call22_v0) (TRef.of (T := ⟨S8x256x512, .f32⟩) main_v140) (fun x v => pad S8x256x512 ![0, 0, 11] ![0, 0, 0] ![0, 0, 0] x v pads_S8x256x501_S8x256x512_000_000_1100 h_S_)]
     S (Proc.devRef .tc main_v140) = _
  after_results
  rw [h0, h1]
  rfl

theorem slab_after_24 (V : Valuation τ sig (Elt F)) :
    after (ops (F := F)) V (Proc.devRef .tc main_v146)
      = val_main_v146 (F := F) (V (Proc.devRef .tc main_arg0)) (V (Proc.devRef .tc main_arg1)) := by
  rw [after_read_stretch (writesOnly (F := F)) 211 9 V main_v146 (by decide)]
  have h0 := after_take_of_not_mem (writesOnly (F := F)) 211 V main_arg0 (by decide)
  have h1 := after_take_of_not_mem (writesOnly (F := F)) 211 V main_arg1 (by decide)
  generalize after ((ops (F := F)).take 211) V = S at h0 h1 ⊢
  show after
     [unary main_arg0 main_v141 ((extractStridedSlice S8x32x256x500 ![0, 0, 0, 12] · slices_S8x32x256x512_S8x32x256x500_0_0_0_12) : (⟨S8x32x256x512, .f32⟩ : BufTy).Contents (Elt F) → (⟨S8x32x256x500, .f32⟩ : BufTy).Contents (Elt F)),
      unary main_arg1 main_v142 ((extractStridedSlice S8x32x256x500 ![0, 0, 0, 0] · slices_S8x32x256x512_S8x32x256x500_0_0_0_0) : (⟨S8x32x256x512, .f32⟩ : BufTy).Contents (Elt F) → (⟨S8x32x256x500, .f32⟩ : BufTy).Contents (Elt F)),
      binary main_v141 main_v142 main_v143 (subf : (⟨S8x32x256x500, .f32⟩ : BufTy).Contents (Elt F) → (⟨S8x32x256x500, .f32⟩ : BufTy).Contents (Elt F) → (⟨S8x32x256x500, .f32⟩ : BufTy).Contents (Elt F)),
      unary main_v143 main_v144 (Host.absf : (⟨S8x32x256x500, .f32⟩ : BufTy).Contents (Elt F) → (⟨S8x32x256x500, .f32⟩ : BufTy).Contents (Elt F)),
      nullary main_cst_45 (constant S_ .f32 0x00000000#32),
      binary main_v144 main_cst_45 main_v145 ((fun x v => Host.reduceAdd x v reducesTo_S8x32x256x500_S8x256x500_d1 h_S_) : (⟨S8x32x256x500, .f32⟩ : BufTy).Contents (Elt F) → (⟨S_, .f32⟩ : BufTy).Contents (Elt F) → (⟨S8x256x500, .f32⟩ : BufTy).Contents (Elt F)),
      nullary main_c_46 (constantI S_ 32 0#32),
      TRef.unary (TRef.of (T := ⟨S_, .i32⟩) main_c_46) (TRef.of (T := ⟨S_, .f32⟩) main_call23_v0) (sitofp .f32),
      TRef.binary (TRef.of (T := ⟨S8x256x500, .f32⟩) main_v145) (TRef.of (T := ⟨S_, .f32⟩) main_call23_v0) (TRef.of (T := ⟨S8x256x512, .f32⟩) main_v146) (fun x v => pad S8x256x512 ![0, 0, 12] ![0, 0, 0] ![0, 0, 0] x v pads_S8x256x500_S8x256x512_000_000_1200 h_S_)]
     S (Proc.devRef .tc main_v146) = _
  after_results
  rw [h0, h1]
  rfl

/-! ## The stack -/

/-- The 25 slices, each with its unit axis, joined: the first 16, the last 9, then the two stacks. -/
def stackOf (p0 p1 p2 p3 p4 p5 p6 p7 p8 p9 p10 p11 p12 p13 p14 p15 p16 p17 p18 p19 p20 p21 p22 p23 p24 : (⟨S8x256x512, .f32⟩ : BufTy).Contents (Elt F)) : (⟨S8x25x256x512, .f32⟩ : BufTy).Contents (Elt F) :=
  concatenate S8x25x256x512 1
    [⟨S8x16x256x512, concatenate S8x16x256x512 1 [⟨S8x1x256x512, broadcastInDim S8x1x256x512 ![0, 2, 3] bcast_S8x256x512_S8x1x256x512_0_2_3 p0⟩, ⟨S8x1x256x512, broadcastInDim S8x1x256x512 ![0, 2, 3] bcast_S8x256x512_S8x1x256x512_0_2_3 p1⟩, ⟨S8x1x256x512, broadcastInDim S8x1x256x512 ![0, 2, 3] bcast_S8x256x512_S8x1x256x512_0_2_3 p2⟩, ⟨S8x1x256x512, broadcastInDim S8x1x256x512 ![0, 2, 3] bcast_S8x256x512_S8x1x256x512_0_2_3 p3⟩, ⟨S8x1x256x512, broadcastInDim S8x1x256x512 ![0, 2, 3] bcast_S8x256x512_S8x1x256x512_0_2_3 p4⟩, ⟨S8x1x256x512, broadcastInDim S8x1x256x512 ![0, 2, 3] bcast_S8x256x512_S8x1x256x512_0_2_3 p5⟩, ⟨S8x1x256x512, broadcastInDim S8x1x256x512 ![0, 2, 3] bcast_S8x256x512_S8x1x256x512_0_2_3 p6⟩, ⟨S8x1x256x512, broadcastInDim S8x1x256x512 ![0, 2, 3] bcast_S8x256x512_S8x1x256x512_0_2_3 p7⟩, ⟨S8x1x256x512, broadcastInDim S8x1x256x512 ![0, 2, 3] bcast_S8x256x512_S8x1x256x512_0_2_3 p8⟩, ⟨S8x1x256x512, broadcastInDim S8x1x256x512 ![0, 2, 3] bcast_S8x256x512_S8x1x256x512_0_2_3 p9⟩, ⟨S8x1x256x512, broadcastInDim S8x1x256x512 ![0, 2, 3] bcast_S8x256x512_S8x1x256x512_0_2_3 p10⟩, ⟨S8x1x256x512, broadcastInDim S8x1x256x512 ![0, 2, 3] bcast_S8x256x512_S8x1x256x512_0_2_3 p11⟩, ⟨S8x1x256x512, broadcastInDim S8x1x256x512 ![0, 2, 3] bcast_S8x256x512_S8x1x256x512_0_2_3 p12⟩, ⟨S8x1x256x512, broadcastInDim S8x1x256x512 ![0, 2, 3] bcast_S8x256x512_S8x1x256x512_0_2_3 p13⟩, ⟨S8x1x256x512, broadcastInDim S8x1x256x512 ![0, 2, 3] bcast_S8x256x512_S8x1x256x512_0_2_3 p14⟩, ⟨S8x1x256x512, broadcastInDim S8x1x256x512 ![0, 2, 3] bcast_S8x256x512_S8x1x256x512_0_2_3 p15⟩] concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1⟩,
     ⟨S8x9x256x512, concatenate S8x9x256x512 1 [⟨S8x1x256x512, broadcastInDim S8x1x256x512 ![0, 2, 3] bcast_S8x256x512_S8x1x256x512_0_2_3 p16⟩, ⟨S8x1x256x512, broadcastInDim S8x1x256x512 ![0, 2, 3] bcast_S8x256x512_S8x1x256x512_0_2_3 p17⟩, ⟨S8x1x256x512, broadcastInDim S8x1x256x512 ![0, 2, 3] bcast_S8x256x512_S8x1x256x512_0_2_3 p18⟩, ⟨S8x1x256x512, broadcastInDim S8x1x256x512 ![0, 2, 3] bcast_S8x256x512_S8x1x256x512_0_2_3 p19⟩, ⟨S8x1x256x512, broadcastInDim S8x1x256x512 ![0, 2, 3] bcast_S8x256x512_S8x1x256x512_0_2_3 p20⟩, ⟨S8x1x256x512, broadcastInDim S8x1x256x512 ![0, 2, 3] bcast_S8x256x512_S8x1x256x512_0_2_3 p21⟩, ⟨S8x1x256x512, broadcastInDim S8x1x256x512 ![0, 2, 3] bcast_S8x256x512_S8x1x256x512_0_2_3 p22⟩, ⟨S8x1x256x512, broadcastInDim S8x1x256x512 ![0, 2, 3] bcast_S8x256x512_S8x1x256x512_0_2_3 p23⟩, ⟨S8x1x256x512, broadcastInDim S8x1x256x512 ![0, 2, 3] bcast_S8x256x512_S8x1x256x512_0_2_3 p24⟩] concatenates_S8x1x256x512_S8x1x256x512_S8x1x256x512_S8x1x256x512_S8x1x256x512_S8x1x256x512_S8x1x256x512_S8x1x256x512_S8x1x256x512_S8x9x256x512_d1⟩]
    concatenates_S8x16x256x512_S8x9x256x512_S8x25x256x512_d1

/-- The last 28 operations, from any contents `S`, leave the stack of `S`'s 25 slice buffers in the result buffer. -/
theorem tail_read (S : Valuation τ sig (Elt F)) :
    after
     [unary main_v5 main_v147 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v11 main_v148 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v17 main_v149 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v23 main_v150 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v29 main_v151 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v35 main_v152 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v41 main_v153 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v47 main_v154 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v53 main_v155 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v59 main_v156 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v65 main_v157 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v71 main_v158 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v74 main_v159 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v80 main_v160 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v86 main_v161 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v92 main_v162 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v98 main_v163 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v104 main_v164 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v110 main_v165 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v116 main_v166 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v122 main_v167 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v128 main_v168 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v134 main_v169 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v140 main_v170 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      unary main_v146 main_v171 (broadcastInDim S8x1x256x512 ![0, 2, 3] bcast_S8x256x512_S8x1x256x512_0_2_3 : (⟨S8x256x512, .f32⟩ : BufTy).Contents (Elt F) → (⟨S8x1x256x512, .f32⟩ : BufTy).Contents (Elt F)),
      nary ![main_v147, main_v148, main_v149, main_v150, main_v151, main_v152, main_v153, main_v154, main_v155, main_v156, main_v157, main_v158, main_v159, main_v160, main_v161, main_v162] main_v172 (fun u => concatenate S8x16x256x512 1 [⟨S8x1x256x512, u 0⟩, ⟨S8x1x256x512, u 1⟩, ⟨S8x1x256x512, u 2⟩, ⟨S8x1x256x512, u 3⟩, ⟨S8x1x256x512, u 4⟩, ⟨S8x1x256x512, u 5⟩, ⟨S8x1x256x512, u 6⟩, ⟨S8x1x256x512, u 7⟩, ⟨S8x1x256x512, u 8⟩, ⟨S8x1x256x512, u 9⟩, ⟨S8x1x256x512, u 10⟩, ⟨S8x1x256x512, u 11⟩, ⟨S8x1x256x512, u 12⟩, ⟨S8x1x256x512, u 13⟩, ⟨S8x1x256x512, u 14⟩, ⟨S8x1x256x512, u 15⟩] concatenates_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x1x256x512_S8x16x256x512_d1),
      nary ![main_v163, main_v164, main_v165, main_v166, main_v167, main_v168, main_v169, main_v170, main_v171] main_v173 (fun u => concatenate S8x9x256x512 1 [⟨S8x1x256x512, u 0⟩, ⟨S8x1x256x512, u 1⟩, ⟨S8x1x256x512, u 2⟩, ⟨S8x1x256x512, u 3⟩, ⟨S8x1x256x512, u 4⟩, ⟨S8x1x256x512, u 5⟩, ⟨S8x1x256x512, u 6⟩, ⟨S8x1x256x512, u 7⟩, ⟨S8x1x256x512, u 8⟩] concatenates_S8x1x256x512_S8x1x256x512_S8x1x256x512_S8x1x256x512_S8x1x256x512_S8x1x256x512_S8x1x256x512_S8x1x256x512_S8x1x256x512_S8x9x256x512_d1),
      binary main_v172 main_v173 main_v174 ((fun a b => concatenate S8x25x256x512 1 [⟨S8x16x256x512, a⟩, ⟨S8x9x256x512, b⟩] concatenates_S8x16x256x512_S8x9x256x512_S8x25x256x512_d1) : (⟨S8x16x256x512, .f32⟩ : BufTy).Contents (Elt F) → (⟨S8x9x256x512, .f32⟩ : BufTy).Contents (Elt F) → (⟨S8x25x256x512, .f32⟩ : BufTy).Contents (Elt F))]
     S (Proc.devRef .tc main_v174)
      = stackOf (F := F) (S (Proc.devRef .tc main_v5)) (S (Proc.devRef .tc main_v11)) (S (Proc.devRef .tc main_v17)) (S (Proc.devRef .tc main_v23)) (S (Proc.devRef .tc main_v29)) (S (Proc.devRef .tc main_v35)) (S (Proc.devRef .tc main_v41)) (S (Proc.devRef .tc main_v47)) (S (Proc.devRef .tc main_v53)) (S (Proc.devRef .tc main_v59)) (S (Proc.devRef .tc main_v65)) (S (Proc.devRef .tc main_v71)) (S (Proc.devRef .tc main_v74)) (S (Proc.devRef .tc main_v80)) (S (Proc.devRef .tc main_v86)) (S (Proc.devRef .tc main_v92)) (S (Proc.devRef .tc main_v98)) (S (Proc.devRef .tc main_v104)) (S (Proc.devRef .tc main_v110)) (S (Proc.devRef .tc main_v116)) (S (Proc.devRef .tc main_v122)) (S (Proc.devRef .tc main_v128)) (S (Proc.devRef .tc main_v134)) (S (Proc.devRef .tc main_v140)) (S (Proc.devRef .tc main_v146)) := by
  after_results
  rfl

/-- The composed term of the result is the stack of the slices' terms. -/
theorem stack_eq (x0 x1 : (⟨S8x32x256x512, .f32⟩ : BufTy).Contents (Elt F)) :
    val_main_v174 (F := F) x0 x1 = stackOf (F := F) (val_main_v5 (F := F) x0 x1) (val_main_v11 (F := F) x0 x1) (val_main_v17 (F := F) x0 x1) (val_main_v23 (F := F) x0 x1) (val_main_v29 (F := F) x0 x1) (val_main_v35 (F := F) x0 x1) (val_main_v41 (F := F) x0 x1) (val_main_v47 (F := F) x0 x1) (val_main_v53 (F := F) x0 x1) (val_main_v59 (F := F) x0 x1) (val_main_v65 (F := F) x0 x1) (val_main_v71 (F := F) x0 x1) (val_main_v74 (F := F) x0 x1) (val_main_v80 (F := F) x0 x1) (val_main_v86 (F := F) x0 x1) (val_main_v92 (F := F) x0 x1) (val_main_v98 (F := F) x0 x1) (val_main_v104 (F := F) x0 x1) (val_main_v110 (F := F) x0 x1) (val_main_v116 (F := F) x0 x1) (val_main_v122 (F := F) x0 x1) (val_main_v128 (F := F) x0 x1) (val_main_v134 (F := F) x0 x1) (val_main_v140 (F := F) x0 x1) (val_main_v146 (F := F) x0 x1) := rfl

/-- THE RESULT BUFFER after the whole line: the composed term of the two arguments. -/
theorem result_after (V : Valuation τ sig (Elt F)) :
    after (ops (F := F)) V (Proc.devRef .tc main_v174)
      = val_main_v174 (F := F) (V (Proc.devRef .tc main_arg0)) (V (Proc.devRef .tc main_arg1)) := by
  rw [after_read_stretch (writesOnly (F := F)) 220 28 V main_v174 (by decide)]
  have e0 := (after_take_eq (writesOnly (F := F)) 220 V main_v5 (by decide)).trans (slab_after_0 V)
  have e1 := (after_take_eq (writesOnly (F := F)) 220 V main_v11 (by decide)).trans (slab_after_1 V)
  have e2 := (after_take_eq (writesOnly (F := F)) 220 V main_v17 (by decide)).trans (slab_after_2 V)
  have e3 := (after_take_eq (writesOnly (F := F)) 220 V main_v23 (by decide)).trans (slab_after_3 V)
  have e4 := (after_take_eq (writesOnly (F := F)) 220 V main_v29 (by decide)).trans (slab_after_4 V)
  have e5 := (after_take_eq (writesOnly (F := F)) 220 V main_v35 (by decide)).trans (slab_after_5 V)
  have e6 := (after_take_eq (writesOnly (F := F)) 220 V main_v41 (by decide)).trans (slab_after_6 V)
  have e7 := (after_take_eq (writesOnly (F := F)) 220 V main_v47 (by decide)).trans (slab_after_7 V)
  have e8 := (after_take_eq (writesOnly (F := F)) 220 V main_v53 (by decide)).trans (slab_after_8 V)
  have e9 := (after_take_eq (writesOnly (F := F)) 220 V main_v59 (by decide)).trans (slab_after_9 V)
  have e10 := (after_take_eq (writesOnly (F := F)) 220 V main_v65 (by decide)).trans (slab_after_10 V)
  have e11 := (after_take_eq (writesOnly (F := F)) 220 V main_v71 (by decide)).trans (slab_after_11 V)
  have e12 := (after_take_eq (writesOnly (F := F)) 220 V main_v74 (by decide)).trans (slab_after_12 V)
  have e13 := (after_take_eq (writesOnly (F := F)) 220 V main_v80 (by decide)).trans (slab_after_13 V)
  have e14 := (after_take_eq (writesOnly (F := F)) 220 V main_v86 (by decide)).trans (slab_after_14 V)
  have e15 := (after_take_eq (writesOnly (F := F)) 220 V main_v92 (by decide)).trans (slab_after_15 V)
  have e16 := (after_take_eq (writesOnly (F := F)) 220 V main_v98 (by decide)).trans (slab_after_16 V)
  have e17 := (after_take_eq (writesOnly (F := F)) 220 V main_v104 (by decide)).trans (slab_after_17 V)
  have e18 := (after_take_eq (writesOnly (F := F)) 220 V main_v110 (by decide)).trans (slab_after_18 V)
  have e19 := (after_take_eq (writesOnly (F := F)) 220 V main_v116 (by decide)).trans (slab_after_19 V)
  have e20 := (after_take_eq (writesOnly (F := F)) 220 V main_v122 (by decide)).trans (slab_after_20 V)
  have e21 := (after_take_eq (writesOnly (F := F)) 220 V main_v128 (by decide)).trans (slab_after_21 V)
  have e22 := (after_take_eq (writesOnly (F := F)) 220 V main_v134 (by decide)).trans (slab_after_22 V)
  have e23 := (after_take_eq (writesOnly (F := F)) 220 V main_v140 (by decide)).trans (slab_after_23 V)
  have e24 := (after_take_eq (writesOnly (F := F)) 220 V main_v146 (by decide)).trans (slab_after_24 V)
  generalize after ((ops (F := F)).take 220) V = S at e0 e1 e2 e3 e4 e5 e6 e7 e8 e9 e10 e11 e12 e13 e14 e15 e16 e17 e18 e19 e20 e21 e22 e23 e24 ⊢
  refine (tail_read S).trans ?_
  rw [e0, e1, e2, e3, e4, e5, e6, e7, e8, e9, e10, e11, e12, e13, e14, e15, e16, e17, e18, e19, e20, e21, e22, e23, e24, stack_eq]

/-! ## The run -/

/-- On every device, from any memory with zero counters: every weakly fair execution of @main terminates with the result
    buffer at the composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v174)
        = val_main_v174 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v174).trans (result_after _),
      (h c main_arg0).trans (arg0_after _),
      (h c main_arg1).trans (arg1_after _)⟩)
    (run_seq scopedRefs_eq scopedSems_eq defs main (fun _ => ops) main_eq (fun _ => ops_sub) m ρ (fun _ => ops_fresh))

end Cert.ReferenceIdeal.Staged

end
-- ==== Proof.lean ====
/-
  The proof of `Cert.Claim`: the Pallas cost-volume kernel against its jnp reference.

  Both programs compute, from feature arrays `x y : [8, 32, 256, 512]`, the residual cost volume
  `C (n, i, r, w) = ∑ c, |x (n, c, r, w) - y (n, c, r, w + 12 - i)|` where column `w + 12 - i` of `y` exists, and 0
  elsewhere, for the 25 disparities `i - 12` (`Proof/CostVolume.lean`).

  * The kernel (`Proof/KernelValue.lean`): each grid point takes one batch entry and 64 rows; for each disparity it rolls
    its block of `y` along the columns, sums `|x - rolled y|` over the channels and masks the columns the roll wrapped
    around. The mask is exactly the overlap, and inside it the roll reads column `w + 12 - i`
    (`Proof/SliceValue.lean`, `Proof/BlockValue.lean`); the 32 output blocks tile the result.
  * The reference (`Proof/RefValue.lean`): for each disparity it cuts the overlapping windows out of `x` and `y`, sums
    `|x - y|` over the channels and pads with zeros, then stacks the 25 slices (`Proof/RefSlice.lean`); its run is read
    buffer by buffer in `Proof/RefStaged.lean`.

  At the ideal values both are the same sums of the same 32 terms, so nothing beyond the commutative monoid of the
  extended reals is used and the precondition (finite inputs) is never opened. The idealization rewrote nothing, so
  `preserves` is `True`. The frames of the two kernel programs are the generated ones; the reference's frame is its run
  with the result dropped.
-/
import proofs.«124119_j13718125543602_2_alg».proof.Defs
import proofs.«124119_j13718125543602_2_alg».proof.Proof.Gen.Kernel
import proofs.«124119_j13718125543602_2_alg».proof.Proof.Gen.Kernel.Skeleton
import proofs.«124119_j13718125543602_2_alg».proof.Proof.Gen.Kernel.Launch
import proofs.«124119_j13718125543602_2_alg».proof.Proof.Gen.Kernel.Points
import proofs.«124119_j13718125543602_2_alg».proof.Proof.Gen.Kernel.Frame
import proofs.«124119_j13718125543602_2_alg».proof.Proof.Gen.KernelIdeal
import proofs.«124119_j13718125543602_2_alg».proof.Proof.Gen.KernelIdeal.Skeleton
import proofs.«124119_j13718125543602_2_alg».proof.Proof.Gen.KernelIdeal.Launch
import proofs.«124119_j13718125543602_2_alg».proof.Proof.Gen.KernelIdeal.Points
import proofs.«124119_j13718125543602_2_alg».proof.Proof.Gen.KernelIdeal.Frame
import proofs.«124119_j13718125543602_2_alg».proof.Proof.Gen.ReferenceIdeal
import proofs.«124119_j13718125543602_2_alg».proof.Proof.Gen.Pre_finite_inputs
import proofs.«124119_j13718125543602_2_alg».proof.Proof.KernelValue
import proofs.«124119_j13718125543602_2_alg».proof.Proof.RefValue
import proofs.«124119_j13718125543602_2_alg».proof.Proof.RefStaged
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Staged.run (F := Ideal) m ρ)

/-- Both runs end at the cost volume of the (agreeing) arguments. -/
theorem algebraic : Cert.algebraic_KernelIdeal_ReferenceIdeal := by
  intro m ρ m' ρ' _ hagree
  have href := Cert.ReferenceIdeal.Staged.run (F := Ideal) m' ρ'
  refine ⟨_, Cert.KernelIdeal.ArrayValue.run m ρ, (θ_run Cert.ReferenceIdeal.defs _ _).mono ?_ href⟩
  intro r h c
  refine ⟨(h c).1.trans ?_, (h c).2⟩
  rw [Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
